-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S_ : Shape := ⟨0, ![]⟩
abbrev S8x128x3 : Shape := ⟨3, ![8, 128, 3]⟩
abbrev S8x4224x3 : Shape := ⟨3, ![8, 4224, 3]⟩
abbrev S8x3x4224 : Shape := ⟨3, ![8, 3, 4224]⟩
abbrev S8x1x4224 : Shape := ⟨3, ![8, 1, 4224]⟩
abbrev S1x1408x3 : Shape := ⟨3, ![1, 1408, 3]⟩
abbrev S1x3x1408 : Shape := ⟨3, ![1, 3, 1408]⟩
abbrev S1x1x4224 : Shape := ⟨3, ![1, 1, 4224]⟩
abbrev S1x4224 : Shape := ⟨2, ![1, 4224]⟩
abbrev S1408x3 : Shape := ⟨2, ![1408, 3]⟩
abbrev S3x1408 : Shape := ⟨2, ![3, 1408]⟩
abbrev S1408 : Shape := ⟨1, ![1408]⟩
abbrev S1408x1 : Shape := ⟨2, ![1408, 1]⟩
abbrev S1x1408 : Shape := ⟨2, ![1, 1408]⟩
abbrev S1408x1408 : Shape := ⟨2, ![1408, 1408]⟩
abbrev S1x1x1408 : Shape := ⟨3, ![1, 1, 1408]⟩
abbrev S8x4224 : Shape := ⟨2, ![8, 4224]⟩
abbrev S8 : Shape := ⟨1, ![8]⟩
abbrev S1x8 : Shape := ⟨2, ![1, 8]⟩
abbrev S1 : Shape := ⟨1, ![1]⟩

abbrev nBuf : Space → Nat
  | .hbm => 47
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S_, .f32⟩
  | .hbm, ⟨3, _⟩ => ⟨S8x128x3, .f32⟩
  | .hbm, ⟨4, _⟩ => ⟨S_, .f32⟩
  | .hbm, ⟨5, _⟩ => ⟨S8x128x3, .f32⟩
  | .hbm, ⟨6, _⟩ => ⟨S8x4224x3, .f32⟩
  | .hbm, ⟨7, _⟩ => ⟨S8x4224x3, .f32⟩
  | .hbm, ⟨8, _⟩ => ⟨S8x3x4224, .f32⟩
  | .hbm, ⟨9, _⟩ => ⟨S8x1x4224, .f32⟩
  | .hbm, ⟨10, _⟩ => ⟨S8x1x4224, .f32⟩
  | .hbm, ⟨11, _⟩ => ⟨S8x4224, .f32⟩
  | .hbm, ⟨12, _⟩ => ⟨S8x4224, .f32⟩
  | .hbm, ⟨13, _⟩ => ⟨S_, .f32⟩
  | .hbm, ⟨14, _⟩ => ⟨S8x4224, .f32⟩
  | .hbm, ⟨15, _⟩ => ⟨S8x4224, .i1⟩
  | .hbm, ⟨16, _⟩ => ⟨S8x4224, .i32⟩
  | .hbm, ⟨17, _⟩ => ⟨S_, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S_, .f32⟩
  | .hbm, ⟨23, _⟩ => ⟨S8x4224, .f32⟩
  | .hbm, ⟨24, _⟩ => ⟨S8x4224, .i1⟩
  | .hbm, ⟨25, _⟩ => ⟨S8x4224, .i32⟩
  | .hbm, ⟨26, _⟩ => ⟨S_, .i32⟩
  | .hbm, ⟨27, _⟩ => ⟨S8, .i32⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S8, .f32⟩
  | .hbm, ⟨39, _⟩ => ⟨S8, .f32⟩
  | .hbm, ⟨40, _⟩ => ⟨S1x8, .f32⟩
  | .hbm, ⟨41, _⟩ => ⟨S_, .f32⟩
  | .hbm, ⟨42, _⟩ => ⟨S1, .f32⟩
  | .hbm, ⟨43, _⟩ => ⟨S_, .f32⟩
  | .hbm, ⟨44, _⟩ => ⟨S1, .f32⟩
  | .hbm, ⟨45, _⟩ => ⟨S1, .f32⟩
  | .hbm, ⟨46, _⟩ => ⟨S_, .f32⟩
  | .local _ .vmem, ⟨0, _⟩ => ⟨S1x1408x3, .f32⟩
  | .local _ .vmem, ⟨1, _⟩ => ⟨S1x1408x3, .f32⟩
  | .local _ .vmem, ⟨2, _⟩ => ⟨S1x3x1408, .f32⟩
  | .local _ .vmem, ⟨3, _⟩ => ⟨S1x3x1408, .f32⟩
  | .local _ .vmem, ⟨4, _⟩ => ⟨S1x1x4224, .f32⟩
  | .local _ .vmem, ⟨5, _⟩ => ⟨S1x1x4224, .f32⟩
  | .local _ .vmem, ⟨6, _⟩ => ⟨S1x1x4224, .f32⟩
  | .local _ .vmem, ⟨7, _⟩ => ⟨S1x1x4224, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 3, 3], ![false, false, false]⟩

def k0_mult1 (i : grid0.Coords) : BitVec 32 :=
  let arg1 : BitVec 32 := BitVec.ofNat 32 (i 1).val
  let c1408_i32 : BitVec 32 := 1408#32
  let v45 : BitVec 32 := Scalar.muli arg1 c1408_i32
  v45
def k0_mult2 (i : grid0.Coords) : BitVec 32 :=
  let arg2 : BitVec 32 := BitVec.ofNat 32 (i 2).val
  let c1408_i32_12 : BitVec 32 := 1408#32
  let v47 : BitVec 32 := Scalar.muli arg2 c1408_i32_12
  v47
def k0_off1 (i : grid0.Coords) : Fin 3 → Nat :=
  let c0_13 : Index := 0#32
  let c0_14 : Index := 0#32
  let arg1 : BitVec 32 := BitVec.ofNat 32 (i 1).val
  let c1408_i32 : BitVec 32 := 1408#32
  let v45 : BitVec 32 := Scalar.muli arg1 c1408_i32
  let v46 : BitVec 32 := v45
  let v49 : Index := Scalar.indexCast v46
  ![0, 0, v49.toNat]
def k0_off2 (i : grid0.Coords) : Fin 3 → Nat :=
  let c0_17 : Index := 0#32
  let c0_18 : Index := 0#32
  let arg2 : BitVec 32 := BitVec.ofNat 32 (i 2).val
  let c1408_i32_12 : BitVec 32 := 1408#32
  let v47 : BitVec 32 := Scalar.muli arg2 c1408_i32_12
  let v48 : BitVec 32 := v47
  let v57 : Index := Scalar.indexCast v48
  ![0, 0, v57.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1408x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x4224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x4224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  bcast_S_S8x128x3 : S_.BroadcastsInDim S8x128x3 (![] : Fin 0 → Fin S8x128x3.rank)
  concatenates_S8x4096x3_S8x128x3_S8x4224x3_d1 : Shape.Concatenates [S8x4096x3, S8x128x3] S8x4224x3 1
  transposes_S8x4224x3_S8x3x4224_0_2_1 : S8x4224x3.Transposes [0, 2, 1] S8x3x4224
  inb_S1x1x4224_S1x1x4224_0_0_0 : ∀ a, (![0, 0, 0] : Fin 3 → Nat) a + S1x1x4224.size a ≤ S1x1x4224.size a
  h_S1x1x4224 : 0 < S1x1x4224.numel
  shapeCasts_S1x1x4224_S1x4224 : S1x1x4224.ShapeCasts S1x4224
  shapeCasts_S1x4224_S1x1x4224 : S1x4224.ShapeCasts S1x1x4224
  inb_S1x1408x3_S1x1408x3_0_0_0 : ∀ a, (![0, 0, 0] : Fin 3 → Nat) a + S1x1408x3.size a ≤ S1x1408x3.size a
  h_S1x1408x3 : 0 < S1x1408x3.numel
  shapeCasts_S1x1408x3_S1408x3 : S1x1408x3.ShapeCasts S1408x3
  inb_S1x3x1408_S1x3x1408_0_0_0 : ∀ a, (![0, 0, 0] : Fin 3 → Nat) a + S1x3x1408.size a ≤ S1x3x1408.size a
  h_S1x3x1408 : 0 < S1x3x1408.numel
  shapeCasts_S1x3x1408_S3x1408 : S1x3x1408.ShapeCasts S3x1408
  reduces_S1408x3_S1408 : S1408x3.Reduces [1] S1408
  shapeCasts_S1408_S1408x1 : S1408.ShapeCasts S1408x1
  reduces_S3x1408_S1408 : S3x1408.Reduces [0] S1408
  shapeCasts_S1408_S1x1408 : S1408.ShapeCasts S1x1408
  slices_S1408x3_o0_0_S1408x1 : S1408x3.Slices ![0, 0] S1408x1
  slices_S3x1408_o0_0_S1x1408 : S3x1408.Slices ![0, 0] S1x1408
  broadcasts_S1408x1_S1408x1408 : S1408x1.Broadcasts S1408x1408
  broadcasts_S1x1408_S1408x1408 : S1x1408.Broadcasts S1408x1408
  slices_S1408x3_o0_1_S1408x1 : S1408x3.Slices ![0, 1] S1408x1
  slices_S3x1408_o1_0_S1x1408 : S3x1408.Slices ![1, 0] S1x1408
  slices_S1408x3_o0_2_S1408x1 : S1408x3.Slices ![0, 2] S1408x1
  slices_S3x1408_o2_0_S1x1408 : S3x1408.Slices ![2, 0] S1x1408
  reduces_S1408x1408_S1408 : S1408x1408.Reduces [1] S1408
  transposes_S1408x1_p1_0_S1x1408 : S1408x1.Transposes [1, 0] S1x1408
  reduces_S1408x1408_S1408_2 : S1408x1408.Reduces [0] S1408
  h_S1x1x1408 : 0 < S1x1x1408.numel
  shapeCasts_S1x1x1408_S1x1408 : S1x1x1408.ShapeCasts S1x1408
  shapeCasts_S1x1408_S1x1x1408 : S1x1408.ShapeCasts S1x1x1408
  shapeCasts_S8x1x4224_S8x4224 : S8x1x4224.ShapeCasts S8x4224
  bcast_S_S8x4224 : S_.BroadcastsInDim S8x4224 (![] : Fin 0 → Fin S8x4224.rank)
  natLt_1_32 : 1 < 32
  reducesTo_S8x4224_S8_d1 : S8x4224.ReducesTo [1] S8
  h_S_ : 0 < S_.numel
  bcast_S_S8 : S_.BroadcastsInDim S8 (![] : Fin 0 → Fin S8.rank)
  shapeCasts_S8_S1x8 : S8.ShapeCasts S1x8
  reducesTo_S1x8_S1_d1 : S1x8.ReducesTo [1] S1
  bcast_S_S1 : S_.BroadcastsInDim S1 (![] : Fin 0 → Fin S1.rank)
  shapeCasts_S1_S_ : S1.ShapeCasts S_
  hrank0 : 0 < grid0.rank
  k0_mult1_dvd : ∀ i : grid0.Coords, 1408 ∣ (k0_mult1 i).toNat
  k0_mult2_dvd : ∀ i : grid0.Coords, 1408 ∣ (k0_mult2 i).toNat
  k0_off1_inb : ∀ i : grid0.Coords, ∀ a, (k0_off1 i) a + S1x1x1408.size a ≤ S1x1x4224.size a
  k0_off2_inb : ∀ i : grid0.Coords, ∀ a, (k0_off2 i) a + S1x1x1408.size a ≤ S1x1x4224.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1408x3.size a ≤ S8x4224x3.size a
  hwx0_0 : ∀ i : grid0.Coords, EltTy.bits .f32 = 32 ∨ (Rect.block (s := S8x4224x3) S1x1408x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1408.size a ≤ S8x3x4224.size a
  hwx0_1 : ∀ i : grid0.Coords, EltTy.bits .f32 = 32 ∨ (Rect.block (s := S8x3x4224) S1x3x1408.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4224.size a ≤ S8x1x4224.size a
  hwx0_2 : ∀ i : grid0.Coords, EltTy.bits .f32 = 32 ∨ (Rect.block (s := S8x1x4224) S1x1x4224.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4224.size a ≤ S8x1x4224.size a
  hwx0_3 : ∀ i : grid0.Coords, EltTy.bits .f32 = 32 ∨ (Rect.block (s := S8x1x4224) S1x1x4224.size (cc0_transform_3 i) (hinb0_3 i)).WholeWords (EltTy.packing .f32)

variable [Facts₀]

abbrev win0_0 : Pipeline.Window sig grid0 :=
  Pipeline.Window.ofSpec (Memref.whole main_v2) S1x1408x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x3x1408.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S1x1x4224.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S1x1x4224.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x3 : Shape := ⟨3, ![8, 4096, 3]⟩
abbrev S_ : Shape := ⟨0, ![]⟩
abbrev S8x1x3 : Shape := ⟨3, ![8, 1, 3]⟩
abbrev S8x4097x3 : Shape := ⟨3, ![8, 4097, 3]⟩
abbrev S8x4097 : Shape := ⟨2, ![8, 4097]⟩
abbrev S8x4097x4097 : Shape := ⟨3, ![8, 4097, 4097]⟩
abbrev S8x4097x1 : Shape := ⟨3, ![8, 4097, 1]⟩
abbrev S8x1x4097 : Shape := ⟨3, ![8, 1, 4097]⟩
abbrev S8 : Shape := ⟨1, ![8]⟩
abbrev S1x8 : Shape := ⟨2, ![1, 8]⟩
abbrev S1 : Shape := ⟨1, ![1]⟩

abbrev nBuf : Space → Nat
  | .hbm => 63
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S_, .f32⟩
  | .hbm, ⟨3, _⟩ => ⟨S8x1x3, .f32⟩
  | .hbm, ⟨4, _⟩ => ⟨S8x4097x3, .f32⟩
  | .hbm, ⟨5, _⟩ => ⟨S8x4097x3, .f32⟩
  | .hbm, ⟨6, _⟩ => ⟨S8x4097x3, .f32⟩
  | .hbm, ⟨7, _⟩ => ⟨S_, .f32⟩
  | .hbm, ⟨8, _⟩ => ⟨S8x4097, .f32⟩
  | .hbm, ⟨9, _⟩ => ⟨S8x4097x3, .f32⟩
  | .hbm, ⟨10, _⟩ => ⟨S_, .f32⟩
  | .hbm, ⟨11, _⟩ => ⟨S8x4097, .f32⟩
  | .hbm, ⟨12, _⟩ => ⟨S8x4097x4097, .f32⟩
  | .hbm, ⟨13, _⟩ => ⟨S8x4097x1, .f32⟩
  | .hbm, ⟨14, _⟩ => ⟨S8x1x4097, .f32⟩
  | .hbm, ⟨15, _⟩ => ⟨S8x4097x4097, .f32⟩
  | .hbm, ⟨16, _⟩ => ⟨S8x4097x4097, .f32⟩
  | .hbm, ⟨17, _⟩ => ⟨S8x4097x4097, .f32⟩
  | .hbm, ⟨18, _⟩ => ⟨S_, .f32⟩
  | .hbm, ⟨19, _⟩ => ⟨S8x4097x4097, .f32⟩
  | .hbm, ⟨20, _⟩ => ⟨S8x4097x4097, .f32⟩
  | .hbm, ⟨21, _⟩ => ⟨S8x4097x4097, .f32⟩
  | .hbm, ⟨22, _⟩ => ⟨S_, .f32⟩
  | .hbm, ⟨23, _⟩ => ⟨S8x4097x4097, .f32⟩
  | .hbm, ⟨24, _⟩ => ⟨S8x4097x4097, .f32⟩
  | .hbm, ⟨25, _⟩ => ⟨S_, .f32⟩
  | .hbm, ⟨26, _⟩ => ⟨S8x4097, .f32⟩
  | .hbm, ⟨27, _⟩ => ⟨S_, .f32⟩
  | .hbm, ⟨28, _⟩ => ⟨S8x4097, .f32⟩
  | .hbm, ⟨29, _⟩ => ⟨S_, .f32⟩
  | .hbm, ⟨30, _⟩ => ⟨S8x4097, .f32⟩
  | .hbm, ⟨31, _⟩ => ⟨S8x4097, .i1⟩
  | .hbm, ⟨32, _⟩ => ⟨S8x4097, .i32⟩
  | .hbm, ⟨33, _⟩ => ⟨S_, .i32⟩
  | .hbm, ⟨34, _⟩ => ⟨S8, .i32⟩
  | .hbm, ⟨35, _⟩ => ⟨S_, .i32⟩
  | .hbm, ⟨36, _⟩ => ⟨S8, .i32⟩
  | .hbm, ⟨37, _⟩ => ⟨S8, .i32⟩
  | .hbm, ⟨38, _⟩ => ⟨S_, .f32⟩
  | .hbm, ⟨39, _⟩ => ⟨S8x4097, .f32⟩
  | .hbm, ⟨40, _⟩ => ⟨S8x4097, .i1⟩
  | .hbm, ⟨41, _⟩ => ⟨S8x4097, .i32⟩
  | .hbm, ⟨42, _⟩ => ⟨S_, .i32⟩
  | .hbm, ⟨43, _⟩ => ⟨S8, .i32⟩
  | .hbm, ⟨44, _⟩ => ⟨S_, .i32⟩
  | .hbm, ⟨45, _⟩ => ⟨S8, .i32⟩
  | .hbm, ⟨46, _⟩ => ⟨S8, .i32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S8, .f32⟩
  | .hbm, ⟨55, _⟩ => ⟨S8, .f32⟩
  | .hbm, ⟨56, _⟩ => ⟨S1x8, .f32⟩
  | .hbm, ⟨57, _⟩ => ⟨S_, .f32⟩
  | .hbm, ⟨58, _⟩ => ⟨S1, .f32⟩
  | .hbm, ⟨59, _⟩ => ⟨S_, .f32⟩
  | .hbm, ⟨60, _⟩ => ⟨S1, .f32⟩
  | .hbm, ⟨61, _⟩ => ⟨S1, .f32⟩
  | .hbm, ⟨62, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_c_7 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_9 : Ref sig .tc := ⟨.hbm, 42, rfl⟩
abbrev main_v29 : Ref sig .tc := ⟨.hbm, 43, rfl⟩
abbrev main_c_10 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_12 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_cst_14 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]

class Facts₀ : Prop where
  bcast_S_S8x1x3 : S_.BroadcastsInDim S8x1x3 (![] : Fin 0 → Fin S8x1x3.rank)
  concatenates_S8x4096x3_S8x1x3_S8x4097x3_d1 : Shape.Concatenates [S8x4096x3, S8x1x3] S8x4097x3 1
  reducesTo_S8x4097x3_S8x4097_d2 : S8x4097x3.ReducesTo [2] S8x4097
  h_S_ : 0 < S_.numel
  bcast_S8x4097_S8x4097x1_0_1 : S8x4097.BroadcastsInDim S8x4097x1 (![0, 1] : Fin 2 → Fin S8x4097x1.rank)
  bcast_S8x4097_S8x1x4097_0_2 : S8x4097.BroadcastsInDim S8x1x4097 (![0, 2] : Fin 2 → Fin S8x1x4097.rank)
  bcast_S8x4097x1_S8x4097x4097_0_1_2 : S8x4097x1.BroadcastsInDim S8x4097x4097 (![0, 1, 2] : Fin 3 → Fin S8x4097x4097.rank)
  bcast_S8x1x4097_S8x4097x4097_0_1_2 : S8x1x4097.BroadcastsInDim S8x4097x4097 (![0, 1, 2] : Fin 3 → Fin S8x4097x4097.rank)
  bcast_S_S8x4097x4097 : S_.BroadcastsInDim S8x4097x4097 (![] : Fin 0 → Fin S8x4097x4097.rank)
  reducesTo_S8x4097x4097_S8x4097_d2 : S8x4097x4097.ReducesTo [2] S8x4097
  reducesTo_S8x4097x4097_S8x4097_d1 : S8x4097x4097.ReducesTo [1] S8x4097
  bcast_S_S8x4097 : S_.BroadcastsInDim S8x4097 (![] : Fin 0 → Fin S8x4097.rank)
  natLt_1_32 : 1 < 32
  reducesTo_S8x4097_S8_d1 : S8x4097.ReducesTo [1] S8
  bcast_S_S8 : S_.BroadcastsInDim S8 (![] : Fin 0 → Fin S8.rank)
  shapeCasts_S8_S1x8 : S8.ShapeCasts S1x8
  reducesTo_S1x8_S1_d1 : S1x8.ReducesTo [1] S1
  bcast_S_S1 : S_.BroadcastsInDim S1 (![] : Fin 0 → Fin S1.rank)
  shapeCasts_S1_S_ : S1.ShapeCasts S_
  dot_S8x4097x3_S8x4097x3_S8x4097x4097_2_2_1_1_0_0_wf : DotDims.WF S8x4097x3 S8x4097x3 S8x4097x4097 [2] [2] [1] [1] [0] [0]

variable [Facts₀]

def dot_S8x4097x3_S8x4097x3_S8x4097x4097_2_2_1_1_0_0 : DotDims S8x4097x3 S8x4097x3 S8x4097x4097 where
  lhsContracting := [2]
  rhsContracting := [2]
  lhsNonContracting := [1]
  rhsNonContracting := [1]
  lhsBatch := [0]
  rhsBatch := [0]
  wf := dot_S8x4097x3_S8x4097x3_S8x4097x4097_2_2_1_1_0_0_wf

class Facts : Prop extends Facts₀ where

variable [Facts]
-- ==== Proof.KI.Cases.lean ====
import proofs.«152621_j67577015435957_2_alg».proof.Proof.Gen.KernelIdeal.Frame
import proofs.«152621_j67577015435957_2_alg».proof.Proof.Gen.KernelIdeal.Skeleton
import Idealize.ShloMosaic.Lib.Pipeline.FrameBody
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The reset condition

The body resets both accumulators exactly when the second and third grid coordinates are both zero: at the first of
the nine points of each batch element. -/

/-- The condition of the body's one conditional, from the grid coordinates. -/
abbrev cond0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- It holds at the points that are multiples of nine. -/
theorem hcond0 : ∀ t : Fin cfg0.N, cond0 (grid0.coords t) ↔ t.val % 9 = 0 :=
  (by decide +kernel : ∀ t : Fin grid0.N, cond0 (grid0.coords t) ↔ t.val % 9 = 0)

/-- Each window's current staging memref at point `t`, and its wholeness. -/
abbrev ms0 (t : Fin cfg0.N) : Memref sig .tc .vmem S1x1408x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x1408 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x4224 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4224 .f32 := win0_3.stage (cfg0.slots t 3)
abbrev hs3 (t : Fin cfg0.N) : (ms3 t).IsWhole := hstage0_3 ((cfg0.slots t 3).cast nbuf0_3)

/-- What a run of the body leaves in the two accumulators: for each, the list of stores (newest first) made over the
    contents it was entered with, together with the run itself. -/
structure RunOut (P : List (View.Piece (Elt F) S1x1x4224 .f32) → List (View.Piece (Elt F) S1x1x4224 .f32) → Prop) where
  L1 : List (View.Piece (Elt F) S1x1x4224 .f32)
  L2 : List (View.Piece (Elt F) S1x1x4224 .f32)
  run : P L1 L2

set_option maxHeartbeats 1000000 in
/-- The body away from a reset point: entered with the two accumulators at `xo5`, `xo6`, it leaves each with one
    slice overwritten. -/
noncomputable def runB (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : ¬cond0 i)
    (x0 : Vec F S1x1408x3 .f32) (x1 : Vec F S1x3x1408 .f32) (xo5 xo6 : Vec F S1x1x4224 .f32) :
    RunOut (F := F) fun L1 L2 =>
      ∀ (E : Set ℕ) (K : PUnit → sProp 𝕄),
        iprop(owns (c : Thread nD τ) arg3 fullShare x0 ∗ owns (c : Thread nD τ) arg4 fullShare x1 ∗ owns (c : Thread nD τ) arg5 fullShare xo5 ∗ owns (c : Thread nD τ) arg6 fullShare xo6
            ∗ (iprop(owns (c : Thread nD τ) arg3 fullShare x0 ∗ owns (c : Thread nD τ) arg4 fullShare x1
                ∗ (arg5.view.loc (c : Thread nD τ) ↦[arg5.view.set]{fullShare} arg5.view.writes (Elt F) (harg5.unread xo5) L1)
                ∗ (arg6.view.loc (c : Thread nD τ) ↦[arg6.view.set]{fullShare} arg6.view.writes (Elt F) (harg6.unread xo6) L2)) -∗ K ⟨⟩))
          ⊢ wp frame (wpE (defs₀ (F := F)) Variants.none c none) E (cc0__chamfer_kernel i arg3 harg3 arg4 harg4 arg5 harg5 arg6 harg6) K := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexact H2
    iexact H3

set_option maxHeartbeats 1000000 in
/-- The body at a reset point: whatever the two accumulators held, it leaves each filled with +∞ and then one slice
    overwritten. -/
noncomputable def runA (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : cond0 i)
    (x0 : Vec F S1x1408x3 .f32) (x1 : Vec F S1x3x1408 .f32) :
    RunOut (F := F) fun L1 L2 =>
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L1)
                ∗ (∃ f, arg6.view.loc (c : Thread nD τ) ↦[arg6.view.set]{fullShare} arg6.view.writes (Elt F) f L2)) -∗ K ⟨⟩))
          ⊢ wp frame (wpE (defs₀ (F := F)) Variants.none c none) E (cc0__chamfer_kernel i arg3 harg3 arg4 harg4 arg5 harg5 arg6 harg6) K := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

end Cert.KernelIdeal.Body

end
-- ==== Proof.KI.Frame.lean ====
import proofs.«152621_j67577015435957_2_alg».proof.Proof.Gen.KernelIdeal.Frame
import proofs.«152621_j67577015435957_2_alg».proof.Proof.KI.Cases
import proofs.«152621_j67577015435957_2_alg».proof.Proof.Gen.KernelIdeal.Skeleton
import Idealize.ShloMosaic.Lib.Pipeline.FrameBody
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two accumulators -/

/-- At a reset point the last store of each list fills the whole block, so the stores cover it. -/
theorem coverA5 (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : cond0 i)
    (x0 : Vec F S1x1408x3 .f32) (x1 : Vec F S1x3x1408 .f32) (y : S1x1x4224.Idx) :
    ∃ p ∈ (runA c i arg3 harg3 arg4 harg4 arg5 harg5 arg6 harg6 hc0 x0 x1).L1, y ∈ p.1.set := by
  unfold runA
  dsimp only
  unfold runA.sl.H2_1
  refine ⟨_, List.mem_cons_of_mem _ (List.mem_singleton.mpr rfl), ?_⟩
  rw [Rect.mem_set_unit]
  intro a
  have h := (y a).isLt
  fin_cases a <;> exact ⟨Nat.zero_le _, by simpa using h⟩

theorem coverA6 (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : cond0 i)
    (x0 : Vec F S1x1408x3 .f32) (x1 : Vec F S1x3x1408 .f32) (y : S1x1x4224.Idx) :
    ∃ p ∈ (runA c i arg3 harg3 arg4 harg4 arg5 harg5 arg6 harg6 hc0 x0 x1).L2, y ∈ p.1.set := by
  unfold runA
  dsimp only
  unfold runA.sl.H3_1
  refine ⟨_, List.mem_cons_of_mem _ (List.mem_singleton.mpr rfl), ?_⟩
  rw [Rect.mem_set_unit]
  intro a
  have h := (y a).isLt
  fin_cases a <;> exact ⟨Nat.zero_le _, by simpa using h⟩

/-- What a reset point leaves in the first accumulator: its stores read back (they cover the block, so nothing of the
    earlier contents shows). -/
def outA5 (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : cond0 i)
    (x0 : Vec F S1x1408x3 .f32) (x1 : Vec F S1x3x1408 .f32) : Vec F S1x1x4224 .f32 :=
  View.canon (runA c i arg3 harg3 arg4 harg4 arg5 harg5 arg6 harg6 hc0 x0 x1).L1
/-- What a reset point leaves in the second accumulator. -/
def outA6 (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : cond0 i)
    (x0 : Vec F S1x1408x3 .f32) (x1 : Vec F S1x3x1408 .f32) : Vec F S1x1x4224 .f32 :=
  View.canon (runA c i arg3 harg3 arg4 harg4 arg5 harg5 arg6 harg6 hc0 x0 x1).L2
/-- What any other point leaves in the first accumulator: its one store over the contents `xo5` it was entered with. -/
def outB5 (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : ¬cond0 i)
    (x0 : Vec F S1x1408x3 .f32) (x1 : Vec F S1x3x1408 .f32) (xo5 xo6 : Vec F S1x1x4224 .f32) : Vec F S1x1x4224 .f32 :=
  arg5.view.read (Elt F) (arg5.view.writes (Elt F) (harg5.unread xo5) (runB c i arg3 harg3 arg4 harg4 arg5 harg5 arg6 harg6 hc0 x0 x1 xo5 xo6).L1)
/-- What any other point leaves in the second accumulator. -/
def outB6 (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : ¬cond0 i)
    (x0 : Vec F S1x1408x3 .f32) (x1 : Vec F S1x3x1408 .f32) (xo5 xo6 : Vec F S1x1x4224 .f32) : Vec F S1x1x4224 .f32 :=
  arg6.view.read (Elt F) (arg6.view.writes (Elt F) (harg6.unread xo6) (runB c i arg3 harg3 arg4 harg4 arg5 harg5 arg6 harg6 hc0 x0 x1 xo5 xo6).L2)

/-! ## The accumulation, point by point -/

/-- What the two accumulators' staging buffers hold after the body at position `n`: at a multiple of nine the reset
    case's contents, elsewhere the other case's over what position `n - 1` left. -/
def outsAt (c : Dev nD) : (n : ℕ) → n < cfg0.N → Vec F S1x1x4224 .f32 × Vec F S1x1x4224 .f32
  | 0, hn =>
    (outA5 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((hcond0 ⟨0, hn⟩).mpr (Nat.zero_mod _)) (iblk m c 0 ⟨0, hn⟩) (iblk m c 1 ⟨0, hn⟩),
     outA6 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((hcond0 ⟨0, hn⟩).mpr (Nat.zero_mod _)) (iblk m c 0 ⟨0, hn⟩) (iblk m c 1 ⟨0, hn⟩))
  | n + 1, hn =>
    if h0 : (n + 1) % 9 = 0 then
      (outA5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((hcond0 ⟨n + 1, hn⟩).mpr h0) (iblk m c 0 ⟨n + 1, hn⟩) (iblk m c 1 ⟨n + 1, hn⟩),
       outA6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((hcond0 ⟨n + 1, hn⟩).mpr h0) (iblk m c 0 ⟨n + 1, hn⟩) (iblk m c 1 ⟨n + 1, hn⟩))
    else
      (outB5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((hcond0 ⟨n + 1, hn⟩).mp h)) (iblk m c 0 ⟨n + 1, hn⟩) (iblk m c 1 ⟨n + 1, hn⟩) (outsAt c n (Nat.lt_of_succ_lt hn)).1 (outsAt c n (Nat.lt_of_succ_lt hn)).2,
       outB6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((hcond0 ⟨n + 1, hn⟩).mp h)) (iblk m c 0 ⟨n + 1, hn⟩) (iblk m c 1 ⟨n + 1, hn⟩) (outsAt c n (Nat.lt_of_succ_lt hn)).1 (outsAt c n (Nat.lt_of_succ_lt hn)).2)

/-- `outsAt` at a reset point. -/
theorem outsAt_A (c : Dev nD) (t : Fin cfg0.N) (h0 : t.val % 9 = 0) :
    outsAt m c t.val t.isLt =
      (outA5 c (grid0.coords t) (ms0 t) (hs0 t) (ms1 t) (hs1 t) (ms2 t) (hs2 t) (ms3 t) (hs3 t) ((hcond0 t).mpr h0) (iblk m c 0 t) (iblk m c 1 t),
       outA6 c (grid0.coords t) (ms0 t) (hs0 t) (ms1 t) (hs1 t) (ms2 t) (hs2 t) (ms3 t) (hs3 t) ((hcond0 t).mpr h0) (iblk m c 0 t) (iblk m c 1 t)) := by
  obtain ⟨n, hn⟩ := t
  cases n with
  | zero => exact rfl
  | succ n => exact (dif_pos h0).trans rfl

/-- `outsAt` at any other point: over what the point before left. -/
theorem outsAt_B (c : Dev nD) (t : Fin cfg0.N) (h0 : ¬t.val % 9 = 0) :
    outsAt m c t.val t.isLt =
      (outB5 c (grid0.coords t) (ms0 t) (hs0 t) (ms1 t) (hs1 t) (ms2 t) (hs2 t) (ms3 t) (hs3 t) (fun h => h0 ((hcond0 t).mp h)) (iblk m c 0 t) (iblk m c 1 t)
          (outsAt m c (t.val - 1) (Nat.lt_of_le_of_lt (Nat.sub_le _ _) t.isLt)).1 (outsAt m c (t.val - 1) (Nat.lt_of_le_of_lt (Nat.sub_le _ _) t.isLt)).2,
       outB6 c (grid0.coords t) (ms0 t) (hs0 t) (ms1 t) (hs1 t) (ms2 t) (hs2 t) (ms3 t) (hs3 t) (fun h => h0 ((hcond0 t).mp h)) (iblk m c 0 t) (iblk m c 1 t)
          (outsAt m c (t.val - 1) (Nat.lt_of_le_of_lt (Nat.sub_le _ _) t.isLt)).1 (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the accumulators' at `outsAt`; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Away from a reset point an accumulator's staging buffer holds what the body left at the point before: the point is
    not the first, and the buffer is written back only after the last of a batch element's nine points. -/
theorem before2_B (c : Dev nD) (t : Fin cfg0.N) (h0 : ¬t.val % 9 = 0) (d) :
    (dats m 0 c).before 2 t d = (outsAt m c (t.val - 1) (Nat.lt_of_le_of_lt (Nat.sub_le _ _) t.isLt)).1 := by
  have hN : t.val < 72 := lt_of_lt_of_eq t.isLt (show cfg0.N = 72 from N_0)
  rw [Dat.before_out_kept _ 2 rfl t (by omega) (Bool.eq_false_iff.mpr fun h => by have := (flush0_2 _).mp h; dsimp only at this; omega)
    (fun _ => rfl) (fun _ _ => rfl)]
  dsimp only [dats]
theorem before3_B (c : Dev nD) (t : Fin cfg0.N) (h0 : ¬t.val % 9 = 0) (d) :
    (dats m 0 c).before 3 t d = (outsAt m c (t.val - 1) (Nat.lt_of_le_of_lt (Nat.sub_le _ _) t.isLt)).2 := by
  have hN : t.val < 72 := lt_of_lt_of_eq t.isLt (show cfg0.N = 72 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' memrefs hold their blocks; the closed form of the condition says which case the
    point is in; away from a reset point the accumulators hold what the point before left; so that case's run applies;
    the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  have hN : t.val < 72 := lt_of_lt_of_eq t.isLt (show cfg0.N = 72 from N_0)
  by_cases h0 : t.val % 9 = 0
  · rw [outsAt_A m c t h0]
    dsimp only
    unfold outA5 outA6
    iintro ⟨HΦ, Ho, ⟨%d0, H0⟩, ⟨%d1, H1⟩, ⟨%d2, H2⟩, ⟨%d3, H3⟩⟩
    iapply ((runA c (grid0.coords t) _ _ _ _ _ _ _ _ ((hcond0 t).mpr h0) (iblk m c 0 t) (iblk m c 1 t)).run Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_eq_canon _ _ _ (coverA5 c _ _ _ _ _ _ _ _ _ _ _ _)
    unfold owns; iexists _; isplitr
    swap; · iexact H3
    ipureintro; exact View.read_writes_eq_canon _ _ _ (coverA6 c _ _ _ _ _ _ _ _ _ _ _ _)
  · rw [outsAt_B m c t h0]
    dsimp only
    simp only [before2_B m c t h0, before3_B m c t h0]
    unfold outB5 outB6
    iintro ⟨HΦ, Ho, ⟨%d0, H0⟩, ⟨%d1, H1⟩, ⟨%d2, H2⟩, ⟨%d3, H3⟩⟩
    iapply ((runB c (grid0.coords t) _ _ _ _ _ _ _ _ (fun h => h0 ((hcond0 t).mp h)) (iblk m c 0 t) (iblk m c 1 t) _ _).run Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; rfl
    unfold owns; iexists _; isplitr
    swap; · iexact H3
    ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, from any memory with zero counters: every weakly fair execution of @main terminates, every
    array of the pipeline ends at what the library computes from the proof data, and every other unscoped buffer at what
    the host lines after the region compute from the region's exit contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.K.Cases.lean ====
import proofs.«152621_j67577015435957_2_alg».proof.Proof.Gen.Kernel.Frame
import proofs.«152621_j67577015435957_2_alg».proof.Proof.Gen.Kernel.Skeleton
import Idealize.ShloMosaic.Lib.Pipeline.FrameBody
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The reset condition

The body resets both accumulators exactly when the second and third grid coordinates are both zero: at the first of
the nine points of each batch element. -/

/-- The condition of the body's one conditional, from the grid coordinates. -/
abbrev cond0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- It holds at the points that are multiples of nine. -/
theorem hcond0 : ∀ t : Fin cfg0.N, cond0 (grid0.coords t) ↔ t.val % 9 = 0 :=
  (by decide +kernel : ∀ t : Fin grid0.N, cond0 (grid0.coords t) ↔ t.val % 9 = 0)

/-- Each window's current staging memref at point `t`, and its wholeness. -/
abbrev ms0 (t : Fin cfg0.N) : Memref sig .tc .vmem S1x1408x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x1408 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x4224 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4224 .f32 := win0_3.stage (cfg0.slots t 3)
abbrev hs3 (t : Fin cfg0.N) : (ms3 t).IsWhole := hstage0_3 ((cfg0.slots t 3).cast nbuf0_3)

/-- What a run of the body leaves in the two accumulators: for each, the list of stores (newest first) made over the
    contents it was entered with, together with the run itself. -/
structure RunOut (P : List (View.Piece (Elt F) S1x1x4224 .f32) → List (View.Piece (Elt F) S1x1x4224 .f32) → Prop) where
  L1 : List (View.Piece (Elt F) S1x1x4224 .f32)
  L2 : List (View.Piece (Elt F) S1x1x4224 .f32)
  run : P L1 L2

set_option maxHeartbeats 1000000 in
/-- The body away from a reset point: entered with the two accumulators at `xo5`, `xo6`, it leaves each with one
    slice overwritten. -/
noncomputable def runB (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : ¬cond0 i)
    (x0 : Vec F S1x1408x3 .f32) (x1 : Vec F S1x3x1408 .f32) (xo5 xo6 : Vec F S1x1x4224 .f32) :
    RunOut (F := F) fun L1 L2 =>
      ∀ (E : Set ℕ) (K : PUnit → sProp 𝕄),
        iprop(owns (c : Thread nD τ) arg3 fullShare x0 ∗ owns (c : Thread nD τ) arg4 fullShare x1 ∗ owns (c : Thread nD τ) arg5 fullShare xo5 ∗ owns (c : Thread nD τ) arg6 fullShare xo6
            ∗ (iprop(owns (c : Thread nD τ) arg3 fullShare x0 ∗ owns (c : Thread nD τ) arg4 fullShare x1
                ∗ (arg5.view.loc (c : Thread nD τ) ↦[arg5.view.set]{fullShare} arg5.view.writes (Elt F) (harg5.unread xo5) L1)
                ∗ (arg6.view.loc (c : Thread nD τ) ↦[arg6.view.set]{fullShare} arg6.view.writes (Elt F) (harg6.unread xo6) L2)) -∗ K ⟨⟩))
          ⊢ wp frame (wpE (defs₀ (F := F)) Variants.none c none) E (cc0__chamfer_kernel i arg3 harg3 arg4 harg4 arg5 harg5 arg6 harg6) K := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexact H2
    iexact H3

set_option maxHeartbeats 1000000 in
/-- The body at a reset point: whatever the two accumulators held, it leaves each filled with +∞ and then one slice
    overwritten. -/
noncomputable def runA (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : cond0 i)
    (x0 : Vec F S1x1408x3 .f32) (x1 : Vec F S1x3x1408 .f32) :
    RunOut (F := F) fun L1 L2 =>
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L1)
                ∗ (∃ f, arg6.view.loc (c : Thread nD τ) ↦[arg6.view.set]{fullShare} arg6.view.writes (Elt F) f L2)) -∗ K ⟨⟩))
          ⊢ wp frame (wpE (defs₀ (F := F)) Variants.none c none) E (cc0__chamfer_kernel i arg3 harg3 arg4 harg4 arg5 harg5 arg6 harg6) K := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

end Cert.Kernel.Body

end
-- ==== Proof.K.Frame.lean ====
import proofs.«152621_j67577015435957_2_alg».proof.Proof.Gen.Kernel.Frame
import proofs.«152621_j67577015435957_2_alg».proof.Proof.K.Cases
import proofs.«152621_j67577015435957_2_alg».proof.Proof.Gen.Kernel.Skeleton
import Idealize.ShloMosaic.Lib.Pipeline.FrameBody
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two accumulators -/

/-- At a reset point the last store of each list fills the whole block, so the stores cover it. -/
theorem coverA5 (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : cond0 i)
    (x0 : Vec F S1x1408x3 .f32) (x1 : Vec F S1x3x1408 .f32) (y : S1x1x4224.Idx) :
    ∃ p ∈ (runA c i arg3 harg3 arg4 harg4 arg5 harg5 arg6 harg6 hc0 x0 x1).L1, y ∈ p.1.set := by
  unfold runA
  dsimp only
  unfold runA.sl.H2_1
  refine ⟨_, List.mem_cons_of_mem _ (List.mem_singleton.mpr rfl), ?_⟩
  rw [Rect.mem_set_unit]
  intro a
  have h := (y a).isLt
  fin_cases a <;> exact ⟨Nat.zero_le _, by simpa using h⟩

theorem coverA6 (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : cond0 i)
    (x0 : Vec F S1x1408x3 .f32) (x1 : Vec F S1x3x1408 .f32) (y : S1x1x4224.Idx) :
    ∃ p ∈ (runA c i arg3 harg3 arg4 harg4 arg5 harg5 arg6 harg6 hc0 x0 x1).L2, y ∈ p.1.set := by
  unfold runA
  dsimp only
  unfold runA.sl.H3_1
  refine ⟨_, List.mem_cons_of_mem _ (List.mem_singleton.mpr rfl), ?_⟩
  rw [Rect.mem_set_unit]
  intro a
  have h := (y a).isLt
  fin_cases a <;> exact ⟨Nat.zero_le _, by simpa using h⟩

/-- What a reset point leaves in the first accumulator: its stores read back (they cover the block, so nothing of the
    earlier contents shows). -/
def outA5 (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : cond0 i)
    (x0 : Vec F S1x1408x3 .f32) (x1 : Vec F S1x3x1408 .f32) : Vec F S1x1x4224 .f32 :=
  View.canon (runA c i arg3 harg3 arg4 harg4 arg5 harg5 arg6 harg6 hc0 x0 x1).L1
/-- What a reset point leaves in the second accumulator. -/
def outA6 (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : cond0 i)
    (x0 : Vec F S1x1408x3 .f32) (x1 : Vec F S1x3x1408 .f32) : Vec F S1x1x4224 .f32 :=
  View.canon (runA c i arg3 harg3 arg4 harg4 arg5 harg5 arg6 harg6 hc0 x0 x1).L2
/-- What any other point leaves in the first accumulator: its one store over the contents `xo5` it was entered with. -/
def outB5 (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : ¬cond0 i)
    (x0 : Vec F S1x1408x3 .f32) (x1 : Vec F S1x3x1408 .f32) (xo5 xo6 : Vec F S1x1x4224 .f32) : Vec F S1x1x4224 .f32 :=
  arg5.view.read (Elt F) (arg5.view.writes (Elt F) (harg5.unread xo5) (runB c i arg3 harg3 arg4 harg4 arg5 harg5 arg6 harg6 hc0 x0 x1 xo5 xo6).L1)
/-- What any other point leaves in the second accumulator. -/
def outB6 (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : ¬cond0 i)
    (x0 : Vec F S1x1408x3 .f32) (x1 : Vec F S1x3x1408 .f32) (xo5 xo6 : Vec F S1x1x4224 .f32) : Vec F S1x1x4224 .f32 :=
  arg6.view.read (Elt F) (arg6.view.writes (Elt F) (harg6.unread xo6) (runB c i arg3 harg3 arg4 harg4 arg5 harg5 arg6 harg6 hc0 x0 x1 xo5 xo6).L2)

/-! ## The accumulation, point by point -/

/-- What the two accumulators' staging buffers hold after the body at position `n`: at a multiple of nine the reset
    case's contents, elsewhere the other case's over what position `n - 1` left. -/
def outsAt (c : Dev nD) : (n : ℕ) → n < cfg0.N → Vec F S1x1x4224 .f32 × Vec F S1x1x4224 .f32
  | 0, hn =>
    (outA5 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((hcond0 ⟨0, hn⟩).mpr (Nat.zero_mod _)) (iblk m c 0 ⟨0, hn⟩) (iblk m c 1 ⟨0, hn⟩),
     outA6 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((hcond0 ⟨0, hn⟩).mpr (Nat.zero_mod _)) (iblk m c 0 ⟨0, hn⟩) (iblk m c 1 ⟨0, hn⟩))
  | n + 1, hn =>
    if h0 : (n + 1) % 9 = 0 then
      (outA5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((hcond0 ⟨n + 1, hn⟩).mpr h0) (iblk m c 0 ⟨n + 1, hn⟩) (iblk m c 1 ⟨n + 1, hn⟩),
       outA6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((hcond0 ⟨n + 1, hn⟩).mpr h0) (iblk m c 0 ⟨n + 1, hn⟩) (iblk m c 1 ⟨n + 1, hn⟩))
    else
      (outB5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((hcond0 ⟨n + 1, hn⟩).mp h)) (iblk m c 0 ⟨n + 1, hn⟩) (iblk m c 1 ⟨n + 1, hn⟩) (outsAt c n (Nat.lt_of_succ_lt hn)).1 (outsAt c n (Nat.lt_of_succ_lt hn)).2,
       outB6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((hcond0 ⟨n + 1, hn⟩).mp h)) (iblk m c 0 ⟨n + 1, hn⟩) (iblk m c 1 ⟨n + 1, hn⟩) (outsAt c n (Nat.lt_of_succ_lt hn)).1 (outsAt c n (Nat.lt_of_succ_lt hn)).2)

/-- `outsAt` at a reset point. -/
theorem outsAt_A (c : Dev nD) (t : Fin cfg0.N) (h0 : t.val % 9 = 0) :
    outsAt m c t.val t.isLt =
      (outA5 c (grid0.coords t) (ms0 t) (hs0 t) (ms1 t) (hs1 t) (ms2 t) (hs2 t) (ms3 t) (hs3 t) ((hcond0 t).mpr h0) (iblk m c 0 t) (iblk m c 1 t),
       outA6 c (grid0.coords t) (ms0 t) (hs0 t) (ms1 t) (hs1 t) (ms2 t) (hs2 t) (ms3 t) (hs3 t) ((hcond0 t).mpr h0) (iblk m c 0 t) (iblk m c 1 t)) := by
  obtain ⟨n, hn⟩ := t
  cases n with
  | zero => exact rfl
  | succ n => exact (dif_pos h0).trans rfl

/-- `outsAt` at any other point: over what the point before left. -/
theorem outsAt_B (c : Dev nD) (t : Fin cfg0.N) (h0 : ¬t.val % 9 = 0) :
    outsAt m c t.val t.isLt =
      (outB5 c (grid0.coords t) (ms0 t) (hs0 t) (ms1 t) (hs1 t) (ms2 t) (hs2 t) (ms3 t) (hs3 t) (fun h => h0 ((hcond0 t).mp h)) (iblk m c 0 t) (iblk m c 1 t)
          (outsAt m c (t.val - 1) (Nat.lt_of_le_of_lt (Nat.sub_le _ _) t.isLt)).1 (outsAt m c (t.val - 1) (Nat.lt_of_le_of_lt (Nat.sub_le _ _) t.isLt)).2,
       outB6 c (grid0.coords t) (ms0 t) (hs0 t) (ms1 t) (hs1 t) (ms2 t) (hs2 t) (ms3 t) (hs3 t) (fun h => h0 ((hcond0 t).mp h)) (iblk m c 0 t) (iblk m c 1 t)
          (outsAt m c (t.val - 1) (Nat.lt_of_le_of_lt (Nat.sub_le _ _) t.isLt)).1 (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the accumulators' at `outsAt`; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Away from a reset point an accumulator's staging buffer holds what the body left at the point before: the point is
    not the first, and the buffer is written back only after the last of a batch element's nine points. -/
theorem before2_B (c : Dev nD) (t : Fin cfg0.N) (h0 : ¬t.val % 9 = 0) (d) :
    (dats m 0 c).before 2 t d = (outsAt m c (t.val - 1) (Nat.lt_of_le_of_lt (Nat.sub_le _ _) t.isLt)).1 := by
  have hN : t.val < 72 := lt_of_lt_of_eq t.isLt (show cfg0.N = 72 from N_0)
  rw [Dat.before_out_kept _ 2 rfl t (by omega) (Bool.eq_false_iff.mpr fun h => by have := (flush0_2 _).mp h; dsimp only at this; omega)
    (fun _ => rfl) (fun _ _ => rfl)]
  dsimp only [dats]
theorem before3_B (c : Dev nD) (t : Fin cfg0.N) (h0 : ¬t.val % 9 = 0) (d) :
    (dats m 0 c).before 3 t d = (outsAt m c (t.val - 1) (Nat.lt_of_le_of_lt (Nat.sub_le _ _) t.isLt)).2 := by
  have hN : t.val < 72 := lt_of_lt_of_eq t.isLt (show cfg0.N = 72 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' memrefs hold their blocks; the closed form of the condition says which case the
    point is in; away from a reset point the accumulators hold what the point before left; so that case's run applies;
    the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  have hN : t.val < 72 := lt_of_lt_of_eq t.isLt (show cfg0.N = 72 from N_0)
  by_cases h0 : t.val % 9 = 0
  · rw [outsAt_A m c t h0]
    dsimp only
    unfold outA5 outA6
    iintro ⟨HΦ, Ho, ⟨%d0, H0⟩, ⟨%d1, H1⟩, ⟨%d2, H2⟩, ⟨%d3, H3⟩⟩
    iapply ((runA c (grid0.coords t) _ _ _ _ _ _ _ _ ((hcond0 t).mpr h0) (iblk m c 0 t) (iblk m c 1 t)).run Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_eq_canon _ _ _ (coverA5 c _ _ _ _ _ _ _ _ _ _ _ _)
    unfold owns; iexists _; isplitr
    swap; · iexact H3
    ipureintro; exact View.read_writes_eq_canon _ _ _ (coverA6 c _ _ _ _ _ _ _ _ _ _ _ _)
  · rw [outsAt_B m c t h0]
    dsimp only
    simp only [before2_B m c t h0, before3_B m c t h0]
    unfold outB5 outB6
    iintro ⟨HΦ, Ho, ⟨%d0, H0⟩, ⟨%d1, H1⟩, ⟨%d2, H2⟩, ⟨%d3, H3⟩⟩
    iapply ((runB c (grid0.coords t) _ _ _ _ _ _ _ _ (fun h => h0 ((hcond0 t).mp h)) (iblk m c 0 t) (iblk m c 1 t) _ _).run Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; rfl
    unfold owns; iexists _; isplitr
    swap; · iexact H3
    ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, from any memory with zero counters: every weakly fair execution of @main terminates, every
    array of the pipeline ends at what the library computes from the proof data, and every other unscoped buffer at what
    the host lines after the region compute from the region's exit contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.Spec.lean ====
/-
  The mathematics both programs compute, over curried coordinates and with no program imported.

  A cloud is a family of points of the extended-real 3-space, `Fin N → Fin 3 → EReal`. Two clouds X, Y give the
  clamped squared distances `sq (X n) (Y m) = max (|X n|² + |Y m|² − 2·⟨X n, Y m⟩) 0`; each point's nearest distance is
  the infimum of its row (`near1`) or column (`near2`). A side of the loss is the sum of the nearest distances divided by
  the number of strictly positive ones (at least one), the loss of a pair of clouds is the sum of its two sides, and
  the scalar result is the mean of the eight losses. Both programs first append copies of one sentinel point to each
  cloud (`pad`): 128 copies on one side, a single copy on the other.
-/
import Idealize.ShloMosaic.PureOps.Ideal
import Idealize.ShloMosaic.PureOps.Ideal.Laws
import Mathlib.Data.BitVec
import Idealize.ShloMosaic.Lib.ValueIdx

noncomputable section

namespace Chamfer

open Idealize.ShloMosaic

/-- The sentinel coordinate (the binary32 word of 1000). -/
def padv : EReal := Ideal.ofBits .f32 0x447A0000#32
/-- The factor of the cross term (the binary32 word of 2). -/
def two : EReal := Ideal.ofBits .f32 0x40000000#32
/-- The divisor of the mean (the binary32 word of 8). -/
def eight : EReal := Ideal.ofBits .f32 0x41000000#32

/-- The clamped squared distance of two points: |u|² + |v|² − 2⟨u,v⟩, floored at 0. -/
def sq (u v : Fin 3 → EReal) : EReal :=
  max (((∑ d, u d * u d) + (∑ d, v d * v d)) - two * (∑ d, u d * v d)) 0

/-- The distance from point `n` of X to the nearest point of Y. -/
def near1 {N M : ℕ} (X : Fin N → Fin 3 → EReal) (Y : Fin M → Fin 3 → EReal) (n : Fin N) : EReal :=
  Finset.univ.inf fun m => sq (X n) (Y m)
/-- The distance from point `m` of Y to the nearest point of X. -/
def near2 {N M : ℕ} (X : Fin N → Fin 3 → EReal) (Y : Fin M → Fin 3 → EReal) (m : Fin M) : EReal :=
  Finset.univ.inf fun n => sq (X n) (Y m)

/-- One entry's contribution to the count: the comparison `f n > 0` as a bit, widened to 32 bits. -/
def gt0 (a : EReal) : BitVec 32 := (FloatOps.cmpf (F := Ideal) (φ := .f32) .ogt a 0).setWidth 32
/-- The number of strictly positive entries, summed as 32-bit words. -/
def count {N : ℕ} (f : Fin N → EReal) : BitVec 32 := ∑ n, gt0 (f n)
/-- That number, at least one (a signed maximum), read as an extended real. -/
def posf {N : ℕ} (f : Fin N → EReal) : EReal := FloatOps.sitofp (F := Ideal) .f32 (IntOp.maxsi (count f) 1#32)
/-- One side of the loss: the sum of the entries over the number of positive ones. -/
def side {N : ℕ} (f : Fin N → EReal) : EReal := Ideal.div (∑ n, f n) (posf f)
/-- The loss of a pair of nearest-distance vectors. -/
def comb {N M : ℕ} (d1 : Fin N → EReal) (d2 : Fin M → EReal) : EReal := side d1 + side d2
/-- The mean of eight losses. -/
def mean8 (g : Fin 8 → EReal) : EReal := Ideal.div (∑ b, g b) eight

/-- A cloud of `N` points extended to `N'` points by copies of the sentinel point. -/
def pad {N : ℕ} (N' : ℕ) (X : Fin N → Fin 3 → EReal) : Fin N' → Fin 3 → EReal :=
  fun n d => if h : n.val < N then X ⟨n.val, h⟩ d else padv

/-- An argument array of eight clouds of 4096 points, read at curried coordinates. -/
def cloud (x : (⟨3, ![8, 4096, 3]⟩ : Shape).Idx → EReal) : Fin 8 → Fin 4096 → Fin 3 → EReal :=
  fun b n d => x (ValueIdx.ix3 b n d)

/-- The loss of batch element `b` when both clouds are padded to `N'` points. -/
def loss (N' : ℕ) (x y : Fin 8 → Fin 4096 → Fin 3 → EReal) (b : Fin 8) : EReal :=
  comb (near1 (pad N' (x b)) (pad N' (y b))) (near2 (pad N' (x b)) (pad N' (y b)))

end Chamfer

end
-- ==== Proof.RefSide.lean ====
/-
  The reference program computes the loss of the specification.

  Each cloud is extended by one sentinel point; the squared norms of the points, their inner products and the clamp
  give the clamped squared distance of every pair; the minimum over a row or a column is a nearest distance; a side
  of the loss is the sum of the nearest distances over the number of positive ones; the result is the mean of the
  eight sums of two sides. Every stage is read at explicit coordinates and identified with the corresponding function
  of the specification. No hypothesis on the inputs is used: every step is a reading of a definition, and the only
  arithmetic facts are 0 + a = a and min ⊤ a = a.
-/
import proofs.«152621_j67577015435957_2_alg».proof.Proof.Gen.ReferenceIdeal.Read
import proofs.«152621_j67577015435957_2_alg».proof.Proof.Spec
import Idealize.ShloMosaic.PureOps.Reduce
import Idealize.ShloMosaic.PureOps.Ideal.Laws
import Idealize.ShloMosaic.Lib.Pipeline.Value
import Idealize.ShloMosaic.Lib.ValueIdx

noncomputable section

namespace Cert.ReferenceIdeal.RefValue

open Cert.ReferenceIdeal Cert.ReferenceIdeal.Read Cert.ReferenceIdeal.Gen Idealize.ShloMosaic Idealize.ShloMosaic.ValueIdx

/-- An argument array of the reference. -/
abbrev Arg : Type := (⟨S8x4096x3, .f32⟩ : BufTy).Contents (Elt Ideal)

/-! ## The padded clouds -/

/-- The first cloud with its sentinel point, at (b, n, d). -/
theorem v1_at (x0 : Arg) (b : Fin 8) (n : Fin 4097) (d : Fin 3) :
    val_main_v1 (F := Ideal) x0 (ix3 b n d) = Chamfer.pad 4097 (Chamfer.cloud x0 b) n d := by
  unfold val_main_v1 Chamfer.pad
  by_cases h : n.val < 4096
  · rw [dif_pos h]
    exact concatenate_pair_apply_left 1 x0 (val_main_v0 (F := Ideal)) concatenates_S8x4096x3_S8x1x3_S8x4097x3_d1
      (ix3 b n d) rfl (ix3 b (⟨n.val, h⟩ : Fin 4096) d)
      (fun c => by match c with | ⟨0, _⟩ => rfl | ⟨1, _⟩ => rfl | ⟨2, _⟩ => rfl)
  · rw [dif_neg h]
    refine (concatenate_pair_apply_right 1 x0 (val_main_v0 (F := Ideal)) concatenates_S8x4096x3_S8x1x3_S8x4097x3_d1
      (ix3 b n d) rfl rfl (ix3 b (0 : Fin 1) d)
      (fun c hc => by match c with | ⟨0, _⟩ => rfl | ⟨1, _⟩ => exact absurd rfl hc | ⟨2, _⟩ => rfl) ?_).trans ?_
    · show 0 + 4096 = n.val
      have := n.isLt; omega
    · rw [val_main_v0_apply, val_main_cst_apply]; rfl

/-- The second cloud with its sentinel point, at (b, m, d). -/
theorem v2_at (x1 : Arg) (b : Fin 8) (m : Fin 4097) (d : Fin 3) :
    val_main_v2 (F := Ideal) x1 (ix3 b m d) = Chamfer.pad 4097 (Chamfer.cloud x1 b) m d := by
  unfold val_main_v2 Chamfer.pad
  by_cases h : m.val < 4096
  · rw [dif_pos h]
    exact concatenate_pair_apply_left 1 x1 (val_main_v0 (F := Ideal)) concatenates_S8x4096x3_S8x1x3_S8x4097x3_d1
      (ix3 b m d) rfl (ix3 b (⟨m.val, h⟩ : Fin 4096) d)
      (fun c => by match c with | ⟨0, _⟩ => rfl | ⟨1, _⟩ => rfl | ⟨2, _⟩ => rfl)
  · rw [dif_neg h]
    refine (concatenate_pair_apply_right 1 x1 (val_main_v0 (F := Ideal)) concatenates_S8x4096x3_S8x1x3_S8x4097x3_d1
      (ix3 b m d) rfl rfl (ix3 b (0 : Fin 1) d)
      (fun c hc => by match c with | ⟨0, _⟩ => rfl | ⟨1, _⟩ => exact absurd rfl hc | ⟨2, _⟩ => rfl) ?_).trans ?_
    · show 0 + 4096 = m.val
      have := m.isLt; omega
    · rw [val_main_v0_apply, val_main_cst_apply]; rfl

/-! ## Squared norms, inner products, clamped squared distances -/

/-- The squared norm of point n of the first padded cloud. -/
theorem v4_at (x0 : Arg) (b : Fin 8) (n : Fin 4097) :
    val_main_v4 (F := Ideal) x0 (ix2 b n)
      = ∑ d : Fin 3, Chamfer.pad 4097 (Chamfer.cloud x0 b) n d * Chamfer.pad 4097 (Chamfer.cloud x0 b) n d := by
  have e : ∀ k : Fin 3, idx_main_v4 (ix2 b n) k = ix3 b n k := fun k =>
    funext fun a => Fin.ext (by match a with | ⟨0, _⟩ => rfl | ⟨1, _⟩ => rfl | ⟨2, _⟩ => rfl)
  rw [val_main_v4_apply, val_main_cst_0_apply]
  simp only [e, val_main_v3_apply, v1_at, Ideal.ofBits_def, Ideal.ofBits_zero_f32, Ideal.mulf_def, zero_add]

/-- The squared norm of point m of the second padded cloud. -/
theorem v6_at (x1 : Arg) (b : Fin 8) (m : Fin 4097) :
    val_main_v6 (F := Ideal) x1 (ix2 b m)
      = ∑ d : Fin 3, Chamfer.pad 4097 (Chamfer.cloud x1 b) m d * Chamfer.pad 4097 (Chamfer.cloud x1 b) m d := by
  have e : ∀ k : Fin 3, idx_main_v6 (ix2 b m) k = ix3 b m k := fun k =>
    funext fun a => Fin.ext (by match a with | ⟨0, _⟩ => rfl | ⟨1, _⟩ => rfl | ⟨2, _⟩ => rfl)
  rw [val_main_v6_apply, val_main_cst_1_apply]
  simp only [e, val_main_v5_apply, v2_at, Ideal.ofBits_def, Ideal.ofBits_zero_f32, Ideal.mulf_def, zero_add]

/-- The inner product of point n of the first padded cloud with point m of the second. -/
theorem v7_at (x0 x1 : Arg) (b : Fin 8) (n m : Fin 4097) :
    val_main_v7 (F := Ideal) x0 x1 (ix3 b n m)
      = ∑ d : Fin 3, Chamfer.pad 4097 (Chamfer.cloud x0 b) n d * Chamfer.pad 4097 (Chamfer.cloud x1 b) m d := by
  have el : ∀ k : Fin 3, lidx_main_v7 (ix3 b n m) k = ix3 b n k := fun k =>
    funext fun a => Fin.ext (by match a with | ⟨0, _⟩ => rfl | ⟨1, _⟩ => rfl | ⟨2, _⟩ => rfl)
  have er : ∀ k : Fin 3, ridx_main_v7 (ix3 b n m) k = ix3 b m k := fun k =>
    funext fun a => Fin.ext (by match a with | ⟨0, _⟩ => rfl | ⟨1, _⟩ => rfl | ⟨2, _⟩ => rfl)
  rw [val_main_v7_apply]
  simp only [el, er, v1_at, v2_at]

/-- The clamped squared distance of point n of the first padded cloud and point m of the second. -/
theorem v17_at (x0 x1 : Arg) (b : Fin 8) (n m : Fin 4097) :
    val_main_v17 (F := Ideal) x0 x1 (ix3 b n m)
      = Chamfer.sq (Chamfer.pad 4097 (Chamfer.cloud x0 b) n) (Chamfer.pad 4097 (Chamfer.cloud x1 b) m) := by
  have e10 : idx_main_v8 (idx_main_v10 (ix3 b n m)) = ix2 b n :=
    funext fun a => Fin.ext (by match a with | ⟨0, _⟩ => rfl | ⟨1, _⟩ => rfl)
  have e11 : idx_main_v9 (idx_main_v11 (ix3 b n m)) = ix2 b m :=
    funext fun a => Fin.ext (by match a with | ⟨0, _⟩ => rfl | ⟨1, _⟩ => rfl)
  rw [val_main_v17_apply, val_main_v15_apply, val_main_v12_apply, val_main_v14_apply, val_main_v10_apply,
    val_main_v8_apply, val_main_v11_apply, val_main_v9_apply, val_main_v13_apply, val_main_cst_2_apply,
    val_main_v16_apply, val_main_cst_3_apply, e10, e11, v4_at, v6_at, v7_at]
  simp only [Ideal.ofBits_def, Ideal.ofBits_zero_f32, Ideal.mulf_def, Ideal.addf_def, Ideal.subf_def, Ideal.maximumf_def]
  rfl

/-! ## Nearest distances: the two minimum reductions -/

/-- The fold of the minimum from +∞ over a finite family is its infimum. -/
theorem fold_min_top {N : ℕ} (f : Fin N → EReal) :
    (Finset.univ : Finset (Fin N)).fold (FloatOps.minimumf (F := Ideal) (φ := .f32)) (Ideal.ofBits .f32 0x7F800000#32) f
      = Finset.univ.inf f := by
  have ht : Ideal.ofBits .f32 0x7F800000#32 = (⊤ : EReal) := by simp [Ideal.ofBits, Ideal.ieee]
  rw [ht]
  rfl

theorem reduces_d2 : S8x4097x4097.Reduces [2] S8x4097 := by decide
theorem reduces_d1 : S8x4097x4097.Reduces [1] S8x4097 := by decide

/-- Row (b, n) of the distance array with column m put back is (b, n, m). -/
theorem lift_d2 (b : Fin 8) (n : Fin 4097) (k : Fin (S8x4097x4097.size 2)) :
    reduces_d2.lift (ix2 b n) k = ix3 b n (⟨k.val, k.isLt⟩ : Fin 4097) := by
  funext c; apply Fin.ext
  match c with
  | ⟨0, _⟩ => rfl
  | ⟨1, _⟩ => rfl
  | ⟨2, _⟩ => rfl

/-- Column (b, m) of the distance array with row n put back is (b, n, m). -/
theorem lift_d1 (b : Fin 8) (m : Fin 4097) (k : Fin (S8x4097x4097.size 1)) :
    reduces_d1.lift (ix2 b m) k = ix3 b (⟨k.val, k.isLt⟩ : Fin 4097) m := by
  funext c; apply Fin.ext
  match c with
  | ⟨0, _⟩ => rfl
  | ⟨1, _⟩ => rfl
  | ⟨2, _⟩ => rfl

/-- The distance from point n of the first padded cloud to the nearest point of the second. -/
theorem v18_at (x0 x1 : Arg) (b : Fin 8) (n : Fin 4097) :
    val_main_v18 (F := Ideal) x0 x1 (ix2 b n)
      = Chamfer.near1 (Chamfer.pad 4097 (Chamfer.cloud x0 b)) (Chamfer.pad 4097 (Chamfer.cloud x1 b)) n := by
  unfold val_main_v18
  have hf : (val_main_v17 (F := Ideal) x0 x1 ∘ reduces_d2.lift (ix2 b n))
      = fun m : Fin 4097 => Chamfer.sq (Chamfer.pad 4097 (Chamfer.cloud x0 b) n) (Chamfer.pad 4097 (Chamfer.cloud x1 b) m) :=
    funext fun k => (congrArg (val_main_v17 (F := Ideal) x0 x1) (lift_d2 b n k)).trans (v17_at x0 x1 b n _)
  generalize val_main_v17 (F := Ideal) x0 x1 = y at hf ⊢
  refine (Host.reduce_eq_fold_single (FloatOps.minimumf (F := Ideal) (φ := .f32)) y _ reducesTo_S8x4097x4097_S8x4097_d2 reduces_d2 h_S_ (ix2 b n)).trans ?_
  rw [val_main_cst_4_apply]
  refine Eq.trans ?_ (fold_min_top _)
  exact congrArg (fun f => Finset.fold (FloatOps.minimumf (F := Ideal) (φ := .f32)) (Ideal.ofBits .f32 0x7F800000#32) f
    (Finset.univ : Finset (Fin 4097))) hf

/-- The distance from point m of the second padded cloud to the nearest point of the first. -/
theorem v19_at (x0 x1 : Arg) (b : Fin 8) (m : Fin 4097) :
    val_main_v19 (F := Ideal) x0 x1 (ix2 b m)
      = Chamfer.near2 (Chamfer.pad 4097 (Chamfer.cloud x0 b)) (Chamfer.pad 4097 (Chamfer.cloud x1 b)) m := by
  unfold val_main_v19
  have hf : (val_main_v17 (F := Ideal) x0 x1 ∘ reduces_d1.lift (ix2 b m))
      = fun n : Fin 4097 => Chamfer.sq (Chamfer.pad 4097 (Chamfer.cloud x0 b) n) (Chamfer.pad 4097 (Chamfer.cloud x1 b) m) :=
    funext fun k => (congrArg (val_main_v17 (F := Ideal) x0 x1) (lift_d1 b m k)).trans (v17_at x0 x1 b _ m)
  generalize val_main_v17 (F := Ideal) x0 x1 = y at hf ⊢
  refine (Host.reduce_eq_fold_single (FloatOps.minimumf (F := Ideal) (φ := .f32)) y _ reducesTo_S8x4097x4097_S8x4097_d1 reduces_d1 h_S_ (ix2 b m)).trans ?_
  rw [val_main_cst_5_apply]
  refine Eq.trans ?_ (fold_min_top _)
  exact congrArg (fun f => Finset.fold (FloatOps.minimumf (F := Ideal) (φ := .f32)) (Ideal.ofBits .f32 0x7F800000#32) f
    (Finset.univ : Finset (Fin 4097))) hf

/-! ## The numbers of positive nearest distances: the two integer sums -/

/-- The fold of the 32-bit addition from 0 over a finite family is its sum. -/
theorem fold_addi_zero {N : ℕ} (f : Fin N → BitVec 32) :
    (Finset.univ : Finset (Fin N)).fold (IntOp.addi (w := 32)) 0#32 f = ∑ n, f n := by
  rw [Finset.sum_eq_fold]
  rfl

theorem reduces_row : S8x4097.Reduces [1] S8 := by decide

/-- Batch element b with point n put back is (b, n). -/
theorem lift_row (b : Fin 8) (k : Fin (S8x4097.size 1)) :
    reduces_row.lift (ix1 b) k = ix2 b (⟨k.val, k.isLt⟩ : Fin 4097) := by
  funext c; apply Fin.ext
  match c with
  | ⟨0, _⟩ => rfl
  | ⟨1, _⟩ => rfl

/-- Whether the first nearest distance at (b, n) is positive, as a 32-bit word. -/
theorem v22_at (x0 x1 : Arg) (b : Fin 8) (n : Fin 4097) :
    val_main_v22 (F := Ideal) x0 x1 (ix2 b n)
      = Chamfer.gt0 (Chamfer.near1 (Chamfer.pad 4097 (Chamfer.cloud x0 b)) (Chamfer.pad 4097 (Chamfer.cloud x1 b)) n) := by
  rw [val_main_v22_apply, val_main_v21_apply, val_main_v20_apply, val_main_cst_6_apply, v18_at, Ideal.ofBits_def,
    Ideal.ofBits_zero_f32]
  rfl

/-- Whether the second nearest distance at (b, m) is positive, as a 32-bit word. -/
theorem v28_at (x0 x1 : Arg) (b : Fin 8) (m : Fin 4097) :
    val_main_v28 (F := Ideal) x0 x1 (ix2 b m)
      = Chamfer.gt0 (Chamfer.near2 (Chamfer.pad 4097 (Chamfer.cloud x0 b)) (Chamfer.pad 4097 (Chamfer.cloud x1 b)) m) := by
  rw [val_main_v28_apply, val_main_v27_apply, val_main_v26_apply, val_main_cst_8_apply, v19_at, Ideal.ofBits_def,
    Ideal.ofBits_zero_f32]
  rfl

/-- The number of positive first nearest distances of batch element b. -/
theorem v23_at (x0 x1 : Arg) (b : Fin 8) :
    val_main_v23 (F := Ideal) x0 x1 (ix1 b)
      = Chamfer.count (Chamfer.near1 (Chamfer.pad 4097 (Chamfer.cloud x0 b)) (Chamfer.pad 4097 (Chamfer.cloud x1 b))) := by
  unfold val_main_v23 Chamfer.count
  have hf : (val_main_v22 (F := Ideal) x0 x1 ∘ reduces_row.lift (ix1 b))
      = fun n : Fin 4097 => Chamfer.gt0
          (Chamfer.near1 (Chamfer.pad 4097 (Chamfer.cloud x0 b)) (Chamfer.pad 4097 (Chamfer.cloud x1 b)) n) :=
    funext fun k => (congrArg (val_main_v22 (F := Ideal) x0 x1) (lift_row b k)).trans (v22_at x0 x1 b _)
  generalize val_main_v22 (F := Ideal) x0 x1 = y at hf ⊢
  refine (Host.reduce_eq_fold_single (IntOp.addi (w := 32)) y _ reducesTo_S8x4097_S8_d1 reduces_row h_S_ (ix1 b)).trans ?_
  rw [val_main_c_apply]
  refine Eq.trans ?_ (fold_addi_zero _)
  exact congrArg (fun f => Finset.fold (IntOp.addi (w := 32)) 0#32 f (Finset.univ : Finset (Fin 4097))) hf

/-- The number of positive second nearest distances of batch element b. -/
theorem v29_at (x0 x1 : Arg) (b : Fin 8) :
    val_main_v29 (F := Ideal) x0 x1 (ix1 b)
      = Chamfer.count (Chamfer.near2 (Chamfer.pad 4097 (Chamfer.cloud x0 b)) (Chamfer.pad 4097 (Chamfer.cloud x1 b))) := by
  unfold val_main_v29 Chamfer.count
  have hf : (val_main_v28 (F := Ideal) x0 x1 ∘ reduces_row.lift (ix1 b))
      = fun m : Fin 4097 => Chamfer.gt0
          (Chamfer.near2 (Chamfer.pad 4097 (Chamfer.cloud x0 b)) (Chamfer.pad 4097 (Chamfer.cloud x1 b)) m) :=
    funext fun k => (congrArg (val_main_v28 (F := Ideal) x0 x1) (lift_row b k)).trans (v28_at x0 x1 b _)
  generalize val_main_v28 (F := Ideal) x0 x1 = y at hf ⊢
  refine (Host.reduce_eq_fold_single (IntOp.addi (w := 32)) y _ reducesTo_S8x4097_S8_d1 reduces_row h_S_ (ix1 b)).trans ?_
  rw [val_main_c_9_apply]
  refine Eq.trans ?_ (fold_addi_zero _)
  exact congrArg (fun f => Finset.fold (IntOp.addi (w := 32)) 0#32 f (Finset.univ : Finset (Fin 4097))) hf

/-! ## The two sides, the loss of a batch element, the mean -/

/-- The first side of the loss of batch element b. -/
theorem v34_at (x0 x1 : Arg) (b : Fin 8) :
    val_main_v34 (F := Ideal) x0 x1 (ix1 b)
      = Chamfer.side (Chamfer.near1 (Chamfer.pad 4097 (Chamfer.cloud x0 b)) (Chamfer.pad 4097 (Chamfer.cloud x1 b))) := by
  have e : ∀ k : Fin 4097, idx_main_v32 (ix1 b) k = ix2 b k := fun k =>
    funext fun a => Fin.ext (by match a with | ⟨0, _⟩ => rfl | ⟨1, _⟩ => rfl)
  rw [val_main_v34_apply, val_main_v32_apply, val_main_cst_11_apply, val_main_v33_apply, val_main_v25_apply,
    val_main_v24_apply, val_main_c_7_apply, v23_at]
  simp only [e, v18_at, Ideal.ofBits_def, Ideal.ofBits_zero_f32, zero_add, Ideal.hostDivf_def]
  rfl

/-- The second side of the loss of batch element b. -/
theorem v37_at (x0 x1 : Arg) (b : Fin 8) :
    val_main_v37 (F := Ideal) x0 x1 (ix1 b)
      = Chamfer.side (Chamfer.near2 (Chamfer.pad 4097 (Chamfer.cloud x0 b)) (Chamfer.pad 4097 (Chamfer.cloud x1 b))) := by
  have e : ∀ k : Fin 4097, idx_main_v35 (ix1 b) k = ix2 b k := fun k =>
    funext fun a => Fin.ext (by match a with | ⟨0, _⟩ => rfl | ⟨1, _⟩ => rfl)
  rw [val_main_v37_apply, val_main_v35_apply, val_main_cst_12_apply, val_main_v36_apply, val_main_v31_apply,
    val_main_v30_apply, val_main_c_10_apply, v29_at]
  simp only [e, v19_at, Ideal.ofBits_def, Ideal.ofBits_zero_f32, zero_add, Ideal.hostDivf_def]
  rfl

/-- The loss of batch element b. -/
theorem v38_at (x0 x1 : Arg) (b : Fin 8) :
    val_main_v38 (F := Ideal) x0 x1 (ix1 b) = Chamfer.loss 4097 (Chamfer.cloud x0) (Chamfer.cloud x1) b := by
  rw [val_main_v38_apply, v34_at, v37_at]
  rfl

/-- The row of the eight losses. -/
theorem v39_eq (x0 x1 : Arg) :
    val_main_v39 (F := Ideal) x0 x1 = fun i => Chamfer.loss 4097 (Chamfer.cloud x0) (Chamfer.cloud x1) (i 1) := by
  funext i
  obtain ⟨a, c, rfl⟩ : ∃ (a : Fin 1) (c : Fin 8), i = ix2 a c := ⟨i 0, i 1, eq_ix2 i⟩
  have e : idx_main_v39 (ix2 a c) = ix1 c :=
    funext fun t => Fin.ext (by
      match t with
      | ⟨0, _⟩ =>
        show a.val * 8 + c.val = c.val
        have := a.isLt; omega)
  rw [val_main_v39_apply, e, v38_at]

/-- The mean of the eight losses. -/
theorem v43_eq (x0 x1 : Arg) :
    val_main_v43 (F := Ideal) x0 x1
      = fun _ => Chamfer.mean8 (Chamfer.loss 4097 (Chamfer.cloud x0) (Chamfer.cloud x1)) := by
  funext j
  unfold val_main_v43
  refine (shapeCast_dropUnit_apply ![] (val_main_v42 (F := Ideal) x0 x1) shapeCasts_S1_S_ j).trans ?_
  rw [val_main_v42_apply, val_main_v40_apply, val_main_v41_apply, val_main_cst_13_apply, val_main_cst_14_apply, v39_eq]
  simp only [Ideal.ofBits_def, Ideal.ofBits_zero_f32, zero_add, Ideal.hostDivf_def]
  rfl

end Cert.ReferenceIdeal.RefValue

end
-- ==== Proof.Bridge.lean ====
/-
  The two paddings give the same loss.

  Both programs append copies of one sentinel point s = (1000, 1000, 1000) to each cloud. Every clamped squared
  distance is ≥ 0 and the distance of s to itself is exactly 0, so:
    • the infimum over a padded cloud is the minimum of the infimum over the original cloud and the value at s,
      however many copies of s were appended (at least one);
    • the nearest distance of every appended row or column is 0, which adds nothing to the sum of the nearest
      distances and nothing to the number of strictly positive ones.
  Hence each side of the loss, and the loss, does not depend on the padded length. No finiteness is assumed.

  Also: an infimum over T·B indices is the infimum over T tiles of the infimum over each tile's B indices.
-/
import proofs.«152621_j67577015435957_2_alg».proof.Proof.Spec
import Mathlib.Algebra.BigOperators.Fin
import Mathlib.Order.Fin.Basic
import Mathlib.Data.Finset.Lattice.Fold
import Mathlib.Data.EReal.Basic
import Mathlib.Tactic

noncomputable section

namespace Chamfer

open Idealize.ShloMosaic

/-! ### The constants -/

theorem padv_eq : padv = ((1000 : ℝ) : EReal) := by
  unfold padv
  simp [Ideal.ofBits, Ideal.ieee, -EReal.coe_mul]; norm_num

theorem two_eq : two = ((2 : ℝ) : EReal) := by
  unfold two
  simp [Ideal.ofBits, Ideal.ieee, -EReal.coe_mul]; norm_num

/-- The sentinel point. -/
def sentinel : Fin 3 → EReal := fun _ => padv

/-! ### Clamped squared distances -/

theorem sq_nonneg (u v : Fin 3 → EReal) : 0 ≤ sq u v := le_max_right _ _

/-- The sentinel is at distance exactly 0 from itself: 3·10⁶ + 3·10⁶ − 2·3·10⁶ = 0. -/
theorem sq_sentinel_sentinel : sq sentinel sentinel = 0 := by
  unfold sq sentinel
  rw [padv_eq, two_eq]
  have h : (∑ _d : Fin 3, ((1000 : ℝ) : EReal) * ((1000 : ℝ) : EReal)) = ((3000000 : ℝ) : EReal) := by
    rw [Fin.sum_univ_three, ← EReal.coe_mul, ← EReal.coe_add, ← EReal.coe_add]
    norm_num
  rw [h, ← EReal.coe_add, ← EReal.coe_mul, ← EReal.coe_sub]
  norm_num

/-! ### Padding -/

theorem pad_of_lt {N N' : ℕ} (X : Fin N → Fin 3 → EReal) (n : Fin N') (h : n.val < N) :
    pad N' X n = X ⟨n.val, h⟩ := by
  funext d; simp [pad, h]

theorem pad_of_not_lt {N N' : ℕ} (X : Fin N → Fin 3 → EReal) (n : Fin N') (h : ¬ n.val < N) :
    pad N' X n = sentinel := by
  funext d; simp [pad, h, sentinel]

/-- Any quantity of a point, minimized over a padded cloud: the minimum over the original cloud, and the sentinel. The
    number of appended copies (at least one) does not matter. -/
theorem inf_pad {N N' : ℕ} (h : N < N') (Y : Fin N → Fin 3 → EReal) (φ : (Fin 3 → EReal) → EReal) :
    (Finset.univ.inf fun m : Fin N' => φ (pad N' Y m))
      = min (Finset.univ.inf fun m : Fin N => φ (Y m)) (φ sentinel) := by
  apply le_antisymm
  · apply le_min
    · refine Finset.le_inf fun m _ => ?_
      have hm : (⟨m.val, lt_trans m.isLt h⟩ : Fin N').val < N := m.isLt
      have := Finset.inf_le (f := fun m : Fin N' => φ (pad N' Y m)) (Finset.mem_univ ⟨m.val, lt_trans m.isLt h⟩)
      rw [pad_of_lt Y _ hm] at this
      exact this
    · have := Finset.inf_le (f := fun m : Fin N' => φ (pad N' Y m)) (Finset.mem_univ ⟨N, h⟩)
      rw [pad_of_not_lt Y ⟨N, h⟩ (lt_irrefl N)] at this
      exact this
  · refine Finset.le_inf fun m _ => ?_
    by_cases hm : m.val < N
    · rw [pad_of_lt Y m hm]
      exact le_trans (min_le_left _ _) (Finset.inf_le (f := fun m : Fin N => φ (Y m)) (Finset.mem_univ _))
    · rw [pad_of_not_lt Y m hm]
      exact min_le_right _ _

/-- The distance from a point to the nearest point of a cloud with the sentinel adjoined. -/
def rowInf {N : ℕ} (Y : Fin N → Fin 3 → EReal) (u : Fin 3 → EReal) : EReal :=
  min (Finset.univ.inf fun m : Fin N => sq u (Y m)) (sq u sentinel)
/-- The same, with the point as the second argument. -/
def colInf {N : ℕ} (X : Fin N → Fin 3 → EReal) (v : Fin 3 → EReal) : EReal :=
  min (Finset.univ.inf fun n : Fin N => sq (X n) v) (sq sentinel v)

theorem rowInf_sentinel {N : ℕ} (Y : Fin N → Fin 3 → EReal) : rowInf Y sentinel = 0 := by
  unfold rowInf
  rw [sq_sentinel_sentinel]
  exact min_eq_right (Finset.le_inf fun m _ => sq_nonneg _ _)

theorem colInf_sentinel {N : ℕ} (X : Fin N → Fin 3 → EReal) : colInf X sentinel = 0 := by
  unfold colInf
  rw [sq_sentinel_sentinel]
  exact min_eq_right (Finset.le_inf fun m _ => sq_nonneg _ _)

/-- A vector extended by zeros. -/
def ext0 {N : ℕ} (N' : ℕ) (f : Fin N → EReal) : Fin N' → EReal :=
  fun n => if h : n.val < N then f ⟨n.val, h⟩ else 0

/-- The nearest distances of the rows of a padded pair: those of the original rows, then zeros. -/
theorem near1_pad {N M N' M' : ℕ} (hM : M < M') (X : Fin N → Fin 3 → EReal) (Y : Fin M → Fin 3 → EReal) :
    near1 (pad N' X) (pad M' Y) = ext0 N' fun n => rowInf Y (X n) := by
  funext n
  unfold near1 ext0
  rw [inf_pad hM Y (sq (pad N' X n))]
  by_cases hn : n.val < N
  · rw [dif_pos hn, pad_of_lt X n hn]; rfl
  · rw [dif_neg hn, pad_of_not_lt X n hn]; exact rowInf_sentinel Y

/-- The nearest distances of the columns of a padded pair: those of the original columns, then zeros. -/
theorem near2_pad {N M N' M' : ℕ} (hN : N < N') (X : Fin N → Fin 3 → EReal) (Y : Fin M → Fin 3 → EReal) :
    near2 (pad N' X) (pad M' Y) = ext0 M' fun m => colInf X (Y m) := by
  funext m
  unfold near2 ext0
  rw [inf_pad hN X (fun u => sq u (pad M' Y m))]
  by_cases hm : m.val < M
  · rw [dif_pos hm, pad_of_lt Y m hm]; rfl
  · rw [dif_neg hm, pad_of_not_lt Y m hm]; exact colInf_sentinel X

/-! ### Sums and counts ignore appended zeros -/

/-- A sum over a family extended by zeros is the sum over the family. -/
theorem sum_ext0 {A : Type*} [AddCommMonoid A] {N N' : ℕ} (h : N ≤ N') (f : Fin N → A) :
    (∑ n : Fin N', (if hn : n.val < N then f ⟨n.val, hn⟩ else 0)) = ∑ n : Fin N, f n := by
  let F : ℕ → A := fun k => if hk : k < N then f ⟨k, hk⟩ else 0
  have h1 : (∑ n : Fin N', (if hn : n.val < N then f ⟨n.val, hn⟩ else 0)) = ∑ k ∈ Finset.range N', F k :=
    Fin.sum_univ_eq_sum_range F N'
  have h2 : (∑ n : Fin N, f n) = ∑ k ∈ Finset.range N, F k := by
    rw [← Fin.sum_univ_eq_sum_range F N]
    refine Finset.sum_congr rfl fun n _ => ?_
    simp [F, n.isLt]
  rw [h1, h2]
  symm
  refine Finset.sum_subset (Finset.range_subset_range.2 h) fun k _ hk => ?_
  have : ¬ k < N := by simpa using hk
  simp [F, this]

theorem gt0_zero : gt0 0 = 0#32 := by
  show (Ideal.cmp .ogt 0 0).setWidth 32 = 0#32
  simp [Ideal.cmp]

theorem sum_ext0_eq {N N' : ℕ} (h : N ≤ N') (f : Fin N → EReal) : (∑ n, ext0 N' f n) = ∑ n, f n :=
  sum_ext0 h f

theorem count_ext0 {N N' : ℕ} (h : N ≤ N') (f : Fin N → EReal) : count (ext0 N' f) = count f := by
  unfold count
  rw [← sum_ext0 h fun n => gt0 (f n)]
  refine Finset.sum_congr rfl fun n _ => ?_
  unfold ext0
  by_cases hn : n.val < N
  · rw [dif_pos hn, dif_pos hn]
  · rw [dif_neg hn, dif_neg hn, gt0_zero]; rfl

theorem side_ext0 {N N' : ℕ} (h : N ≤ N') (f : Fin N → EReal) : side (ext0 N' f) = side f := by
  unfold side posf
  rw [sum_ext0_eq h, count_ext0 h]

/-! ### The loss -/

/-- The loss of a pair of clouds with the sentinel adjoined to each: no padded length in sight. -/
def lossCore (X Y : Fin 4096 → Fin 3 → EReal) : EReal :=
  comb (fun n => rowInf Y (X n)) (fun m => colInf X (Y m))

/-- The loss at any padded length above 4096 is the loss with the sentinel adjoined. -/
theorem loss_eq_core (N' : ℕ) (h : 4096 < N') (x y : Fin 8 → Fin 4096 → Fin 3 → EReal) (b : Fin 8) :
    loss N' x y b = lossCore (x b) (y b) := by
  unfold loss lossCore comb
  rw [near1_pad h, near2_pad h, side_ext0 (le_of_lt h), side_ext0 (le_of_lt h)]

/-- Padding to 4224 points (128 sentinels) and to 4097 points (one sentinel) give the same loss, on all inputs. -/
theorem loss_pad (x y : Fin 8 → Fin 4096 → Fin 3 → EReal) (b : Fin 8) :
    loss 4224 x y b = loss 4097 x y b := by
  rw [loss_eq_core 4224 (by norm_num), loss_eq_core 4097 (by norm_num)]

/-! ### An infimum by tiles -/

theorem tile_lt {T B : ℕ} (t : Fin T) (c : Fin B) : t.val * B + c.val < T * B :=
  calc t.val * B + c.val < t.val * B + B := Nat.add_lt_add_left c.isLt _
    _ = (t.val + 1) * B := by ring
    _ ≤ T * B := Nat.mul_le_mul_right B t.isLt

/-- An infimum over T·B indices: the infimum over the T tiles of the infimum over each tile's B indices. -/
theorem inf_tiles {T B : ℕ} (f : Fin (T * B) → EReal) :
    Finset.univ.inf f
      = Finset.univ.inf fun t : Fin T => Finset.univ.inf fun c : Fin B => f ⟨t.val * B + c.val, tile_lt t c⟩ := by
  apply le_antisymm
  · exact Finset.le_inf fun t _ => Finset.le_inf fun c _ => Finset.inf_le (Finset.mem_univ _)
  · refine Finset.le_inf fun i _ => ?_
    have hB : 0 < B := by
      rcases Nat.eq_zero_or_pos B with h0 | h0
      · exact absurd i.isLt (by simp [h0])
      · exact h0
    have ht : i.val / B < T := Nat.div_lt_of_lt_mul (lt_of_lt_of_eq i.isLt (Nat.mul_comm T B))
    have hc : i.val % B < B := Nat.mod_lt _ hB
    have hi : (⟨(⟨i.val / B, ht⟩ : Fin T).val * B + (⟨i.val % B, hc⟩ : Fin B).val, tile_lt _ _⟩ : Fin (T * B)) = i :=
      Fin.ext (Nat.div_add_mod' i.val B)
    calc (Finset.univ.inf fun t : Fin T => Finset.univ.inf fun c : Fin B => f ⟨t.val * B + c.val, tile_lt t c⟩)
        ≤ Finset.univ.inf fun c : Fin B => f ⟨(⟨i.val / B, ht⟩ : Fin T).val * B + c.val, tile_lt _ c⟩ :=
          Finset.inf_le (f := fun t : Fin T => Finset.univ.inf fun c : Fin B => f ⟨t.val * B + c.val, tile_lt t c⟩)
            (Finset.mem_univ (⟨i.val / B, ht⟩ : Fin T))
      _ ≤ f ⟨(⟨i.val / B, ht⟩ : Fin T).val * B + (⟨i.val % B, hc⟩ : Fin B).val, tile_lt _ _⟩ :=
          Finset.inf_le (f := fun c : Fin B => f ⟨(⟨i.val / B, ht⟩ : Fin T).val * B + c.val, tile_lt _ c⟩)
            (Finset.mem_univ (⟨i.val % B, hc⟩ : Fin B))
      _ = f i := by rw [hi]

/-- The instance for 4224 = 3 · 1408. -/
theorem inf_tiles_4224 (f : Fin 4224 → EReal) :
    Finset.univ.inf f
      = Finset.univ.inf fun t : Fin 3 => Finset.univ.inf fun c : Fin 1408 =>
          f ⟨t.val * 1408 + c.val, tile_lt (T := 3) (B := 1408) t c⟩ :=
  inf_tiles (T := 3) (B := 1408) f

/-- An infimum over three indices, as a running minimum started at ⊤. -/
theorem inf_fin3 (g : Fin 3 → EReal) : Finset.univ.inf g = min (min (min ⊤ (g 0)) (g 1)) (g 2) := by
  rw [min_top_left]
  apply le_antisymm
  · exact le_min (le_min (Finset.inf_le (Finset.mem_univ _)) (Finset.inf_le (Finset.mem_univ _)))
      (Finset.inf_le (Finset.mem_univ _))
  · refine Finset.le_inf fun i _ => ?_
    fin_cases i
    · exact le_trans (min_le_left _ _) (min_le_left _ _)
    · exact le_trans (min_le_left _ _) (min_le_right _ _)
    · exact min_le_right _ _

/-! ### A minimum over the first K tiles of 1408 among 4224 indices -/

theorem tileK_lt (K : ℕ) (hK : K < 3) (q : Fin 1408) : K * 1408 + q.val < 4224 := by
  have := q.isLt; omega

/-- One more tile: the minimum over the first K + 1 tiles is the minimum over the first K and over tile K. -/
theorem first_tiles_succ (f : Fin 4224 → EReal) (K : ℕ) (hK : K < 3) :
    (Finset.univ.filter fun k : Fin 4224 => k.val < (K + 1) * 1408).inf f
      = min ((Finset.univ.filter fun k : Fin 4224 => k.val < K * 1408).inf f)
          (Finset.univ.inf fun q : Fin 1408 => f ⟨K * 1408 + q.val, tileK_lt K hK q⟩) := by
  apply le_antisymm
  · apply le_min
    · refine Finset.inf_mono fun k hk => ?_
      have h1 : k.val < K * 1408 := (Finset.mem_filter.1 hk).2
      exact Finset.mem_filter.2 ⟨Finset.mem_univ _, by omega⟩
    · refine Finset.le_inf fun q _ => Finset.inf_le (Finset.mem_filter.2 ⟨Finset.mem_univ _, ?_⟩)
      have := q.isLt
      show K * 1408 + q.val < (K + 1) * 1408
      omega
  · refine Finset.le_inf fun k hk => ?_
    have h1 : k.val < (K + 1) * 1408 := (Finset.mem_filter.1 hk).2
    by_cases h0 : k.val < K * 1408
    · exact le_trans (min_le_left _ _) (Finset.inf_le (Finset.mem_filter.2 ⟨Finset.mem_univ _, h0⟩))
    · have hq : k.val - K * 1408 < 1408 := by omega
      have hk' : (⟨K * 1408 + (⟨k.val - K * 1408, hq⟩ : Fin 1408).val, tileK_lt K hK _⟩ : Fin 4224) = k :=
        Fin.ext (by show K * 1408 + (k.val - K * 1408) = k.val; omega)
      have := Finset.inf_le (f := fun q : Fin 1408 => f ⟨K * 1408 + q.val, tileK_lt K hK q⟩)
        (Finset.mem_univ (⟨k.val - K * 1408, hq⟩ : Fin 1408))
      rw [hk'] at this
      exact le_trans (min_le_right _ _) this

/-- No tile: the minimum over nothing is ⊤. -/
theorem first_tiles_zero (f : Fin 4224 → EReal) :
    (Finset.univ.filter fun k : Fin 4224 => k.val < 0 * 1408).inf f = ⊤ := by
  have : (Finset.univ.filter fun k : Fin 4224 => k.val < 0 * 1408) = ∅ :=
    Finset.filter_eq_empty_iff.2 fun k _ => by omega
  rw [this, Finset.inf_empty]

/-- All three tiles: the minimum over every index. -/
theorem first_tiles_three (f : Fin 4224 → EReal) :
    (Finset.univ.filter fun k : Fin 4224 => k.val < 3 * 1408).inf f = Finset.univ.inf f := by
  have : (Finset.univ.filter fun k : Fin 4224 => k.val < 3 * 1408) = Finset.univ :=
    Finset.filter_true_of_mem fun k _ => by have := k.isLt; omega
  rw [this]

theorem top_min (a : EReal) : min ⊤ a = a := min_top_left a
theorem min_top (a : EReal) : min a ⊤ = a := min_top_right a

end Chamfer

end
-- ==== Proof.Assemble.lean ====
/-
  The two programs compute one function of the two clouds.

  The kernel's program pads each cloud with 128 sentinel points, leaves in its two result arrays the nearest
  distances between the padded clouds, and then forms the loss of each batch element and the mean of the eight. The
  reference pads each cloud with one sentinel point. Padding by any number of copies of the sentinel gives the same
  loss, so both programs end with the same eight losses and the same mean. No hypothesis on the inputs is used.
-/
import proofs.«152621_j67577015435957_2_alg».proof.Defs
import proofs.«152621_j67577015435957_2_alg».proof.Proof.KI.Frame
import proofs.«152621_j67577015435957_2_alg».proof.Proof.K.Frame
import proofs.«152621_j67577015435957_2_alg».proof.Proof.RefSide
import proofs.«152621_j67577015435957_2_alg».proof.Proof.Bridge
import proofs.«152621_j67577015435957_2_alg».proof.Proof.Gen.ReferenceIdeal.Run
import proofs.«152621_j67577015435957_2_alg».proof.Proof.Gen.ReferenceIdeal.Read
import proofs.«152621_j67577015435957_2_alg».proof.Proof.Gen.Pre_finite_inputs
import Idealize.ShloMosaic.Lib.Pipeline.FrameSuffix

noncomputable section

namespace Cert.Proof.Chamfer

open Idealize.ShloMosaic Idealize.ShloMosaic.TcCoe Idealize.SL.Sem
open Idealize.ShloMosaic.ValueIdx (ix3)

/-! ## The kernel's program -/

section Kernel

open Cert.KernelIdeal Cert.KernelIdeal.Gen

/-- The 1 × 8 result of the lines after the region, entry by entry: the loss of row `i 1` of the two arrays the
    region leaves. -/
abbrev HTail27 : Prop := ∀ W : Valuation τ sig (Elt Ideal),
  (StableHlo.after (Gen.hostOps1 (F := Ideal)) W (Proc.devRef .tc main_v27) : S1x8.Idx → EReal)
    = fun i => Chamfer.comb
        (fun n : Fin 4224 => (W (Proc.devRef .tc main_v5_0) : S8x1x4224.Idx → EReal) (ix3 (i 1) (0 : Fin 1) n))
        (fun n : Fin 4224 => (W (Proc.devRef .tc main_v5_1) : S8x1x4224.Idx → EReal) (ix3 (i 1) (0 : Fin 1) n))

/-- The rank-0 result of the lines after the region: the mean of the eight losses. -/
abbrev HTail31 : Prop := ∀ W : Valuation τ sig (Elt Ideal),
  (StableHlo.after (Gen.hostOps1 (F := Ideal)) W (Proc.devRef .tc main_v31) : S_.Idx → EReal)
    = fun _ => Chamfer.mean8 fun b : Fin 8 => Chamfer.comb
        (fun n : Fin 4224 => (W (Proc.devRef .tc main_v5_0) : S8x1x4224.Idx → EReal) (ix3 b (0 : Fin 1) n))
        (fun n : Fin 4224 => (W (Proc.devRef .tc main_v5_1) : S8x1x4224.Idx → EReal) (ix3 b (0 : Fin 1) n))

/-- The first array the region reads: the first cloud padded to 4224 points. -/
abbrev HV2 : Prop := ∀ (m : (ℓ : Loc nD τ sig) → Buf (Elt Ideal) ℓ) (c : Dev nD),
  (Gen.V m c main_v2 : S8x4224x3.Idx → EReal)
    = fun i => Chamfer.pad 4224 (Chamfer.cloud (m ((c.tc : Thread nD τ).loc main_arg0)) (i 0)) (i 1) (i 2)

/-- The second array the region reads: the second cloud padded to 4224 points, the coordinate axis before the point axis. -/
abbrev HV4 : Prop := ∀ (m : (ℓ : Loc nD τ sig) → Buf (Elt Ideal) ℓ) (c : Dev nD),
  (Gen.V m c main_v4 : S8x3x4224.Idx → EReal)
    = fun i => Chamfer.pad 4224 (Chamfer.cloud (m ((c.tc : Thread nD τ).loc main_arg1)) (i 0)) (i 2) (i 1)

/-- The first array the region leaves: for each point of the first staged cloud the distance to the nearest point of the second. -/
abbrev HArr2 : Prop := ∀ (m : (ℓ : Loc nD τ sig) → Buf (Elt Ideal) ℓ) (c : Dev nD),
  (Cert.KernelIdeal.Body.dats m 0 c).arrAt 2 cfg0.N = fun i : S8x1x4224.Idx =>
    Chamfer.near1 (fun (n : Fin 4224) (d : Fin 3) => (Gen.V m c main_v2 : S8x4224x3.Idx → EReal) (ix3 (i 0) n d))
      (fun (k : Fin 4224) (d : Fin 3) => (Gen.V m c main_v4 : S8x3x4224.Idx → EReal) (ix3 (i 0) d k)) (i 2)

/-- The second array the region leaves: for each point of the second staged cloud the distance to the nearest point of the first. -/
abbrev HArr3 : Prop := ∀ (m : (ℓ : Loc nD τ sig) → Buf (Elt Ideal) ℓ) (c : Dev nD),
  (Cert.KernelIdeal.Body.dats m 0 c).arrAt 3 cfg0.N = fun i : S8x1x4224.Idx =>
    Chamfer.near2 (fun (n : Fin 4224) (d : Fin 3) => (Gen.V m c main_v2 : S8x4224x3.Idx → EReal) (ix3 (i 0) n d))
      (fun (k : Fin 4224) (d : Fin 3) => (Gen.V m c main_v4 : S8x3x4224.Idx → EReal) (ix3 (i 0) d k)) (i 2)

variable (m : (ℓ : Loc nD τ sig) → Buf (Elt Ideal) ℓ) (ρ : Dev nD → PrngReg) (c : Dev nD)

/-- The first result array in terms of the padded clouds. -/
theorem arr2_eq (hV2 : HV2) (hV4 : HV4) (h2 : HArr2) : (Cert.KernelIdeal.Body.dats m 0 c).arrAt 2 cfg0.N = fun i : S8x1x4224.Idx =>
    Chamfer.near1 (Chamfer.pad 4224 (Chamfer.cloud (m ((c.tc : Thread nD τ).loc main_arg0)) (i 0)))
      (Chamfer.pad 4224 (Chamfer.cloud (m ((c.tc : Thread nD τ).loc main_arg1)) (i 0))) (i 2) := by
  rw [h2 m c, hV2 m c, hV4 m c]
  rfl

/-- The second result array in terms of the padded clouds. -/
theorem arr3_eq (hV2 : HV2) (hV4 : HV4) (h3 : HArr3) : (Cert.KernelIdeal.Body.dats m 0 c).arrAt 3 cfg0.N = fun i : S8x1x4224.Idx =>
    Chamfer.near2 (Chamfer.pad 4224 (Chamfer.cloud (m ((c.tc : Thread nD τ).loc main_arg0)) (i 0)))
      (Chamfer.pad 4224 (Chamfer.cloud (m ((c.tc : Thread nD τ).loc main_arg1)) (i 0))) (i 2) := by
  rw [h3 m c, hV2 m c, hV4 m c]
  rfl

/-- The eight losses as the kernel's program ends with them. -/
theorem tail27 (h27 : HTail27) (hV2 : HV2) (hV4 : HV4) (h2 : HArr2) (h3 : HArr3) : Pipeline.afterTail₀ cfgs (Cert.KernelIdeal.Body.dats m) 0 (V0 m) [hostOps1] c main_v27
    = fun i => Chamfer.loss 4224 (Chamfer.cloud (m ((c.tc : Thread nD τ).loc main_arg0)))
        (Chamfer.cloud (m ((c.tc : Thread nD τ).loc main_arg1))) (i 1) := by
  unfold Pipeline.afterTail₀
  generalize hW : Pipeline.withArrays (cfgs 0).spec c (V0 m c) (fun w => (Cert.KernelIdeal.Body.dats m 0 c).arrAt w (cfgs 0).N) = W
  have e2 : W (Proc.devRef .tc main_v5_0) = (Cert.KernelIdeal.Body.dats m 0 c).arrAt 2 cfg0.N := by
    rw [← hW]; exact Pipeline.withArrays_arr spec0 launch0.win.arr_inj c _ _ 2
  have e3 : W (Proc.devRef .tc main_v5_1) = (Cert.KernelIdeal.Body.dats m 0 c).arrAt 3 cfg0.N := by
    rw [← hW]; exact Pipeline.withArrays_arr spec0 launch0.win.arr_inj c _ _ 3
  show StableHlo.after (hostOps1 (F := Ideal)) W (Proc.devRef .tc main_v27) = _
  refine (h27 W).trans ?_
  rw [e2, e3, arr2_eq m c hV2 hV4 h2, arr3_eq m c hV2 hV4 h3]
  rfl

/-- Their mean as the kernel's program ends with it. -/
theorem tail31 (h31 : HTail31) (hV2 : HV2) (hV4 : HV4) (h2 : HArr2) (h3 : HArr3) : Pipeline.afterTail₀ cfgs (Cert.KernelIdeal.Body.dats m) 0 (V0 m) [hostOps1] c main_v31
    = fun _ => Chamfer.mean8 (Chamfer.loss 4224 (Chamfer.cloud (m ((c.tc : Thread nD τ).loc main_arg0)))
        (Chamfer.cloud (m ((c.tc : Thread nD τ).loc main_arg1)))) := by
  unfold Pipeline.afterTail₀
  generalize hW : Pipeline.withArrays (cfgs 0).spec c (V0 m c) (fun w => (Cert.KernelIdeal.Body.dats m 0 c).arrAt w (cfgs 0).N) = W
  have e2 : W (Proc.devRef .tc main_v5_0) = (Cert.KernelIdeal.Body.dats m 0 c).arrAt 2 cfg0.N := by
    rw [← hW]; exact Pipeline.withArrays_arr spec0 launch0.win.arr_inj c _ _ 2
  have e3 : W (Proc.devRef .tc main_v5_1) = (Cert.KernelIdeal.Body.dats m 0 c).arrAt 3 cfg0.N := by
    rw [← hW]; exact Pipeline.withArrays_arr spec0 launch0.win.arr_inj c _ _ 3
  show StableHlo.after (hostOps1 (F := Ideal)) W (Proc.devRef .tc main_v31) = _
  refine (h31 W).trans ?_
  rw [e2, e3, arr2_eq m c hV2 hV4 h2, arr3_eq m c hV2 hV4 h3]
  rfl

/-- The kernel's program runs; its two results end at the mean and at the eight losses of the clouds padded to 4224
    points, and its arguments end unchanged. -/
theorem kernel_run (h27 : HTail27) (h31 : HTail31) (hV2 : HV2) (hV4 : HV4) (h2 : HArr2) (h3 : HArr3) : θ_run Cert.KernelIdeal.defs (onTc (τ := τ) (Cert.KernelIdeal.main (F := Ideal))) ⟨m, fun _ => 0, ρ⟩
    (fun r => ∀ c : Dev nD,
      r.2.mem ((c.tc : Thread nD τ).loc main_v31)
        = (fun _ => Chamfer.mean8 (Chamfer.loss 4224 (Chamfer.cloud (m ((c.tc : Thread nD τ).loc main_arg0)))
            (Chamfer.cloud (m ((c.tc : Thread nD τ).loc main_arg1)))))
      ∧ r.2.mem ((c.tc : Thread nD τ).loc main_v27)
        = (fun i => Chamfer.loss 4224 (Chamfer.cloud (m ((c.tc : Thread nD τ).loc main_arg0)))
            (Chamfer.cloud (m ((c.tc : Thread nD τ).loc main_arg1))) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run Cert.KernelIdeal.defs _ _).mono (fun r h c =>
    ⟨((h c).2 main_v31 (Pipeline.mem_restRefs_of main_v31 (by decide) (by decide))).trans (tail31 m c h31 hV2 hV4 h2 h3),
     ((h c).2 main_v27 (Pipeline.mem_restRefs_of main_v27 (by decide) (by decide))).trans (tail27 m c h27 hV2 hV4 h2 h3),
     ((h c).2 main_arg0 (Pipeline.mem_restRefs_of main_arg0 (by decide) (by decide))).trans (W_main_arg0 m (Cert.KernelIdeal.Body.dats m) c),
     ((h c).2 main_arg1 (Pipeline.mem_restRefs_of main_arg1 (by decide) (by decide))).trans (W_main_arg1 m (Cert.KernelIdeal.Body.dats m) c)⟩)
    (Cert.KernelIdeal.Body.run_main m ρ)

end Kernel

/-! ## The claims -/

/-- The word-level program runs and leaves its arguments unchanged. -/
theorem frame_K : Cert.frame_Kernel := fun m ρ _ => Cert.Kernel.Body.frame (F := Bits) m ρ

/-- So does its reading over the extended reals. -/
theorem frame_KI : Cert.frame_KernelIdeal := fun m ρ _ => Cert.KernelIdeal.Body.frame (F := Ideal) m ρ

/-- The reference runs and leaves its arguments unchanged: its run, with the two results dropped. -/
theorem frame_R : Cert.frame_ReferenceIdeal := fun m ρ _ =>
  (θ_run Cert.ReferenceIdeal.defs _ _).mono (fun _ h c => (h c).2.2) (Cert.ReferenceIdeal.Value.run (F := Ideal) m ρ)

/-- The reading over the extended reals rewrote no operation. -/
theorem preserves : Cert.preserves_Kernel_KernelIdeal := trivial

/-- Over the extended reals, from memories that agree on the two clouds, both programs end with the mean and the
    eight losses of the clouds: the kernel's of the clouds padded to 4224 points, the reference's of the clouds padded
    to 4097 points, and the number of sentinel points does not change a loss. -/
theorem algebraic (h27 : HTail27) (h31 : HTail31) (hV2 : HV2) (hV4 : HV4) (h2 : HArr2) (h3 : HArr3) :
    Cert.algebraic_KernelIdeal_ReferenceIdeal := by
  intro m ρ m' ρ' _ hagree
  refine ⟨_, _, kernel_run m ρ h27 h31 hV2 hV4 h2 h3, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v43_eq, Cert.ReferenceIdeal.RefValue.v43_eq, (hagree c).1, (hagree c).2]
    exact funext fun _ => congrArg Chamfer.mean8 (funext fun b => (Chamfer.loss_pad _ _ b).symm)
  · rw [Cert.ReferenceIdeal.Read.val_main_v39_eq, Cert.ReferenceIdeal.RefValue.v39_eq, (hagree c).1, (hagree c).2]
    exact funext fun i => (Chamfer.loss_pad _ _ (i 1)).symm

/-- Everything claimed, from the six facts about the kernel's program. -/
theorem _root_.Cert.Proof.claim' (h27 : HTail27) (h31 : HTail31) (hV2 : HV2) (hV4 : HV4) (h2 : HArr2) (h3 : HArr3) :
    Cert.Claim :=
  ⟨Cert.Kernel.Gen.facts, Cert.KernelIdeal.Gen.facts, Cert.ReferenceIdeal.Gen.facts, Cert.Pre_finite_inputs.Gen.facts,
    frame_K, frame_KI, frame_R, preserves, algebraic h27 h31 hV2 hV4 h2 h3⟩

end Cert.Proof.Chamfer

end
-- ==== Proof.HostSide.lean ====
/-
  The host side of the padded-cloud program at the extended reals: the two staged arrays the region reads, as padded
  clouds at coordinates, and the lines after the region as a function of the two nearest-distance arrays the region
  leaves: each row's two sides of the loss, and the mean of the eight losses.
-/
import proofs.«152621_j67577015435957_2_alg».proof.Proof.Gen.KernelIdeal.Frame
import proofs.«152621_j67577015435957_2_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.KernelIdeal.HostValue

open Cert.KernelIdeal Cert.KernelIdeal.Gen Idealize.ShloMosaic Idealize.ShloMosaic.TcCoe Idealize.SL.Sem Idealize.ShloMosaic.StableHlo
open Idealize.ShloMosaic.ValueIdx

/-! ## Sums along a row of an 8 × 4224 array -/

/-- The float sum of row `b`, from the zero word, is the sum of the row's entries. -/
theorem rowSum_f (x : FVec Ideal S8x4224 .f32) (b : Fin 8) :
    Host.reduceAdd x (constant (F := Ideal) S_ .f32 0x00000000#32) reducesTo_S8x4224_S8_d1 h_S_ (ix1 b)
      = ∑ n : Fin 4224, x (ix2 b n) := by
  simp only [Host.reduceAdd, Ideal.hostReduceAdd_def]
  rw [Ideal.hostReduceAdd_single reducesTo_S8x4224_S8_d1 (by decide)]
  show Ideal.ofBits .f32 0x00000000#32 + _ = _
  rw [Ideal.ofBits_zero_f32, zero_add]
  refine Finset.sum_congr rfl fun k _ => ?_
  exact congrArg x (funext fun a => Fin.ext (by match a with | ⟨0, _⟩ => rfl | ⟨1, _⟩ => rfl))

/-- The 32-bit integer sum of row `b`, from the zero word, is the sum of the row's entries. -/
theorem rowSum_i (y : IVec S8x4224 32) (b : Fin 8) :
    Host.reduce IntOp.addi y (constantI S_ 32 0#32) reducesTo_S8x4224_S8_d1 h_S_ (ix1 b)
      = ∑ n : Fin 4224, y (ix2 b n) := by
  rw [Host.reduce_eq_fold_single IntOp.addi y _ reducesTo_S8x4224_S8_d1 (by decide) h_S_]
  rw [Finset.sum_eq_fold]
  show (Finset.univ : Finset (Fin 4224)).fold (β := BitVec 32) (· + ·) (0#32) _ = _
  refine congrArg (fun f => Finset.fold (β := BitVec 32) (· + ·) (0#32) f (Finset.univ : Finset (Fin 4224))) ?_
  funext k
  exact congrArg y (funext fun a => Fin.ext (by match a with | ⟨0, _⟩ => rfl | ⟨1, _⟩ => rfl))

/-! ## One side of the loss, as the lines after the region compute it -/

/-- An 8 × 1 × 4224 array viewed 8 × 4224, at (b, n), is the array at (b, 0, n). -/
theorem flat_apply {α : Type} (d : S8x1x4224.Idx → α) (b : Fin 8) (n : Fin 4224) :
    shapeCast S8x4224 d shapeCasts_S8x1x4224_S8x4224 (ix2 b n) = d (ix3 b (0 : Fin 1) n) := by
  refine shapeCast_apply d shapeCasts_S8x1x4224_S8x4224 (ix2 b n) (ix3 b (0 : Fin 1) n) ?_
  rw [Shape.rowMajor_val_three, Shape.rowMajor_val_two]
  show (b.val * 1 + 0) * 4224 + n.val = b.val * 4224 + n.val
  omega

/-- The lines that turn one nearest-distance array into its side of the loss, row by row: the row sums over the
    number of strictly positive entries of the row, that number at least one. -/
def sideV (d : FVec Ideal S8x1x4224 .f32) : FVec Ideal S8 .f32 :=
  Host.divf
    (Host.reduceAdd (shapeCast S8x4224 d shapeCasts_S8x1x4224_S8x4224) (constant (F := Ideal) S_ .f32 0x00000000#32)
      reducesTo_S8x4224_S8_d1 h_S_)
    (sitofp .f32
      (maxsi
        (Host.reduce IntOp.addi
          (extui 32
            (cmpf .ogt (shapeCast S8x4224 d shapeCasts_S8x1x4224_S8x4224)
              (broadcastInDim S8x4224 ![] bcast_S_S8x4224 (constant (F := Ideal) S_ .f32 0x00000000#32)))
            natLt_1_32)
          (constantI S_ 32 0#32) reducesTo_S8x4224_S8_d1 h_S_)
        (broadcastInDim S8 ![] bcast_S_S8 (constantI S_ 32 1#32))))

/-- Row `b` of it is the side of the loss of row `b` of the array. -/
theorem sideV_apply (d : FVec Ideal S8x1x4224 .f32) (b : Fin 8) :
    sideV d (ix1 b) = Chamfer.side fun n : Fin 4224 => d (ix3 b (0 : Fin 1) n) := by
  unfold sideV Chamfer.side Chamfer.posf Chamfer.count Chamfer.gt0
  show Ideal.div (Host.reduceAdd (F := Ideal) _ _ _ _ (ix1 b)) (FloatOps.sitofp (F := Ideal) .f32 (IntOp.maxsi (Host.reduce IntOp.addi _ _ _ _ (ix1 b)) _)) = _
  rw [rowSum_f, rowSum_i]
  have e1 : (broadcastInDim S8 ![] bcast_S_S8 (constantI S_ 32 1#32) : IVec S8 32) (ix1 b) = 1#32 :=
    broadcastInDim_apply _ bcast_S_S8 (constantI S_ 32 1#32) (ix1 b) ix0 (fun a => a.elim0)
  rw [e1]
  have e0 : ∀ n : Fin 4224, (broadcastInDim S8x4224 ![] bcast_S_S8x4224 (constant (F := Ideal) S_ .f32 0x00000000#32) : FVec Ideal S8x4224 .f32) (ix2 b n) = 0 :=
    fun n => (broadcastInDim_apply _ bcast_S_S8x4224 (constant (F := Ideal) S_ .f32 0x00000000#32) (ix2 b n) ix0 (fun a => a.elim0)).trans Ideal.ofBits_zero_f32
  refine congrArg₂ Ideal.div (Finset.sum_congr rfl fun n _ => flat_apply d b n) ?_
  refine congrArg (fun k => FloatOps.sitofp (F := Ideal) .f32 (IntOp.maxsi k 1#32)) (Finset.sum_congr rfl fun n _ => ?_)
  show (FloatOps.cmpf (F := Ideal) .ogt (shapeCast S8x4224 d shapeCasts_S8x1x4224_S8x4224 (ix2 b n)) (broadcastInDim S8x4224 ![] bcast_S_S8x4224 (constant (F := Ideal) S_ .f32 0x00000000#32) (ix2 b n))).setWidth 32 = _
  rw [e0 n, flat_apply d b n]

/-! ## The two results of the lines after the region -/

/-- The eight losses as one row: the two sides added, viewed 1 × 8. -/
def v27V (d1 d2 : FVec Ideal S8x1x4224 .f32) : FVec Ideal S1x8 .f32 :=
  shapeCast S1x8 (addf (sideV d1) (sideV d2)) shapeCasts_S8_S1x8

/-- Entry (0, b) of that row is the loss of the two arrays' rows `b`. -/
theorem v27V_apply (d1 d2 : FVec Ideal S8x1x4224 .f32) (b : Fin 8) :
    v27V d1 d2 (ix2 (0 : Fin 1) b)
      = Chamfer.comb (fun n : Fin 4224 => d1 (ix3 b (0 : Fin 1) n)) (fun n : Fin 4224 => d2 (ix3 b (0 : Fin 1) n)) := by
  unfold v27V Chamfer.comb
  have e : shapeCast S1x8 (addf (sideV d1) (sideV d2)) shapeCasts_S8_S1x8 (ix2 (0 : Fin 1) b)
      = addf (sideV d1) (sideV d2) (ix1 b) := by
    refine shapeCast_apply _ shapeCasts_S8_S1x8 (ix2 (0 : Fin 1) b) (ix1 b) ?_
    rw [Shape.rowMajor_val_one, Shape.rowMajor_val_two]
    show b.val = 0 * 8 + b.val
    omega
  rw [e]
  show sideV d1 (ix1 b) + sideV d2 (ix1 b) = _
  rw [sideV_apply, sideV_apply]

/-- The mean of the eight losses, as a rank-0 array: the row's sum over the word of 8. -/
def v31V (d1 d2 : FVec Ideal S8x1x4224 .f32) : FVec Ideal S_ .f32 :=
  shapeCast S_
    (Host.divf
      (Host.reduceAdd (v27V d1 d2) (constant (F := Ideal) S_ .f32 0x00000000#32) reducesTo_S1x8_S1_d1 h_S_)
      (broadcastInDim S1 ![] bcast_S_S1 (constant (F := Ideal) S_ .f32 0x41000000#32)))
    shapeCasts_S1_S_

/-- A one-entry array viewed at rank 0 is its entry. -/
theorem scalar_apply {α : Type} (x : S1.Idx → α) (j : S_.Idx) :
    shapeCast S_ x shapeCasts_S1_S_ j = x (ix1 (0 : Fin 1)) := by
  refine shapeCast_apply x shapeCasts_S1_S_ j (ix1 (0 : Fin 1)) ?_
  rw [Shape.rowMajor_val_one]
  exact (Shape.rowMajorPi_zero _ j).symm

/-- The float sum of a 1 × 8 row, from the zero word, is the sum of its eight entries. -/
theorem sum8 (x : FVec Ideal S1x8 .f32) :
    Host.reduceAdd x (constant (F := Ideal) S_ .f32 0x00000000#32) reducesTo_S1x8_S1_d1 h_S_ (ix1 (0 : Fin 1))
      = ∑ b : Fin 8, x (ix2 (0 : Fin 1) b) := by
  simp only [Host.reduceAdd, Ideal.hostReduceAdd_def]
  rw [Ideal.hostReduceAdd_single reducesTo_S1x8_S1_d1 (by decide)]
  show Ideal.ofBits .f32 0x00000000#32 + _ = _
  rw [Ideal.ofBits_zero_f32, zero_add]
  refine Finset.sum_congr rfl fun k _ => ?_
  exact congrArg x (funext fun a => Fin.ext (by match a with | ⟨0, _⟩ => rfl | ⟨1, _⟩ => rfl))

/-- The rank-0 result is the mean of the eight losses. -/
theorem v31V_apply (d1 d2 : FVec Ideal S8x1x4224 .f32) (j : S_.Idx) :
    v31V d1 d2 j = Chamfer.mean8 fun b : Fin 8 =>
      Chamfer.comb (fun n : Fin 4224 => d1 (ix3 b (0 : Fin 1) n)) (fun n : Fin 4224 => d2 (ix3 b (0 : Fin 1) n)) := by
  unfold v31V Chamfer.mean8 Chamfer.eight
  rw [scalar_apply]
  show Ideal.div (Host.reduceAdd (F := Ideal) _ _ _ _ (ix1 (0 : Fin 1)))
    ((broadcastInDim S1 ![] bcast_S_S1 (constant (F := Ideal) S_ .f32 0x41000000#32) : FVec Ideal S1 .f32) (ix1 (0 : Fin 1))) = _
  rw [sum8]
  refine congrArg₂ Ideal.div (Finset.sum_congr rfl fun b _ => v27V_apply d1 d2 b) ?_
  exact broadcastInDim_apply _ bcast_S_S1 (constant (F := Ideal) S_ .f32 0x41000000#32) (ix1 (0 : Fin 1)) ix0 (fun a => a.elim0)

/-! ## The lines after the region, over any contents the region leaves -/

set_option maxHeartbeats 1000000 in
/-- What the 1 × 8 result holds after the lines that follow the region, whatever the region left. -/
theorem after_v27 (W : Valuation τ sig (Elt Ideal)) :
    StableHlo.after (Gen.hostOps1 (F := Ideal)) W (Proc.devRef .tc main_v27)
      = v27V (W (Proc.devRef .tc main_v5_0)) (W (Proc.devRef .tc main_v5_1)) := by
  after_results
  rfl

set_option maxHeartbeats 1000000 in
/-- What the rank-0 result holds after them. -/
theorem after_v31 (W : Valuation τ sig (Elt Ideal)) :
    StableHlo.after (Gen.hostOps1 (F := Ideal)) W (Proc.devRef .tc main_v31)
      = v31V (W (Proc.devRef .tc main_v5_0)) (W (Proc.devRef .tc main_v5_1)) := by
  after_results
  rfl

/-- The 1 × 8 result, entry by entry: the loss of row `i 1` of the two arrays the region leaves. -/
theorem tail_v27 (W : Valuation τ sig (Elt Ideal)) :
    (StableHlo.after (Gen.hostOps1 (F := Ideal)) W (Proc.devRef .tc main_v27) : S1x8.Idx → EReal)
      = fun i => Chamfer.comb
          (fun n : Fin 4224 => (W (Proc.devRef .tc main_v5_0) : S8x1x4224.Idx → EReal) (ix3 (i 1) (0 : Fin 1) n))
          (fun n : Fin 4224 => (W (Proc.devRef .tc main_v5_1) : S8x1x4224.Idx → EReal) (ix3 (i 1) (0 : Fin 1) n)) := by
  refine (after_v27 W).trans (funext fun i => ?_)
  have hi : i = ix2 (0 : Fin 1) (i 1) := by
    funext a
    match a with
    | ⟨0, _⟩ => exact Fin.ext (by have := idx2_lt0 (n0 := 1) (n1 := 8) i; show (i 0).val = 0; omega)
    | ⟨1, _⟩ => rfl
  exact (congrArg (v27V (W (Proc.devRef .tc main_v5_0)) (W (Proc.devRef .tc main_v5_1))) hi).trans
    (v27V_apply (W (Proc.devRef .tc main_v5_0)) (W (Proc.devRef .tc main_v5_1)) (i 1))

/-- The rank-0 result: the mean of the eight losses of the two arrays the region leaves. -/
theorem tail_v31 (W : Valuation τ sig (Elt Ideal)) :
    (StableHlo.after (Gen.hostOps1 (F := Ideal)) W (Proc.devRef .tc main_v31) : S_.Idx → EReal)
      = fun _ => Chamfer.mean8 fun b : Fin 8 => Chamfer.comb
          (fun n : Fin 4224 => (W (Proc.devRef .tc main_v5_0) : S8x1x4224.Idx → EReal) (ix3 b (0 : Fin 1) n))
          (fun n : Fin 4224 => (W (Proc.devRef .tc main_v5_1) : S8x1x4224.Idx → EReal) (ix3 b (0 : Fin 1) n)) :=
  (after_v31 W).trans (funext fun j => v31V_apply (W (Proc.devRef .tc main_v5_0)) (W (Proc.devRef .tc main_v5_1)) j)

/-! ## The two staged arrays the region reads -/

/-- A cloud array of 4096 points a batch element followed by 128 copies of the sentinel point. -/
def padV (x : FVec Ideal S8x4096x3 .f32) : FVec Ideal S8x4224x3 .f32 :=
  concatenate S8x4224x3 1
    [⟨S8x4096x3, x⟩, ⟨S8x128x3, broadcastInDim S8x128x3 ![] bcast_S_S8x128x3 (constant (F := Ideal) S_ .f32 0x447A0000#32)⟩]
    concatenates_S8x4096x3_S8x128x3_S8x4224x3_d1

/-- At (b, n, d) it is the padded cloud of batch element `b` at point `n`, coordinate `d`. -/
theorem padV_apply (x : FVec Ideal S8x4096x3 .f32) (b : Fin 8) (n : Fin 4224) (d : Fin 3) :
    padV x (ix3 b n d) = Chamfer.pad 4224 (Chamfer.cloud x b) n d := by
  unfold padV Chamfer.pad Chamfer.cloud
  by_cases h : n.val < 4096
  · rw [dif_pos h]
    refine concatenate_pair_apply_left (t := S8x4224x3) (s₁ := S8x4096x3) (s₂ := S8x128x3) (1 : Fin 3) x
      (broadcastInDim S8x128x3 ![] bcast_S_S8x128x3 (constant (F := Ideal) S_ .f32 0x447A0000#32))
      concatenates_S8x4096x3_S8x128x3_S8x4224x3_d1 (ix3 b n d) rfl
      (ix3 b (⟨n.val, h⟩ : Fin 4096) d) (fun a => ?_)
    match a with
    | ⟨0, _⟩ => rfl
    | ⟨1, _⟩ => rfl
    | ⟨2, _⟩ => rfl
  · rw [dif_neg h]
    have hn : n.val - 4096 < 128 := by have := n.isLt; omega
    refine (concatenate_pair_apply_right (t := S8x4224x3) (s₁ := S8x4096x3) (s₂ := S8x128x3) (1 : Fin 3) x
      (broadcastInDim S8x128x3 ![] bcast_S_S8x128x3 (constant (F := Ideal) S_ .f32 0x447A0000#32))
      concatenates_S8x4096x3_S8x128x3_S8x4224x3_d1 (ix3 b n d) rfl rfl
      (ix3 b (⟨n.val - 4096, hn⟩ : Fin 128) d) (fun a ha => ?_) ?_).trans ?_
    · rcases a with ⟨v, hv⟩
      have hv' : v < 3 := hv
      have h1 : v ≠ 1 := fun e => ha (by subst e; rfl)
      have h02 : v = 0 ∨ v = 2 := by omega
      rcases h02 with rfl | rfl <;> rfl
    · show n.val - 4096 + 4096 = n.val
      omega
    · exact broadcastInDim_apply _ bcast_S_S8x128x3 (constant (F := Ideal) S_ .f32 0x447A0000#32) _ ix0 (fun a => a.elim0)

/-- The padded array with its last two axes exchanged. -/
def padTV (x : FVec Ideal S8x4096x3 .f32) : FVec Ideal S8x3x4224 .f32 :=
  transpose S8x3x4224 [0, 2, 1] (padV x) transposes_S8x4224x3_S8x3x4224_0_2_1

/-- At (b, d, n) it is the padded cloud of batch element `b` at point `n`, coordinate `d`. -/
theorem padTV_apply (x : FVec Ideal S8x4096x3 .f32) (b : Fin 8) (d : Fin 3) (n : Fin 4224) :
    padTV x (ix3 b d n) = Chamfer.pad 4224 (Chamfer.cloud x b) n d := by
  unfold padTV
  refine (transpose_apply [0, 2, 1] (padV x) transposes_S8x4224x3_S8x3x4224_0_2_1 (ix3 b d n) (ix3 b n d) (fun a => ?_)).trans
    (padV_apply x b n d)
  match a with
  | ⟨0, _⟩ => rfl
  | ⟨1, _⟩ => rfl
  | ⟨2, _⟩ => rfl

variable (m : (ℓ : Loc nD τ sig) → Buf (Elt Ideal) ℓ) (c : Dev nD)

/-- The first staged array as the region finds it: the first argument, padded. -/
theorem V_v2_eq : Gen.V m c main_v2 = padV (m ((c.tc : Thread nD τ).loc main_arg0)) := by
  show StableHlo.after (Gen.hostOps0 (F := Ideal)) (fun b => m (c, b)) (Proc.devRef .tc main_v2) = _
  after_results
  rfl

/-- The second staged array as the region finds it: the second argument, padded, its last two axes exchanged. -/
theorem V_v4_eq : Gen.V m c main_v4 = padTV (m ((c.tc : Thread nD τ).loc main_arg1)) := by
  show StableHlo.after (Gen.hostOps0 (F := Ideal)) (fun b => m (c, b)) (Proc.devRef .tc main_v4) = _
  after_results
  rfl

/-- The first staged array, entry by entry. -/
theorem V_v2 : (Gen.V m c main_v2 : S8x4224x3.Idx → EReal)
    = fun i => Chamfer.pad 4224 (Chamfer.cloud (m ((c.tc : Thread nD τ).loc main_arg0)) (i 0)) (i 1) (i 2) := by
  refine (V_v2_eq m c).trans (funext fun i => ?_)
  exact (congrArg (padV (m ((c.tc : Thread nD τ).loc main_arg0))) (eq_ix3 i)).trans
    (padV_apply (m ((c.tc : Thread nD τ).loc main_arg0)) (i 0) (i 1) (i 2))

/-- The second staged array, entry by entry. -/
theorem V_v4 : (Gen.V m c main_v4 : S8x3x4224.Idx → EReal)
    = fun i => Chamfer.pad 4224 (Chamfer.cloud (m ((c.tc : Thread nD τ).loc main_arg1)) (i 0)) (i 2) (i 1) := by
  refine (V_v4_eq m c).trans (funext fun i => ?_)
  exact (congrArg (padTV (m ((c.tc : Thread nD τ).loc main_arg1))) (eq_ix3 i)).trans
    (padTV_apply (m ((c.tc : Thread nD τ).loc main_arg1)) (i 0) (i 1) (i 2))

end Cert.KernelIdeal.HostValue

end
-- ==== Proof.KI.CaseVal.lean ====
import proofs.«152621_j67577015435957_2_alg».proof.Proof.Gen.KernelIdeal.Frame
import proofs.«152621_j67577015435957_2_alg».proof.Proof.KI.Frame
import Idealize.ShloMosaic.Lib.Pipeline.Value
import Idealize.ShloMosaic.Lib.ValueIdx
import proofs.«152621_j67577015435957_2_alg».proof.Proof.Gen.KernelIdeal.Skeleton
import Idealize.ShloMosaic.Lib.Pipeline.FrameBody
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

theorem hz3 : (![0, 0, 0] : Fin 3 → Nat) = fun _ => 0 := funext fun a => by fin_cases a <;> rfl

/-- Case B, accumulator 1, inside the current tile: the store's payload over the slice of what was there. -/
theorem outB5_in (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : ¬cond0 i)
    (x0 : Vec F S1x1408x3 .f32) (x1 : Vec F S1x3x1408 .f32) (xo5 xo6 : Vec F S1x1x4224 .f32) (j : Fin 4224) (r : Fin 1408)
    (hj : j.val = 1408 * (i 1).val + r.val) :
    outB5 c i arg3 harg3 arg4 harg4 arg5 harg5 arg6 harg6 hc0 x0 x1 xo5 xo6 (ix3 0 0 j)
      = k0_pay1 (k0_pay6 x0 x1) (View.ld xo5 (Rect.unit (s := S1x1x4224) (k0_off1 i) S1x1x1408.size (k0_off1_inb i))) (ix3 0 0 r) := by
  unfold outB5 runB
  dsimp only
  refine (View.read_writes_cons_unit_of_mem _ _ (k0_off1_inb i) _ _ (ix3 0 0 j) (ix3 (0 : Fin 1) (0 : Fin 1) r) (k0_off1_eq i)
    (fun a => by fin_cases a <;> simp [ix3, hj])).trans ?_
  unfold runB.sl.r_1
  simp only [View.readAt_eq_ld, harg3.read_unread, harg4.read_unread, harg5.read_unread, View.ld_unit_zero (S := S1x1408x3) hz3, View.ld_unit_zero (S := S1x3x1408) hz3]

/-- Case B, accumulator 1, outside the current tile: what was there. -/
theorem outB5_out (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : ¬cond0 i)
    (x0 : Vec F S1x1408x3 .f32) (x1 : Vec F S1x3x1408 .f32) (xo5 xo6 : Vec F S1x1x4224 .f32) (j : Fin 4224)
    (hj : j.val < 1408 * (i 1).val ∨ 1408 * (i 1).val + 1408 ≤ j.val) :
    outB5 c i arg3 harg3 arg4 harg4 arg5 harg5 arg6 harg6 hc0 x0 x1 xo5 xo6 (ix3 0 0 j) = xo5 (ix3 0 0 j) := by
  unfold outB5 runB
  dsimp only
  rw [View.read_writes_cons_unit_of_not_mem _ _ _ _ _ (ix3 0 0 j) (k0_off1_eq i) 2 (by simpa [ix3] using hj)]
  rw [View.writes_nil, harg5.read_unread]

/-- Case B, accumulator 2, inside the current tile: the store's payload over the slice of what was there. -/
theorem outB6_in (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : ¬cond0 i)
    (x0 : Vec F S1x1408x3 .f32) (x1 : Vec F S1x3x1408 .f32) (xo5 xo6 : Vec F S1x1x4224 .f32) (j : Fin 4224) (r : Fin 1408)
    (hj : j.val = 1408 * (i 2).val + r.val) :
    outB6 c i arg3 harg3 arg4 harg4 arg5 harg5 arg6 harg6 hc0 x0 x1 xo5 xo6 (ix3 0 0 j)
      = k0_pay2 (k0_pay5 x0 x1) (View.ld xo6 (Rect.unit (s := S1x1x4224) (k0_off2 i) S1x1x1408.size (k0_off2_inb i))) (ix3 0 0 r) := by
  unfold outB6 runB
  dsimp only
  refine (View.read_writes_cons_unit_of_mem _ _ (k0_off2_inb i) _ _ (ix3 0 0 j) (ix3 (0 : Fin 1) (0 : Fin 1) r) (k0_off2_eq i)
    (fun a => by fin_cases a <;> simp [ix3, hj])).trans ?_
  unfold runB.sl.r
  simp only [View.readAt_eq_ld, harg3.read_unread, harg4.read_unread, harg6.read_unread, View.ld_unit_zero (S := S1x1408x3) hz3, View.ld_unit_zero (S := S1x3x1408) hz3]

/-- Case B, accumulator 2, outside the current tile: what was there. -/
theorem outB6_out (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : ¬cond0 i)
    (x0 : Vec F S1x1408x3 .f32) (x1 : Vec F S1x3x1408 .f32) (xo5 xo6 : Vec F S1x1x4224 .f32) (j : Fin 4224)
    (hj : j.val < 1408 * (i 2).val ∨ 1408 * (i 2).val + 1408 ≤ j.val) :
    outB6 c i arg3 harg3 arg4 harg4 arg5 harg5 arg6 harg6 hc0 x0 x1 xo5 xo6 (ix3 0 0 j) = xo6 (ix3 0 0 j) := by
  unfold outB6 runB
  dsimp only
  rw [View.read_writes_cons_unit_of_not_mem _ _ _ _ _ (ix3 0 0 j) (k0_off2_eq i) 2 (by simpa [ix3] using hj)]
  rw [View.writes_nil, harg6.read_unread]

/-- Case A, accumulator 1, inside the current tile: the store's payload over the slice of what was there. -/
theorem outA5_in (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : cond0 i)
    (x0 : Vec F S1x1408x3 .f32) (x1 : Vec F S1x3x1408 .f32) (j : Fin 4224) (r : Fin 1408)
    (hj : j.val = 1408 * (i 1).val + r.val) :
    outA5 c i arg3 harg3 arg4 harg4 arg5 harg5 arg6 harg6 hc0 x0 x1 (ix3 0 0 j)
      = k0_pay1 (k0_pay6 x0 x1) (View.ld (k0_pay3 (F := F)) (Rect.unit (s := S1x1x4224) (k0_off1 i) S1x1x1408.size (k0_off1_inb i))) (ix3 0 0 r) := by
  unfold outA5
  rw [← View.read_writes_junk_eq_canon arg5.view]
  unfold runA
  dsimp only
  refine (View.read_writes_cons_unit_of_mem _ _ (k0_off1_inb i) _ _ (ix3 0 0 j) (ix3 (0 : Fin 1) (0 : Fin 1) r) (k0_off1_eq i)
    (fun a => by fin_cases a <;> simp [ix3, hj])).trans ?_
  unfold runA.sl.r_1 runA.sl.v50 runA.sl.H2_1
  simp only [View.readAt_eq_ld, harg3.read_unread, harg4.read_unread, View.read_writes_junk_eq_canon, View.canon_unit_zero (S := S1x1x4224) hz3, View.ld_unit_zero (S := S1x1408x3) hz3, View.ld_unit_zero (S := S1x3x1408) hz3]

/-- Case A, accumulator 1, outside the current tile: what was there. -/
theorem outA5_out (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : cond0 i)
    (x0 : Vec F S1x1408x3 .f32) (x1 : Vec F S1x3x1408 .f32) (j : Fin 4224)
    (hj : j.val < 1408 * (i 1).val ∨ 1408 * (i 1).val + 1408 ≤ j.val) :
    outA5 c i arg3 harg3 arg4 harg4 arg5 harg5 arg6 harg6 hc0 x0 x1 (ix3 0 0 j) = (k0_pay3 (F := F)) (ix3 0 0 j) := by
  unfold outA5
  rw [← View.read_writes_junk_eq_canon arg5.view]
  unfold runA
  dsimp only
  rw [View.read_writes_cons_unit_of_not_mem _ _ _ _ _ (ix3 0 0 j) (k0_off1_eq i) 2 (by simpa [ix3] using hj)]
  unfold runA.sl.H2_1
  rw [View.read_writes_junk_eq_canon, View.canon_unit_zero hz3]

/-- Case A, accumulator 2, inside the current tile: the store's payload over the slice of what was there. -/
theorem outA6_in (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : cond0 i)
    (x0 : Vec F S1x1408x3 .f32) (x1 : Vec F S1x3x1408 .f32) (j : Fin 4224) (r : Fin 1408)
    (hj : j.val = 1408 * (i 2).val + r.val) :
    outA6 c i arg3 harg3 arg4 harg4 arg5 harg5 arg6 harg6 hc0 x0 x1 (ix3 0 0 j)
      = k0_pay2 (k0_pay5 x0 x1) (View.ld (k0_pay4 (F := F)) (Rect.unit (s := S1x1x4224) (k0_off2 i) S1x1x1408.size (k0_off2_inb i))) (ix3 0 0 r) := by
  unfold outA6
  rw [← View.read_writes_junk_eq_canon arg6.view]
  unfold runA
  dsimp only
  refine (View.read_writes_cons_unit_of_mem _ _ (k0_off2_inb i) _ _ (ix3 0 0 j) (ix3 (0 : Fin 1) (0 : Fin 1) r) (k0_off2_eq i)
    (fun a => by fin_cases a <;> simp [ix3, hj])).trans ?_
  unfold runA.sl.r runA.sl.v58 runA.sl.H3_1
  simp only [View.readAt_eq_ld, harg3.read_unread, harg4.read_unread, View.read_writes_junk_eq_canon, View.canon_unit_zero (S := S1x1x4224) hz3, View.ld_unit_zero (S := S1x1408x3) hz3, View.ld_unit_zero (S := S1x3x1408) hz3]

/-- Case A, accumulator 2, outside the current tile: what was there. -/
theorem outA6_out (c : Dev nD) (i : grid0.Coords) (arg3 : Memref sig .tc .vmem S1x1408x3 .f32) (harg3 : arg3.IsWhole) (arg4 : Memref sig .tc .vmem S1x3x1408 .f32) (harg4 : arg4.IsWhole) (arg5 : Memref sig .tc .vmem S1x1x4224 .f32) (harg5 : arg5.IsWhole) (arg6 : Memref sig .tc .vmem S1x1x4224 .f32) (harg6 : arg6.IsWhole) (hc0 : cond0 i)
    (x0 : Vec F S1x1408x3 .f32) (x1 : Vec F S1x3x1408 .f32) (j : Fin 4224)
    (hj : j.val < 1408 * (i 2).val ∨ 1408 * (i 2).val + 1408 ≤ j.val) :
    outA6 c i arg3 harg3 arg4 harg4 arg5 harg5 arg6 harg6 hc0 x0 x1 (ix3 0 0 j) = (k0_pay4 (F := F)) (ix3 0 0 j) := by
  unfold outA6
  rw [← View.read_writes_junk_eq_canon arg6.view]
  unfold runA
  dsimp only
  rw [View.read_writes_cons_unit_of_not_mem _ _ _ _ _ (ix3 0 0 j) (k0_off2_eq i) 2 (by simpa [ix3] using hj)]
  unfold runA.sl.H3_1
  rw [View.read_writes_junk_eq_canon, View.canon_unit_zero hz3]

/-- The slice of an accumulator a point loads, read at a coordinate: the accumulator at the tile's offset plus it. -/
theorem ld_off1 (X : Vec F S1x1x4224 .f32) (i : grid0.Coords) (r : Fin 1408) (j : Fin 4224) (hj : j.val = 1408 * (i 1).val + r.val) :
    View.ld X (Rect.unit (s := S1x1x4224) (k0_off1 i) S1x1x1408.size (k0_off1_inb i)) (ix3 (0 : Fin 1) (0 : Fin 1) r) = X (ix3 0 0 j) := by
  show X _ = X _
  congr 1
  funext a
  apply Fin.ext
  have h := congrFun (k0_off1_eq i) a
  fin_cases a <;> simp [Rect.unit, ix3, hj] at h ⊢ <;> omega
theorem ld_off2 (X : Vec F S1x1x4224 .f32) (i : grid0.Coords) (r : Fin 1408) (j : Fin 4224) (hj : j.val = 1408 * (i 2).val + r.val) :
    View.ld X (Rect.unit (s := S1x1x4224) (k0_off2 i) S1x1x1408.size (k0_off2_inb i)) (ix3 (0 : Fin 1) (0 : Fin 1) r) = X (ix3 0 0 j) := by
  show X _ = X _
  congr 1
  funext a
  apply Fin.ext
  have h := congrFun (k0_off2_eq i) a
  fin_cases a <;> simp [Rect.unit, ix3, hj] at h ⊢ <;> omega

end Cert.KernelIdeal.Body

end
-- ==== Proof.KI.Blocks.lean ====
/-
  The geometry of the kernel's pipeline.

  The grid has 8 × 3 × 3 = 72 points; point t = 9·b + 3·ni + mi works on batch element b, on the ni-th third of the
  first cloud's 4224 padded points and on the mi-th third of the second cloud's. The first input is read in blocks of
  1408 points of one batch element, the second (stored with the coordinate axis before the point axis) likewise; the
  two results are rows of 4224 entries per batch element, written back after the ninth point of that element. This
  module reads each input block at explicit coordinates of its array, and shows that each result array ends as any
  function that the last point of every batch element leaves in the corresponding accumulator.
-/
import proofs.«152621_j67577015435957_2_alg».proof.Proof.KI.Frame
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's coordinates and the windows' block indices, in closed form -/

/-- The three coordinates of point t: the batch element, the third of the first cloud, the third of the second. -/
theorem coords_eq : ∀ t : Fin cfg0.N,
    ((grid0.coords t) 0).val = t.val / 9 ∧ ((grid0.coords t) 1).val = t.val % 9 / 3 ∧ ((grid0.coords t) 2).val = t.val % 3 :=
  (by decide +kernel : ∀ t : Fin grid0.N, _)

/-- The block index of each window at point t, axis by axis. -/
theorem idx_facts : ∀ t : Fin cfg0.N,
    win0_0.index t (0 : Fin 3) = t.val / 9 ∧ win0_0.index t (1 : Fin 3) = t.val % 9 / 3 ∧ win0_0.index t (2 : Fin 3) = 0
    ∧ win0_1.index t (0 : Fin 3) = t.val / 9 ∧ win0_1.index t (1 : Fin 3) = 0 ∧ win0_1.index t (2 : Fin 3) = t.val % 3
    ∧ win0_2.index t (0 : Fin 3) = t.val / 9 ∧ win0_2.index t (1 : Fin 3) = 0 ∧ win0_2.index t (2 : Fin 3) = 0
    ∧ win0_3.index t (0 : Fin 3) = t.val / 9 ∧ win0_3.index t (1 : Fin 3) = 0 ∧ win0_3.index t (2 : Fin 3) = 0 :=
  (by decide +kernel : ∀ t : Fin grid0.N, _)

/-- A point is below 72. -/
theorem t_lt (t : Fin cfg0.N) : t.val < 72 := lt_of_lt_of_eq t.isLt (show cfg0.N = 72 from N_0)

/-- The batch element of point t. -/
abbrev bOf (t : Fin cfg0.N) : Fin 8 := ⟨t.val / 9, by have := t_lt t; omega⟩
/-- Row r of the first input's block at point t, as a row of the array. -/
abbrev rowOf (t : Fin cfg0.N) (r : Fin 1408) : Fin 4224 := ⟨t.val % 9 / 3 * 1408 + r.val, by have := r.isLt; omega⟩
/-- Column q of the second input's block at point t, as a column of the array. -/
abbrev colOf (t : Fin cfg0.N) (q : Fin 1408) : Fin 4224 := ⟨t.val % 3 * 1408 + q.val, by have := q.isLt; omega⟩

/-! ## The input blocks at coordinates -/

/-- The first input's block at point t: rows (t % 9 / 3)·1408 … of batch element t / 9. -/
theorem iblk0_apply (c : Dev nD) (t : Fin cfg0.N) (r : Fin 1408) (d : Fin 3) :
    (iblk m c 0 t : Vec F S1x1408x3 .f32) (ix3 (0 : Fin 1) r d)
      = (V m c main_v2 : S8x4224x3.Idx → Elt F .f32) (ix3 (bOf t) (rowOf t r) d) := by
  obtain ⟨e0, e1, e2, -⟩ := idx_facts t
  unfold iblk
  rw [View.read_apply]
  show V m c main_v2 _ = V m c main_v2 _
  refine congrArg (V m c main_v2) ?_
  funext a; apply Fin.ext
  match a with
  | ⟨0, _⟩ => show win0_0.index t (0 : Fin 3) * 1 + 1 * 0 = t.val / 9; rw [e0]; omega
  | ⟨1, _⟩ => show win0_0.index t (1 : Fin 3) * 1408 + 1 * r.val = t.val % 9 / 3 * 1408 + r.val; rw [e1]; omega
  | ⟨2, _⟩ => show win0_0.index t (2 : Fin 3) * 3 + 1 * d.val = d.val; rw [e2]; omega

/-- The second input's block at point t: columns (t % 3)·1408 … of batch element t / 9. -/
theorem iblk1_apply (c : Dev nD) (t : Fin cfg0.N) (d : Fin 3) (q : Fin 1408) :
    (iblk m c 1 t : Vec F S1x3x1408 .f32) (ix3 (0 : Fin 1) d q)
      = (V m c main_v4 : S8x3x4224.Idx → Elt F .f32) (ix3 (bOf t) d (colOf t q)) := by
  obtain ⟨-, -, -, e0, e1, e2, -⟩ := idx_facts t
  unfold iblk
  rw [View.read_apply]
  show V m c main_v4 _ = V m c main_v4 _
  refine congrArg (V m c main_v4) ?_
  funext a; apply Fin.ext
  match a with
  | ⟨0, _⟩ => show win0_1.index t (0 : Fin 3) * 1 + 1 * 0 = t.val / 9; rw [e0]; omega
  | ⟨1, _⟩ => show win0_1.index t (1 : Fin 3) * 3 + 1 * d.val = d.val; rw [e1]; omega
  | ⟨2, _⟩ => show win0_1.index t (2 : Fin 3) * 1408 + 1 * q.val = t.val % 3 * 1408 + q.val; rw [e2]; omega

/-! ## The result arrays from what the last point of each batch element leaves -/

/-- What the write-back of the first result at a point t with t % 9 = 8 writes is row t / 9 of G, whenever the first
    accumulator after that point is that row. -/
theorem flushed2_eq (c : Dev nD) (G : S8x1x4224.Idx → Elt F .f32)
    (hG : ∀ t : Fin cfg0.N, t.val % 9 = 8 → ∀ j : Fin 4224,
      (outsAt m c t.val t.isLt).1 (ix3 (0 : Fin 1) (0 : Fin 1) j) = G (ix3 (bOf t) (0 : Fin 1) j))
    (t : Fin cfg0.N) (hf : (cfg0.win 2).flush t = true) :
    (dats m 0 c).flushed 2 t = ((cfg0.win 2).blk t).view.read (Elt F) G := by
  have h8 : t.val % 9 = 8 := (flush0_2 t).mp hf
  obtain ⟨-, -, -, -, -, -, e0, e1, e2, -⟩ := idx_facts t
  show (cfg0.win 2).cut (grid0.coords t) ((dats m 0 c).after 2 t) = _
  rw [after2]
  refine funext fun (y : S1x1x4224.Idx) => ?_
  obtain ⟨a, b, j, rfl⟩ : ∃ (a : Fin 1) (b : Fin 1) (j : Fin 4224), y = ix3 a b j := ⟨y 0, y 1, y 2, ValueIdx.eq_ix3 y⟩
  obtain rfl : a = 0 := Subsingleton.elim _ _
  obtain rfl : b = 0 := Subsingleton.elim _ _
  refine Eq.trans ?_ ((hG t h8 j).trans ?_)
  · exact congrArg (outsAt m c t.val t.isLt).1
      (funext fun a' => Fin.ext (by match a' with | ⟨0, _⟩ => rfl | ⟨1, _⟩ => rfl | ⟨2, _⟩ => rfl))
  · rw [View.read_apply]
    show G _ = G _
    refine congrArg G ?_
    funext a'; apply Fin.ext
    match a' with
    | ⟨0, _⟩ => show t.val / 9 = win0_2.index t (0 : Fin 3) * 1 + 1 * 0; rw [e0]; omega
    | ⟨1, _⟩ => show 0 = win0_2.index t (1 : Fin 3) * 1 + 1 * 0; rw [e1]
    | ⟨2, _⟩ => show j.val = win0_2.index t (2 : Fin 3) * 4224 + 1 * j.val; rw [e2]; omega

/-- The same for the second result. -/
theorem flushed3_eq (c : Dev nD) (G : S8x1x4224.Idx → Elt F .f32)
    (hG : ∀ t : Fin cfg0.N, t.val % 9 = 8 → ∀ j : Fin 4224,
      (outsAt m c t.val t.isLt).2 (ix3 (0 : Fin 1) (0 : Fin 1) j) = G (ix3 (bOf t) (0 : Fin 1) j))
    (t : Fin cfg0.N) (hf : (cfg0.win 3).flush t = true) :
    (dats m 0 c).flushed 3 t = ((cfg0.win 3).blk t).view.read (Elt F) G := by
  have h8 : t.val % 9 = 8 := (flush0_3 t).mp hf
  obtain ⟨-, -, -, -, -, -, -, -, -, e0, e1, e2⟩ := idx_facts t
  show (cfg0.win 3).cut (grid0.coords t) ((dats m 0 c).after 3 t) = _
  rw [after3]
  refine funext fun (y : S1x1x4224.Idx) => ?_
  obtain ⟨a, b, j, rfl⟩ : ∃ (a : Fin 1) (b : Fin 1) (j : Fin 4224), y = ix3 a b j := ⟨y 0, y 1, y 2, ValueIdx.eq_ix3 y⟩
  obtain rfl : a = 0 := Subsingleton.elim _ _
  obtain rfl : b = 0 := Subsingleton.elim _ _
  refine Eq.trans ?_ ((hG t h8 j).trans ?_)
  · exact congrArg (outsAt m c t.val t.isLt).2
      (funext fun a' => Fin.ext (by match a' with | ⟨0, _⟩ => rfl | ⟨1, _⟩ => rfl | ⟨2, _⟩ => rfl))
  · rw [View.read_apply]
    show G _ = G _
    refine congrArg G ?_
    funext a'; apply Fin.ext
    match a' with
    | ⟨0, _⟩ => show t.val / 9 = win0_3.index t (0 : Fin 3) * 1 + 1 * 0; rw [e0]; omega
    | ⟨1, _⟩ => show 0 = win0_3.index t (1 : Fin 3) * 1 + 1 * 0; rw [e1]
    | ⟨2, _⟩ => show j.val = win0_3.index t (2 : Fin 3) * 4224 + 1 * j.val; rw [e2]; omega

/-- The first result array after the run: index (b, 0, j) is covered by the block written back at point 9·b + 8, so
    the array is any G that each such point leaves, row by row, in the first accumulator. -/
theorem final2 (c : Dev nD) (G : S8x1x4224.Idx → Elt F .f32)
    (hG : ∀ t : Fin cfg0.N, t.val % 9 = 8 → ∀ j : Fin 4224,
      (outsAt m c t.val t.isLt).1 (ix3 (0 : Fin 1) (0 : Fin 1) j) = G (ix3 (bOf t) (0 : Fin 1) j)) :
    (dats m 0 c).arrAt 2 cfg0.N = G :=
  (dats m 0 c).arrAt_eq_of_cover 2 G (flushed2_eq m c G hG) fun i => by
    have hi0 : (i 0).val < 8 := (i 0).isLt
    have hi1 : (i 1).val < 1 := (i 1).isLt
    have hi2 : (i 2).val < 4224 := (i 2).isLt
    obtain ⟨tt, htt⟩ : ∃ tt : Fin cfg0.N, tt.val = 9 * (i 0).val + 8 :=
      ⟨⟨9 * (i 0).val + 8, by rw [show cfg0.N = 72 from N_0]; omega⟩, rfl⟩
    obtain ⟨-, -, -, -, -, -, e0, e1, e2, -⟩ := idx_facts tt
    refine ⟨tt, (flush0_2 tt).mpr (by omega), ?_⟩
    show i ∈ ((View.whole main_v5_0).slice (win0_2.rect tt)).set
    rw [View.set_slice_whole, Rect.mem_set_unit]
    intro a
    match a with
    | ⟨0, _⟩ =>
      show win0_2.index tt (0 : Fin 3) * 1 ≤ (i 0).val ∧ (i 0).val < win0_2.index tt (0 : Fin 3) * 1 + 1
      omega
    | ⟨1, _⟩ =>
      show win0_2.index tt (1 : Fin 3) * 1 ≤ (i 1).val ∧ (i 1).val < win0_2.index tt (1 : Fin 3) * 1 + 1
      omega
    | ⟨2, _⟩ =>
      show win0_2.index tt (2 : Fin 3) * 4224 ≤ (i 2).val ∧ (i 2).val < win0_2.index tt (2 : Fin 3) * 4224 + 4224
      omega

/-- The second result array after the run, likewise. -/
theorem final3 (c : Dev nD) (G : S8x1x4224.Idx → Elt F .f32)
    (hG : ∀ t : Fin cfg0.N, t.val % 9 = 8 → ∀ j : Fin 4224,
      (outsAt m c t.val t.isLt).2 (ix3 (0 : Fin 1) (0 : Fin 1) j) = G (ix3 (bOf t) (0 : Fin 1) j)) :
    (dats m 0 c).arrAt 3 cfg0.N = G :=
  (dats m 0 c).arrAt_eq_of_cover 3 G (flushed3_eq m c G hG) fun i => by
    have hi0 : (i 0).val < 8 := (i 0).isLt
    have hi1 : (i 1).val < 1 := (i 1).isLt
    have hi2 : (i 2).val < 4224 := (i 2).isLt
    obtain ⟨tt, htt⟩ : ∃ tt : Fin cfg0.N, tt.val = 9 * (i 0).val + 8 :=
      ⟨⟨9 * (i 0).val + 8, by rw [show cfg0.N = 72 from N_0]; omega⟩, rfl⟩
    obtain ⟨-, -, -, -, -, -, -, -, -, e0, e1, e2⟩ := idx_facts tt
    refine ⟨tt, (flush0_3 tt).mpr (by omega), ?_⟩
    show i ∈ ((View.whole main_v5_1).slice (win0_3.rect tt)).set
    rw [View.set_slice_whole, Rect.mem_set_unit]
    intro a
    match a with
    | ⟨0, _⟩ =>
      show win0_3.index tt (0 : Fin 3) * 1 ≤ (i 0).val ∧ (i 0).val < win0_3.index tt (0 : Fin 3) * 1 + 1
      omega
    | ⟨1, _⟩ =>
      show win0_3.index tt (1 : Fin 3) * 1 ≤ (i 1).val ∧ (i 1).val < win0_3.index tt (1 : Fin 3) * 1 + 1
      omega
    | ⟨2, _⟩ =>
      show win0_3.index tt (2 : Fin 3) * 4224 ≤ (i 2).val ∧ (i 2).val < win0_3.index tt (2 : Fin 3) * 4224 + 4224
      omega

end Cert.KernelIdeal.Body

end
-- ==== Proof.KI.Payload.lean ====
/-
  The kernel body's arithmetic, read at coordinates.

  One grid step holds a tile of 1408 points of the first cloud (rows r, coordinates x(0, r, d)) and a tile of 1408 points
  of the second (columns c, coordinates y(0, d, c), stored transposed). The body forms the 1408 × 1408 matrix of clamped
  squared distances
      D(r, c) = max (∑_d x(r,d)² + ∑_d y(d,c)² − 2·((x(r,0)·y(0,c) + x(r,1)·y(1,c)) + x(r,2)·y(2,c))) 0,
  its row minima (a column vector) and its column minima, and folds each into a running minimum kept in a row of 4224
  lanes, which starts at +∞. Each statement below reads one of those values at an index written by its coordinates.
-/
import proofs.«152621_j67577015435957_2_alg».proof.Proof.Gen.KernelIdeal.Skeleton
import proofs.«152621_j67577015435957_2_alg».proof.Proof.Spec
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx

/-! ### Layout operations at coordinates -/

/-- A vector cast to a column reads, at (r, u), the vector at r. -/
theorem cast_col {α : Type} {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column broadcast over many columns reads, at (r, c), the column at r. -/
theorem bcast_col {α : Type} {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ### Reductions at coordinates -/

/-- A minimum reduction over one axis: the fold of min from the accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A fold of min from ⊤ is the infimum. -/
theorem fold_min_top_eq_inf {ι : Type} (s : Finset ι) (f : ι → EReal) : s.fold min ⊤ f = s.inf f := by
  classical
  induction s using Finset.induction_on with
  | empty => simp
  | insert a s ha ih => rw [Finset.fold_insert ha, Finset.inf_insert, ih]

/-- The word of +∞. -/
theorem ofBits_inf_f32 : Ideal.ofBits .f32 0x7F800000#32 = (⊤ : EReal) := by simp [Ideal.ofBits, Ideal.ieee]

/-- The sum over the three coordinates of a point of the first tile. -/
theorem sum_lanes (src : FVec Ideal S1408x3 .f32) (r : Fin 1408) :
    multiReduction (F := Ideal) .add [1] S1408 src 0x00000000#32 reduces_S1408x3_S1408 (.inl rfl) rfl (ix1 r)
      = ∑ d : Fin 3, src (ix2 r d) := by
  refine (Ideal.multiReduction_add_single src 0x00000000#32 reduces_S1408x3_S1408 (.inl rfl) rfl (ix1 r)).trans ?_
  refine Finset.sum_congr rfl fun d _ => congrArg src ?_
  funext a
  match a with
  | ⟨0, _⟩ => rfl
  | ⟨1, _⟩ => rfl

/-- The sum over the three coordinates of a point of the second tile. -/
theorem sum_sublanes (src : FVec Ideal S3x1408 .f32) (c : Fin 1408) :
    multiReduction (F := Ideal) .add [0] S1408 src 0x00000000#32 reduces_S3x1408_S1408 (.inl rfl) rfl (ix1 c)
      = ∑ d : Fin 3, src (ix2 d c) := by
  refine (Ideal.multiReduction_add_single src 0x00000000#32 reduces_S3x1408_S1408 (.inl rfl) rfl (ix1 c)).trans ?_
  refine Finset.sum_congr rfl fun d _ => congrArg src ?_
  funext a
  match a with
  | ⟨0, _⟩ => rfl
  | ⟨1, _⟩ => rfl

/-- The minimum of a row of the matrix. -/
theorem min_row (src : FVec Ideal S1408x1408 .f32) (r : Fin 1408) :
    multiReduction (F := Ideal) .minimumf [1] S1408 src 0x7F800000#32 reduces_S1408x1408_S1408 (.inl rfl) rfl (ix1 r)
      = Finset.univ.inf fun c : Fin 1408 => src (ix2 r c) := by
  refine (multiReduction_minimumf_single src 0x7F800000#32 reduces_S1408x1408_S1408 (.inl rfl) rfl (ix1 r)).trans ?_
  show (Finset.univ : Finset (Fin 1408)).fold min (Ideal.ofBits .f32 0x7F800000#32)
      (fun c : Fin 1408 => src (reduces_S1408x1408_S1408.lift (ix1 r) c)) = _
  rw [ofBits_inf_f32]
  refine (fold_min_top_eq_inf _ _).trans ?_
  refine congrArg (Finset.univ : Finset (Fin 1408)).inf (funext fun c => congrArg src ?_)
  funext a
  match a with
  | ⟨0, _⟩ => rfl
  | ⟨1, _⟩ => rfl

/-- The minimum of a column of the matrix. -/
theorem min_col (src : FVec Ideal S1408x1408 .f32) (q : Fin 1408) :
    multiReduction (F := Ideal) .minimumf [0] S1408 src 0x7F800000#32 reduces_S1408x1408_S1408_2 (.inl rfl) rfl (ix1 q)
      = Finset.univ.inf fun r : Fin 1408 => src (ix2 r q) := by
  refine (multiReduction_minimumf_single src 0x7F800000#32 reduces_S1408x1408_S1408_2 (.inl rfl) rfl (ix1 q)).trans ?_
  show (Finset.univ : Finset (Fin 1408)).fold min (Ideal.ofBits .f32 0x7F800000#32)
      (fun r : Fin 1408 => src (reduces_S1408x1408_S1408_2.lift (ix1 q) r)) = _
  rw [ofBits_inf_f32]
  refine (fold_min_top_eq_inf _ _).trans ?_
  refine congrArg (Finset.univ : Finset (Fin 1408)).inf (funext fun r => congrArg src ?_)
  funext a
  match a with
  | ⟨0, _⟩ => rfl
  | ⟨1, _⟩ => rfl

/-! ### The slices of the two tiles -/

theorem slice_x0 (v : FVec Ideal S1408x3 .f32) (r : Fin 1408) (u : Fin 1) :
    extractStridedSlice S1408x1 ![0, 0] v slices_S1408x3_o0_0_S1408x1 (ix2 r u) = v (ix2 r (0 : Fin 3)) :=
  slice2_axis1_apply 0 v _ r u 0 (by have hu : u.val = 0 := by omega
                                     rw [hu]; rfl)
theorem slice_x1 (v : FVec Ideal S1408x3 .f32) (r : Fin 1408) (u : Fin 1) :
    extractStridedSlice S1408x1 ![0, 1] v slices_S1408x3_o0_1_S1408x1 (ix2 r u) = v (ix2 r (1 : Fin 3)) :=
  slice2_axis1_apply 1 v _ r u 1 (by have hu : u.val = 0 := by omega
                                     rw [hu]; rfl)
theorem slice_x2 (v : FVec Ideal S1408x3 .f32) (r : Fin 1408) (u : Fin 1) :
    extractStridedSlice S1408x1 ![0, 2] v slices_S1408x3_o0_2_S1408x1 (ix2 r u) = v (ix2 r (2 : Fin 3)) :=
  slice2_axis1_apply 2 v _ r u 2 (by have hu : u.val = 0 := by omega
                                     rw [hu]; rfl)
theorem slice_y0 (v : FVec Ideal S3x1408 .f32) (u : Fin 1) (c : Fin 1408) :
    extractStridedSlice S1x1408 ![0, 0] v slices_S3x1408_o0_0_S1x1408 (ix2 u c) = v (ix2 (0 : Fin 3) c) :=
  slice2_axis0_apply 0 v _ u c 0 (by have hu : u.val = 0 := by omega
                                     rw [hu]; rfl)
theorem slice_y1 (v : FVec Ideal S3x1408 .f32) (u : Fin 1) (c : Fin 1408) :
    extractStridedSlice S1x1408 ![1, 0] v slices_S3x1408_o1_0_S1x1408 (ix2 u c) = v (ix2 (1 : Fin 3) c) :=
  slice2_axis0_apply 1 v _ u c 1 (by have hu : u.val = 0 := by omega
                                     rw [hu]; rfl)
theorem slice_y2 (v : FVec Ideal S3x1408 .f32) (u : Fin 1) (c : Fin 1408) :
    extractStridedSlice S1x1408 ![2, 0] v slices_S3x1408_o2_0_S1x1408 (ix2 u c) = v (ix2 (2 : Fin 3) c) :=
  slice2_axis0_apply 2 v _ u c 2 (by have hu : u.val = 0 := by omega
                                     rw [hu]; rfl)

/-! ### The payloads -/

/-- The running minima start at +∞. -/
theorem pay3_apply (y : S1x1x4224.Idx) : k0_pay3 (F := Ideal) y = ⊤ := by
  show Ideal.ofBits .f32 0x7F800000#32 = ⊤
  exact ofBits_inf_f32

theorem pay4_apply (y : S1x1x4224.Idx) : k0_pay4 (F := Ideal) y = ⊤ := by
  show Ideal.ofBits .f32 0x7F800000#32 = ⊤
  exact ofBits_inf_f32

/-- The row side's update: the running minimum at lane r against the row minimum of row r. -/
theorem pay1_apply (v41 : FVec Ideal S1408x1 .f32) (v50 : Vec Ideal S1x1x1408 .f32) (r : Fin 1408) :
    k0_pay1 (F := Ideal) v41 v50 (ix3 (0 : Fin 1) (0 : Fin 1) r) = min (v50 (ix3 (0 : Fin 1) (0 : Fin 1) r)) (v41 (ix2 r (0 : Fin 1))) := by
  unfold k0_pay1
  refine (shapeCast_ab_1ab_apply _ shapeCasts_S1x1408_S1x1x1408 0 0 r).trans ?_
  show min (shapeCast S1x1408 v50 shapeCasts_S1x1x1408_S1x1408 (ix2 (0 : Fin 1) r))
      (transpose S1x1408 [1, 0] v41 transposes_S1408x1_p1_0_S1x1408 (ix2 (0 : Fin 1) r)) = _
  rw [shapeCast_1ab_ab_apply, transpose_ix2_apply]

/-- The column side's update: the running minimum at lane q against the column minimum of column q. -/
theorem pay2_apply (v39 : FVec Ideal S1408x1408 .f32) (v58 : Vec Ideal S1x1x1408 .f32) (q : Fin 1408) :
    k0_pay2 (F := Ideal) v39 v58 (ix3 (0 : Fin 1) (0 : Fin 1) q)
      = min (v58 (ix3 (0 : Fin 1) (0 : Fin 1) q)) (Finset.univ.inf fun r : Fin 1408 => v39 (ix2 r q)) := by
  unfold k0_pay2
  refine (shapeCast_ab_1ab_apply _ shapeCasts_S1x1408_S1x1x1408 0 0 q).trans ?_
  show min (shapeCast S1x1408 v58 shapeCasts_S1x1x1408_S1x1408 (ix2 (0 : Fin 1) q))
      (shapeCast S1x1408 (multiReduction (F := Ideal) .minimumf [0] S1408 v39 0x7F800000#32 reduces_S1408x1408_S1408_2 (.inl rfl) rfl)
        shapeCasts_S1408_S1x1408 (ix2 (0 : Fin 1) q)) = _
  rw [shapeCast_1ab_ab_apply, shapeCast_a_1a_apply, min_col]

/-- The row minima are the minima of the rows of the distance matrix. -/
theorem pay6_apply (x0 : Vec Ideal S1x1408x3 .f32) (x1 : Vec Ideal S1x3x1408 .f32) (r : Fin 1408) :
    k0_pay6 (F := Ideal) x0 x1 (ix2 r (0 : Fin 1)) = Finset.univ.inf fun c : Fin 1408 => k0_pay5 (F := Ideal) x0 x1 (ix2 r c) := by
  unfold k0_pay6
  refine (cast_col _ shapeCasts_S1408_S1408x1 r 0).trans ?_
  exact min_row (k0_pay5 (F := Ideal) x0 x1) r

set_option maxRecDepth 4096 in
/-- The distance matrix at (r, c) is the clamped squared distance of point r of the first tile and point c of the second. -/
theorem pay5_apply (x0 : Vec Ideal S1x1408x3 .f32) (x1 : Vec Ideal S1x3x1408 .f32) (r c : Fin 1408) :
    k0_pay5 (F := Ideal) x0 x1 (ix2 r c)
      = Chamfer.sq (fun d => x0 (ix3 (0 : Fin 1) r d)) (fun d => x1 (ix3 (0 : Fin 1) d c)) := by
  unfold k0_pay5
  simp only [maximumf_apply, subf_apply, addf_apply, mulf_apply, broadcast_apply,
    bcast_col, broadcastTo_1b_ab_apply, cast_col, shapeCast_a_1a_apply, sum_lanes, sum_sublanes,
    slice_x0, slice_x1, slice_x2, slice_y0, slice_y1, slice_y2, shapeCast_1ab_ab_apply]
  rw [sum_lanes, sum_sublanes]
  simp only [mulf_apply, shapeCast_1ab_ab_apply]
  unfold Chamfer.sq Chamfer.two
  simp only [Fin.sum_univ_three]
  exact congrArg (max _) Ideal.ofBits_zero_f32

end Cert.KernelIdeal.Pay

end
-- ==== Proof.KI.Inv1.lean ====
import proofs.«152621_j67577015435957_2_alg».proof.Proof.KI.CaseVal
import proofs.«152621_j67577015435957_2_alg».proof.Proof.KI.Blocks
import proofs.«152621_j67577015435957_2_alg».proof.Proof.KI.Payload
import proofs.«152621_j67577015435957_2_alg».proof.Proof.Bridge
import Idealize.ShloMosaic.Lib.Pipeline.Value
import Idealize.ShloMosaic.Lib.ValueIdx
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.SL.Sem ValueIdx
open Idealize.ShloMosaic.Pipeline (Dat)

variable (m : (ℓ : Loc nD τ sig) → Buf (Elt Ideal) ℓ) (c : Dev nD)

/-! ## The two padded clouds as the region finds them, and the running minima -/

/-- Point `n` of the first padded cloud of batch element `b`. -/
def cloudX (b : Fin 8) (n : Fin 4224) : Fin 3 → EReal := fun d => (V m c main_v2 : S8x4224x3.Idx → EReal) (ix3 b n d)
/-- Point `k` of the second padded cloud of batch element `b` (staged with its last two axes swapped). -/
def cloudY (b : Fin 8) (k : Fin 4224) : Fin 3 → EReal := fun d => (V m c main_v4 : S8x3x4224.Idx → EReal) (ix3 b d k)

/-- The least clamped squared distance from point `n` of the first cloud to the first `K` tiles of the second. -/
def acc1 (b : Fin 8) (n : Fin 4224) (K : ℕ) : EReal :=
  (Finset.univ.filter fun k : Fin 4224 => k.val < K * 1408).inf fun k => Chamfer.sq (cloudX m c b n) (cloudY m c b k)
/-- The least clamped squared distance from point `k` of the second cloud to the first `K` tiles of the first. -/
def acc2 (b : Fin 8) (k : Fin 4224) (K : ℕ) : EReal :=
  (Finset.univ.filter fun n : Fin 4224 => n.val < K * 1408).inf fun n => Chamfer.sq (cloudX m c b n) (cloudY m c b k)

/-- How many column tiles entry `j` of the first accumulator has met after point `t` = 9·b + 3·ni + mi: all three
    if its row tile is before `ni`, `mi + 1` if it is `ni`, none if it is after. -/
def cnt1 (t j : ℕ) : ℕ := if j / 1408 < t % 9 / 3 then 3 else if j / 1408 = t % 9 / 3 then t % 3 + 1 else 0
/-- How many row tiles entry `j` of the second accumulator has met after point `t`: `ni + 1` if its column tile is
    at most `mi`, else `ni`. -/
def cnt2 (t j : ℕ) : ℕ := if j / 1408 ≤ t % 3 then t % 9 / 3 + 1 else t % 9 / 3

/-- The row minima of a tile whose rows are the points `A r` and whose columns are the points `B q`. -/
theorem rowmin_gen (x0 : Vec Ideal S1x1408x3 .f32) (x1 : Vec Ideal S1x3x1408 .f32) (A B : Fin 1408 → Fin 3 → EReal)
    (hA : ∀ r d, x0 (ix3 (0 : Fin 1) r d) = A r d) (hB : ∀ d q, x1 (ix3 (0 : Fin 1) d q) = B q d) (r : Fin 1408) :
    k0_pay6 (F := Ideal) x0 x1 (ix2 r 0) = Finset.univ.inf fun q : Fin 1408 => Chamfer.sq (A r) (B q) := by
  rw [Pay.pay6_apply]
  refine congrArg _ (funext fun q => ?_)
  rw [Pay.pay5_apply]
  have e1 : (fun d => x0 (ix3 (0 : Fin 1) r d)) = A r := funext fun d => hA r d
  have e2 : (fun d => x1 (ix3 (0 : Fin 1) d q)) = B q := funext fun d => hB d q
  rw [e1, e2]

/-- The column minima of such a tile. -/
theorem colmin_gen (x0 : Vec Ideal S1x1408x3 .f32) (x1 : Vec Ideal S1x3x1408 .f32) (A B : Fin 1408 → Fin 3 → EReal)
    (hA : ∀ r d, x0 (ix3 (0 : Fin 1) r d) = A r d) (hB : ∀ d q, x1 (ix3 (0 : Fin 1) d q) = B q d) (q : Fin 1408) :
    (Finset.univ.inf fun r : Fin 1408 => k0_pay5 (F := Ideal) x0 x1 (ix2 r q)) = Finset.univ.inf fun r : Fin 1408 => Chamfer.sq (A r) (B q) := by
  refine congrArg _ (funext fun r => ?_)
  rw [Pay.pay5_apply]
  have e1 : (fun d => x0 (ix3 (0 : Fin 1) r d)) = A r := funext fun d => hA r d
  have e2 : (fun d => x1 (ix3 (0 : Fin 1) d q)) = B q := funext fun d => hB d q
  rw [e1, e2]

/-- At point `t` the tile's rows are the points `rowOf t r` of the first cloud of batch element `bOf t` and its columns
    the points `colOf t q` of the second. -/
theorem rowmin_eq (t : Fin cfg0.N) (r : Fin 1408) :
    k0_pay6 (F := Ideal) (iblk m c 0 t) (iblk m c 1 t) (ix2 r 0)
      = Finset.univ.inf fun q : Fin 1408 => Chamfer.sq (cloudX m c (bOf t) (rowOf t r)) (cloudY m c (bOf t) (colOf t q)) :=
  rowmin_gen (iblk m c 0 t) (iblk m c 1 t) (fun r => cloudX m c (bOf t) (rowOf t r)) (fun q => cloudY m c (bOf t) (colOf t q))
    (fun r d => iblk0_apply m c t r d) (fun d q => iblk1_apply m c t d q) r
theorem colmin_eq (t : Fin cfg0.N) (q : Fin 1408) :
    (Finset.univ.inf fun r : Fin 1408 => k0_pay5 (F := Ideal) (iblk m c 0 t) (iblk m c 1 t) (ix2 r q))
      = Finset.univ.inf fun r : Fin 1408 => Chamfer.sq (cloudX m c (bOf t) (rowOf t r)) (cloudY m c (bOf t) (colOf t q)) :=
  colmin_gen (iblk m c 0 t) (iblk m c 1 t) (fun r => cloudX m c (bOf t) (rowOf t r)) (fun q => cloudY m c (bOf t) (colOf t q))
    (fun r d => iblk0_apply m c t r d) (fun d q => iblk1_apply m c t d q) q

/-! ## The first accumulator, point by point -/

theorem cnt1_in (t j : ℕ) (hin : j / 1408 = t % 9 / 3) : cnt1 t j = t % 3 + 1 := by
  unfold cnt1; rw [if_neg (by omega), if_pos hin]
theorem cnt1_prev_in (t j : ℕ) (h0 : ¬t % 9 = 0) (hin : j / 1408 = t % 9 / 3) : cnt1 (t - 1) j = t % 3 := by
  unfold cnt1; split_ifs <;> omega
theorem cnt1_prev_out (t j : ℕ) (h0 : ¬t % 9 = 0) (hout : ¬j / 1408 = t % 9 / 3) : cnt1 (t - 1) j = cnt1 t j := by
  unfold cnt1; split_ifs <;> omega
theorem cnt1_reset_out (t j : ℕ) (h0 : t % 9 = 0) (hout : ¬j / 1408 = t % 9 / 3) : cnt1 t j = 0 := by
  unfold cnt1; split_ifs <;> omega

/-- Meeting one more column tile: the running minimum over the first `t % 3` tiles and the tile's row minimum give the
    running minimum over the first `t % 3 + 1`. -/
theorem acc1_step (t : Fin cfg0.N) (j : Fin 4224) :
    min (acc1 m c (bOf t) j (t.val % 3))
        (Finset.univ.inf fun q : Fin 1408 => Chamfer.sq (cloudX m c (bOf t) j) (cloudY m c (bOf t) (colOf t q)))
      = acc1 m c (bOf t) j (t.val % 3 + 1) := by
  unfold acc1
  exact (Chamfer.first_tiles_succ (fun k => Chamfer.sq (cloudX m c (bOf t) j) (cloudY m c (bOf t) k)) (t.val % 3) (by omega)).symm

/-- Away from a reset point: if the accumulator entered the point holding the running minima up to the point before, it
    leaves it holding them up to this point. -/
theorem step1_B (t : Fin cfg0.N) (h0 : ¬t.val % 9 = 0) (xo5 xo6 : Vec Ideal S1x1x4224 .f32) (j : Fin 4224)
    (hprev : xo5 (ix3 (0 : Fin 1) (0 : Fin 1) j) = acc1 m c (bOf t) j (cnt1 (t.val - 1) j.val)) :
    outB5 c (grid0.coords t) (ms0 t) (hs0 t) (ms1 t) (hs1 t) (ms2 t) (hs2 t) (ms3 t) (hs3 t) (fun h => h0 ((hcond0 t).mp h)) (iblk m c 0 t) (iblk m c 1 t) xo5 xo6 (ix3 (0 : Fin 1) (0 : Fin 1) j)
      = acc1 m c (bOf t) j (cnt1 t.val j.val) := by
  have ht := t_lt t
  have hjlt := j.isLt
  obtain ⟨hc0, hc1, hc2⟩ := coords_eq t
  by_cases hin : j.val / 1408 = t.val % 9 / 3
  · have hr : j.val - 1408 * (t.val % 9 / 3) < 1408 := by omega
    have hj : j.val = 1408 * ((grid0.coords t) 1).val + (⟨j.val - 1408 * (t.val % 9 / 3), hr⟩ : Fin 1408).val := by
      rw [hc1]; show j.val = 1408 * (t.val % 9 / 3) + (j.val - 1408 * (t.val % 9 / 3)); omega
    refine (outB5_in c (grid0.coords t) (ms0 t) (hs0 t) (ms1 t) (hs1 t) (ms2 t) (hs2 t) (ms3 t) (hs3 t) (fun h => h0 ((hcond0 t).mp h)) (iblk m c 0 t) (iblk m c 1 t) xo5 xo6 j ⟨j.val - 1408 * (t.val % 9 / 3), hr⟩ hj).trans ?_
    refine (Pay.pay1_apply _ _ _).trans ?_
    rw [ld_off1 xo5 (grid0.coords t) ⟨j.val - 1408 * (t.val % 9 / 3), hr⟩ j hj, hprev, rowmin_eq m c t ⟨j.val - 1408 * (t.val % 9 / 3), hr⟩]
    have hrow : rowOf t ⟨j.val - 1408 * (t.val % 9 / 3), hr⟩ = j :=
      Fin.ext (by show t.val % 9 / 3 * 1408 + (j.val - 1408 * (t.val % 9 / 3)) = j.val; omega)
    rw [hrow, cnt1_prev_in t.val j.val h0 hin, cnt1_in t.val j.val hin]
    exact acc1_step m c t j
  · refine (outB5_out c (grid0.coords t) (ms0 t) (hs0 t) (ms1 t) (hs1 t) (ms2 t) (hs2 t) (ms3 t) (hs3 t) (fun h => h0 ((hcond0 t).mp h)) (iblk m c 0 t) (iblk m c 1 t) xo5 xo6 j (by rw [hc1]; omega)).trans ?_
    rw [hprev, cnt1_prev_out t.val j.val h0 hin]

/-- At a reset point the accumulator leaves holding the running minima of the first point of its batch element. -/
theorem step1_A (t : Fin cfg0.N) (h0 : t.val % 9 = 0) (j : Fin 4224) :
    outA5 c (grid0.coords t) (ms0 t) (hs0 t) (ms1 t) (hs1 t) (ms2 t) (hs2 t) (ms3 t) (hs3 t) ((hcond0 t).mpr h0) (iblk m c 0 t) (iblk m c 1 t) (ix3 (0 : Fin 1) (0 : Fin 1) j)
      = acc1 m c (bOf t) j (cnt1 t.val j.val) := by
  have ht := t_lt t
  have hjlt := j.isLt
  obtain ⟨hc0, hc1, hc2⟩ := coords_eq t
  by_cases hin : j.val / 1408 = t.val % 9 / 3
  · have hr : j.val - 1408 * (t.val % 9 / 3) < 1408 := by omega
    have hj : j.val = 1408 * ((grid0.coords t) 1).val + (⟨j.val - 1408 * (t.val % 9 / 3), hr⟩ : Fin 1408).val := by
      rw [hc1]; show j.val = 1408 * (t.val % 9 / 3) + (j.val - 1408 * (t.val % 9 / 3)); omega
    refine (outA5_in c (grid0.coords t) (ms0 t) (hs0 t) (ms1 t) (hs1 t) (ms2 t) (hs2 t) (ms3 t) (hs3 t) ((hcond0 t).mpr h0) (iblk m c 0 t) (iblk m c 1 t) j ⟨j.val - 1408 * (t.val % 9 / 3), hr⟩ hj).trans ?_
    refine (Pay.pay1_apply _ _ _).trans ?_
    rw [ld_off1 (F := Ideal) (k0_pay3 (F := Ideal) : Vec Ideal S1x1x4224 .f32) (grid0.coords t) ⟨j.val - 1408 * (t.val % 9 / 3), hr⟩ j hj, Pay.pay3_apply, rowmin_eq m c t ⟨j.val - 1408 * (t.val % 9 / 3), hr⟩]
    have hrow : rowOf t ⟨j.val - 1408 * (t.val % 9 / 3), hr⟩ = j :=
      Fin.ext (by show t.val % 9 / 3 * 1408 + (j.val - 1408 * (t.val % 9 / 3)) = j.val; omega)
    have htop : acc1 m c (bOf t) j (t.val % 3) = ⊤ := by
      rw [show t.val % 3 = 0 from by omega]; exact Chamfer.first_tiles_zero _
    rw [hrow, cnt1_in t.val j.val hin, ← htop]
    exact acc1_step m c t j
  · refine (outA5_out c (grid0.coords t) (ms0 t) (hs0 t) (ms1 t) (hs1 t) (ms2 t) (hs2 t) (ms3 t) (hs3 t) ((hcond0 t).mpr h0) (iblk m c 0 t) (iblk m c 1 t) j (by rw [hc1]; omega)).trans ?_
    rw [Pay.pay3_apply, cnt1_reset_out t.val j.val h0 hin]
    exact (Chamfer.first_tiles_zero _).symm

section
attribute [local irreducible] outsAt outA5 outA6 outB5 outB6 acc1

set_option maxHeartbeats 1000000 in
/-- THE INVARIANT of the first accumulator: after point `n` its entry `j` holds the least clamped squared distance from
    point `j` of the first cloud to the column tiles it has met. -/
theorem inv1 (n : ℕ) : ∀ (h : n < cfg0.N) (j : Fin 4224),
    (outsAt m c n h).1 (ix3 (0 : Fin 1) (0 : Fin 1) j) = acc1 m c (bOf ⟨n, h⟩) j (cnt1 n j.val) := by
  induction n with
  | zero =>
    intro h j
    exact (congrFun (congrArg Prod.fst (outsAt_A m c ⟨0, h⟩ rfl)) (ix3 (0 : Fin 1) (0 : Fin 1) j)).trans (step1_A m c ⟨0, h⟩ rfl j)
  | succ n ihn =>
    intro h j
    by_cases h0 : (n + 1) % 9 = 0
    · exact (congrFun (congrArg Prod.fst (outsAt_A m c ⟨n + 1, h⟩ h0)) (ix3 (0 : Fin 1) (0 : Fin 1) j)).trans
        (step1_A m c ⟨n + 1, h⟩ h0 j)
    · have ih := ihn (Nat.lt_of_succ_lt h) j
      have hb : bOf ⟨n, Nat.lt_of_succ_lt h⟩ = bOf ⟨n + 1, h⟩ := Fin.ext (by show n / 9 = (n + 1) / 9; omega)
      have ih' : (outsAt m c n (Nat.lt_of_succ_lt h)).1 (ix3 (0 : Fin 1) (0 : Fin 1) j)
          = acc1 m c (bOf ⟨n + 1, h⟩) j (cnt1 n j.val) :=
        ih.trans (congrArg (fun b => acc1 m c b j (cnt1 n j.val)) hb)
      exact (congrFun (congrArg Prod.fst (outsAt_B m c ⟨n + 1, h⟩ h0)) (ix3 (0 : Fin 1) (0 : Fin 1) j)).trans
        (step1_B m c ⟨n + 1, h⟩ h0 (outsAt m c n (Nat.lt_of_succ_lt h)).1 (outsAt m c n (Nat.lt_of_succ_lt h)).2 j ih')

end

/-- At the last point of a batch element every entry has met all three column tiles. -/
theorem cnt1_last (t j : ℕ) (h8 : t % 9 = 8) (hj : j < 4224) : cnt1 t j = 3 := by
  unfold cnt1; split_ifs <;> omega

/-- THE FIRST RESULT ARRAY: row `b`, lane `j` is the least clamped squared distance from point `j` of the first padded
    cloud of batch element `b` to the second. -/
theorem arr2_eq : (dats m 0 c).arrAt 2 cfg0.N
    = fun i : S8x1x4224.Idx => Chamfer.near1 (cloudX m c (i 0)) (cloudY m c (i 0)) (i 2) :=
  final2 m c _ fun t h8 j => by
    refine (inv1 m c t.val t.isLt j).trans ?_
    rw [cnt1_last t.val j.val h8 j.isLt]
    unfold acc1
    rw [Chamfer.first_tiles_three]
    rfl

end Cert.KernelIdeal.Body

end
-- ==== Proof.KI.Inv2.lean ====
/-
  The second accumulator of the pipeline, point by point.

  After point t = 9·b + 3·ni + mi, entry j of the second accumulator holds the least clamped squared distance from
  point j of the second padded cloud of batch element b to the row tiles of the first cloud it has met: tiles 0 … ni
  if its column tile is at most mi, tiles 0 … ni − 1 otherwise. At the ninth point of a batch element that is every
  tile, so the second result array holds, row by row, the distances to the nearest point of the first cloud.
-/
import proofs.«152621_j67577015435957_2_alg».proof.Proof.KI.Inv1

set_option maxRecDepth 16384

noncomputable section

namespace Cert.KernelIdeal.Body

open Cert.KernelIdeal Cert.KernelIdeal.Gen
open Idealize.ShloMosaic Idealize.ShloMosaic.TcCoe Idealize.SL.Sem ValueIdx
open Idealize.ShloMosaic.Pipeline (Dat)

variable (m : (ℓ : Loc nD τ sig) → Buf (Elt Ideal) ℓ) (c : Dev nD)

/-! ## The count of row tiles met -/

theorem cnt2_in (t j : ℕ) (hin : j / 1408 = t % 3) : cnt2 t j = t % 9 / 3 + 1 := by
  unfold cnt2; rw [if_pos (by omega)]
theorem cnt2_prev_in (t j : ℕ) (h0 : ¬t % 9 = 0) (hj : j < 4224) (hin : j / 1408 = t % 3) : cnt2 (t - 1) j = t % 9 / 3 := by
  unfold cnt2; split_ifs <;> omega
theorem cnt2_prev_out (t j : ℕ) (h0 : ¬t % 9 = 0) (hj : j < 4224) (hout : ¬j / 1408 = t % 3) : cnt2 (t - 1) j = cnt2 t j := by
  unfold cnt2; split_ifs <;> omega
theorem cnt2_reset_out (t j : ℕ) (h0 : t % 9 = 0) (hout : ¬j / 1408 = t % 3) : cnt2 t j = 0 := by
  unfold cnt2; split_ifs <;> omega

/-! ## The second accumulator, point by point -/

/-- Meeting one more row tile: the running minimum over the first `t % 9 / 3` row tiles and the tile's column minimum
    give the running minimum over the first `t % 9 / 3 + 1`. -/
theorem acc2_step (t : Fin cfg0.N) (j : Fin 4224) :
    min (acc2 m c (bOf t) j (t.val % 9 / 3))
        (Finset.univ.inf fun r : Fin 1408 => Chamfer.sq (cloudX m c (bOf t) (rowOf t r)) (cloudY m c (bOf t) j))
      = acc2 m c (bOf t) j (t.val % 9 / 3 + 1) := by
  unfold acc2
  exact (Chamfer.first_tiles_succ (fun n => Chamfer.sq (cloudX m c (bOf t) n) (cloudY m c (bOf t) j)) (t.val % 9 / 3) (by have := t_lt t; omega)).symm

/-- Away from a reset point: if the accumulator entered the point holding the running minima up to the point before, it
    leaves it holding them up to this point. -/
theorem step2_B (t : Fin cfg0.N) (h0 : ¬t.val % 9 = 0) (xo5 xo6 : Vec Ideal S1x1x4224 .f32) (j : Fin 4224)
    (hprev : xo6 (ix3 (0 : Fin 1) (0 : Fin 1) j) = acc2 m c (bOf t) j (cnt2 (t.val - 1) j.val)) :
    outB6 c (grid0.coords t) (ms0 t) (hs0 t) (ms1 t) (hs1 t) (ms2 t) (hs2 t) (ms3 t) (hs3 t) (fun h => h0 ((hcond0 t).mp h)) (iblk m c 0 t) (iblk m c 1 t) xo5 xo6 (ix3 (0 : Fin 1) (0 : Fin 1) j)
      = acc2 m c (bOf t) j (cnt2 t.val j.val) := by
  have ht := t_lt t
  have hjlt := j.isLt
  obtain ⟨hc0, hc1, hc2⟩ := coords_eq t
  by_cases hin : j.val / 1408 = t.val % 3
  · have hq : j.val - 1408 * (t.val % 3) < 1408 := by omega
    have hj : j.val = 1408 * ((grid0.coords t) 2).val + (⟨j.val - 1408 * (t.val % 3), hq⟩ : Fin 1408).val := by
      rw [hc2]; show j.val = 1408 * (t.val % 3) + (j.val - 1408 * (t.val % 3)); omega
    refine (outB6_in c (grid0.coords t) (ms0 t) (hs0 t) (ms1 t) (hs1 t) (ms2 t) (hs2 t) (ms3 t) (hs3 t) (fun h => h0 ((hcond0 t).mp h)) (iblk m c 0 t) (iblk m c 1 t) xo5 xo6 j ⟨j.val - 1408 * (t.val % 3), hq⟩ hj).trans ?_
    refine (Pay.pay2_apply _ _ _).trans ?_
    rw [ld_off2 xo6 (grid0.coords t) ⟨j.val - 1408 * (t.val % 3), hq⟩ j hj, hprev, colmin_eq m c t ⟨j.val - 1408 * (t.val % 3), hq⟩]
    have hcol : colOf t ⟨j.val - 1408 * (t.val % 3), hq⟩ = j :=
      Fin.ext (by show t.val % 3 * 1408 + (j.val - 1408 * (t.val % 3)) = j.val; omega)
    rw [hcol, cnt2_prev_in t.val j.val h0 hjlt hin, cnt2_in t.val j.val hin]
    exact acc2_step m c t j
  · refine (outB6_out c (grid0.coords t) (ms0 t) (hs0 t) (ms1 t) (hs1 t) (ms2 t) (hs2 t) (ms3 t) (hs3 t) (fun h => h0 ((hcond0 t).mp h)) (iblk m c 0 t) (iblk m c 1 t) xo5 xo6 j (by rw [hc2]; omega)).trans ?_
    rw [hprev, cnt2_prev_out t.val j.val h0 hjlt hin]

/-- At a reset point the accumulator leaves holding the running minima of the first point of its batch element. -/
theorem step2_A (t : Fin cfg0.N) (h0 : t.val % 9 = 0) (j : Fin 4224) :
    outA6 c (grid0.coords t) (ms0 t) (hs0 t) (ms1 t) (hs1 t) (ms2 t) (hs2 t) (ms3 t) (hs3 t) ((hcond0 t).mpr h0) (iblk m c 0 t) (iblk m c 1 t) (ix3 (0 : Fin 1) (0 : Fin 1) j)
      = acc2 m c (bOf t) j (cnt2 t.val j.val) := by
  have ht := t_lt t
  have hjlt := j.isLt
  obtain ⟨hc0, hc1, hc2⟩ := coords_eq t
  by_cases hin : j.val / 1408 = t.val % 3
  · have hq : j.val - 1408 * (t.val % 3) < 1408 := by omega
    have hj : j.val = 1408 * ((grid0.coords t) 2).val + (⟨j.val - 1408 * (t.val % 3), hq⟩ : Fin 1408).val := by
      rw [hc2]; show j.val = 1408 * (t.val % 3) + (j.val - 1408 * (t.val % 3)); omega
    refine (outA6_in c (grid0.coords t) (ms0 t) (hs0 t) (ms1 t) (hs1 t) (ms2 t) (hs2 t) (ms3 t) (hs3 t) ((hcond0 t).mpr h0) (iblk m c 0 t) (iblk m c 1 t) j ⟨j.val - 1408 * (t.val % 3), hq⟩ hj).trans ?_
    refine (Pay.pay2_apply _ _ _).trans ?_
    rw [ld_off2 (F := Ideal) (k0_pay4 (F := Ideal) : Vec Ideal S1x1x4224 .f32) (grid0.coords t) ⟨j.val - 1408 * (t.val % 3), hq⟩ j hj, Pay.pay4_apply, colmin_eq m c t ⟨j.val - 1408 * (t.val % 3), hq⟩]
    have hcol : colOf t ⟨j.val - 1408 * (t.val % 3), hq⟩ = j :=
      Fin.ext (by show t.val % 3 * 1408 + (j.val - 1408 * (t.val % 3)) = j.val; omega)
    have htop : acc2 m c (bOf t) j (t.val % 9 / 3) = ⊤ := by
      rw [show t.val % 9 / 3 = 0 from by omega]; exact Chamfer.first_tiles_zero _
    rw [hcol, cnt2_in t.val j.val hin, ← htop]
    exact acc2_step m c t j
  · refine (outA6_out c (grid0.coords t) (ms0 t) (hs0 t) (ms1 t) (hs1 t) (ms2 t) (hs2 t) (ms3 t) (hs3 t) ((hcond0 t).mpr h0) (iblk m c 0 t) (iblk m c 1 t) j (by rw [hc2]; omega)).trans ?_
    rw [Pay.pay4_apply, cnt2_reset_out t.val j.val h0 hin]
    exact (Chamfer.first_tiles_zero _).symm

section
attribute [local irreducible] outsAt outA5 outA6 outB5 outB6 acc2

set_option maxHeartbeats 1000000 in
/-- THE INVARIANT of the second accumulator: after point `n` its entry `j` holds the least clamped squared distance from
    point `j` of the second cloud to the row tiles of the first it has met. -/
theorem inv2 (n : ℕ) : ∀ (h : n < cfg0.N) (j : Fin 4224),
    (outsAt m c n h).2 (ix3 (0 : Fin 1) (0 : Fin 1) j) = acc2 m c (bOf ⟨n, h⟩) j (cnt2 n j.val) := by
  induction n with
  | zero =>
    intro h j
    exact (congrFun (congrArg Prod.snd (outsAt_A m c ⟨0, h⟩ rfl)) (ix3 (0 : Fin 1) (0 : Fin 1) j)).trans (step2_A m c ⟨0, h⟩ rfl j)
  | succ n ihn =>
    intro h j
    by_cases h0 : (n + 1) % 9 = 0
    · exact (congrFun (congrArg Prod.snd (outsAt_A m c ⟨n + 1, h⟩ h0)) (ix3 (0 : Fin 1) (0 : Fin 1) j)).trans
        (step2_A m c ⟨n + 1, h⟩ h0 j)
    · have ih := ihn (Nat.lt_of_succ_lt h) j
      have hb : bOf ⟨n, Nat.lt_of_succ_lt h⟩ = bOf ⟨n + 1, h⟩ := Fin.ext (by show n / 9 = (n + 1) / 9; omega)
      have ih' : (outsAt m c n (Nat.lt_of_succ_lt h)).2 (ix3 (0 : Fin 1) (0 : Fin 1) j)
          = acc2 m c (bOf ⟨n + 1, h⟩) j (cnt2 n j.val) :=
        ih.trans (congrArg (fun b => acc2 m c b j (cnt2 n j.val)) hb)
      exact (congrFun (congrArg Prod.snd (outsAt_B m c ⟨n + 1, h⟩ h0)) (ix3 (0 : Fin 1) (0 : Fin 1) j)).trans
        (step2_B m c ⟨n + 1, h⟩ h0 (outsAt m c n (Nat.lt_of_succ_lt h)).1 (outsAt m c n (Nat.lt_of_succ_lt h)).2 j ih')

end

/-- At the last point of a batch element every entry has met all three row tiles. -/
theorem cnt2_last (t j : ℕ) (h8 : t % 9 = 8) (hj : j < 4224) : cnt2 t j = 3 := by
  unfold cnt2; split_ifs <;> omega

/-- THE SECOND RESULT ARRAY: row `b`, lane `j` is the least clamped squared distance from point `j` of the second padded
    cloud of batch element `b` to the first. -/
theorem arr3_eq : (dats m 0 c).arrAt 3 cfg0.N
    = fun i : S8x1x4224.Idx => Chamfer.near2 (cloudX m c (i 0)) (cloudY m c (i 0)) (i 2) :=
  final3 m c _ fun t h8 j => by
    refine (inv2 m c t.val t.isLt j).trans ?_
    rw [cnt2_last t.val j.val h8 j.isLt]
    unfold acc2
    rw [Chamfer.first_tiles_three]
    rfl

end Cert.KernelIdeal.Body

end
-- ==== Proof.lean ====
/-
  The certificate's proof. Both programs compute, for eight pairs of point clouds in extended-real 3-space, the mean of
  a nearest-neighbour loss: each cloud is extended by copies of one sentinel point, every clamped squared distance
  max(|u|² + |v|² − 2⟨u,v⟩, 0) between the two extended clouds is formed, each point takes the least distance to the
  other cloud, and a side of the loss is the sum of those least distances over the number of strictly positive ones.
  One program extends each cloud by 128 copies of the sentinel and computes the minima tile by tile over a 3 × 3 grid
  of 1408 × 1408 tiles per pair, keeping two running minima that it resets at the first tile; the other extends by a
  single copy and computes everything at once.

  The two agree on every extended-real input: a clamped squared distance is never negative and the sentinel's distance
  to itself is exactly zero, so every sentinel's least distance is zero, the infimum over an extended cloud does not
  depend on how many copies of the sentinel it has, and the extra entries add nothing to the sums or to the counts
  (module Bridge). The tiled program's running minima after each grid point are the minima over the tiles met so far
  (modules KI/Inv1, KI/Inv2, by induction on the point), so its two result arrays hold the row and column infima;
  its host lines before and after the grid are read at an index in module HostSide, the other program's in module
  RefSide, and module Assemble joins them. The three frame conjuncts come from running the tiled program's body once
  per case of its one conditional (modules K/… at the word level, KI/… on the extended reals); the idealization rewrote
  nothing, so its conjunct is trivial.
-/
import proofs.«152621_j67577015435957_2_alg».proof.Proof.Assemble
import proofs.«152621_j67577015435957_2_alg».proof.Proof.HostSide
import proofs.«152621_j67577015435957_2_alg».proof.Proof.KI.Inv1
import proofs.«152621_j67577015435957_2_alg».proof.Proof.KI.Inv2

noncomputable section

namespace Cert.Proof

theorem claim : Cert.Claim :=
  Cert.Proof.claim' Cert.KernelIdeal.HostValue.tail_v27 Cert.KernelIdeal.HostValue.tail_v31
    Cert.KernelIdeal.HostValue.V_v2 Cert.KernelIdeal.HostValue.V_v4
    (fun m c => Cert.KernelIdeal.Body.arr2_eq m c) (fun m c => Cert.KernelIdeal.Body.arr3_eq m c)

end Cert.Proof

end
